-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_25600" .f32 0x3823D70A#32 ((1 / 25600 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x512x500 : Shape := ⟨4, ![4, 32, 512, 500]⟩
abbrev S_ : Shape := ⟨0, ![]⟩

class Facts : Prop where
  bcast_S_S4x32x512x500 : S_.BroadcastsInDim S4x32x512x500 (![] : Fin 0 → Fin S4x32x512x500.rank)
  reducesTo_S4x32x512x500_S_d0_1_2_3 : S4x32x512x500.ReducesTo [0, 1, 2, 3] S_
  h_S_ : 0 < S_.numel

variable [Facts]

def fn {F : FTy → Type} [FloatOps F] (main_arg0 : FVec F S4x32x512x500 .f32) : IVec S_ 1 :=
  let main_v0 : FVec F S4x32x512x500 .f32 := Host.absf main_arg0
  let main_cst : FVec F S_ .f32 := constant S_ .f32 0x7F800000#32
  let main_v1 : FVec F S4x32x512x500 .f32 := broadcastInDim S4x32x512x500 ![] bcast_S_S4x32x512x500 main_cst
  let main_v2 : IVec S4x32x512x500 1 := cmpf .olt main_v0 main_v1
  let main_c : IVec S_ 1 := constantI S_ 1 1#1
  let main_v3 : IVec S_ 1 := (fun x v => Host.reduce IntOp.andi x v reducesTo_S4x32x512x500_S_d0_1_2_3 h_S_) main_v2 main_c
  main_v3
-- ==== Kernel.lean ====
abbrev S4x32x512x500 : Shape := ⟨4, ![4, 32, 512, 500]⟩
abbrev S21x2 : Shape := ⟨2, ![21, 2]⟩
abbrev S10x10 : Shape := ⟨2, ![10, 10]⟩
abbrev S4x10x32 : Shape := ⟨3, ![4, 10, 32]⟩
abbrev S4x10x1 : Shape := ⟨3, ![4, 10, 1]⟩
abbrev S1x32x256x500 : Shape := ⟨4, ![1, 32, 256, 500]⟩
abbrev S1x10x32 : Shape := ⟨3, ![1, 10, 32]⟩
abbrev S1x10x1 : Shape := ⟨3, ![1, 10, 1]⟩
abbrev S32x500 : Shape := ⟨2, ![32, 500]⟩
abbrev S1x500 : Shape := ⟨2, ![1, 500]⟩
abbrev S32x256x500 : Shape := ⟨3, ![32, 256, 500]⟩
abbrev S256x500 : Shape := ⟨2, ![256, 500]⟩
abbrev S500 : Shape := ⟨1, ![500]⟩
abbrev S32x10x50 : Shape := ⟨3, ![32, 10, 50]⟩
abbrev S32x10 : Shape := ⟨2, ![32, 10]⟩
abbrev S10x32 : Shape := ⟨2, ![10, 32]⟩
abbrev S1x10x50 : Shape := ⟨3, ![1, 10, 50]⟩
abbrev S1x10 : Shape := ⟨2, ![1, 10]⟩
abbrev S4x10 : Shape := ⟨2, ![4, 10]⟩
abbrev S_ : Shape := ⟨0, ![]⟩
abbrev S10 : Shape := ⟨1, ![10]⟩
abbrev S10x4x32 : Shape := ⟨3, ![10, 4, 32]⟩
abbrev S5x4x32 : Shape := ⟨3, ![5, 4, 32]⟩
abbrev S10x1 : Shape := ⟨2, ![10, 1]⟩
abbrev S5 : Shape := ⟨1, ![5]⟩
abbrev S5x1x1 : Shape := ⟨3, ![5, 1, 1]⟩
abbrev S4x5x32 : Shape := ⟨3, ![4, 5, 32]⟩
abbrev S3x4x32 : Shape := ⟨3, ![3, 4, 32]⟩
abbrev S5x1 : Shape := ⟨2, ![5, 1]⟩
abbrev S3 : Shape := ⟨1, ![3]⟩
abbrev S3x1x1 : Shape := ⟨3, ![3, 1, 1]⟩
abbrev S4x3x32 : Shape := ⟨3, ![4, 3, 32]⟩
abbrev S2x4x32 : Shape := ⟨3, ![2, 4, 32]⟩
abbrev S3x1 : Shape := ⟨2, ![3, 1]⟩
abbrev S2 : Shape := ⟨1, ![2]⟩
abbrev S2x1x1 : Shape := ⟨3, ![2, 1, 1]⟩
abbrev S4x2x32 : Shape := ⟨3, ![4, 2, 32]⟩
abbrev S1x4x32 : Shape := ⟨3, ![1, 4, 32]⟩
abbrev S2x1 : Shape := ⟨2, ![2, 1]⟩
abbrev S1 : Shape := ⟨1, ![1]⟩
abbrev S1x1x1 : Shape := ⟨3, ![1, 1, 1]⟩
abbrev S4x1x32 : Shape := ⟨3, ![4, 1, 32]⟩
abbrev S1x21x2 : Shape := ⟨3, ![1, 21, 2]⟩
abbrev S4x21x2 : Shape := ⟨3, ![4, 21, 2]⟩
abbrev S4x10x1x32 : Shape := ⟨4, ![4, 10, 1, 32]⟩
abbrev S4x1x10x32 : Shape := ⟨4, ![4, 1, 10, 32]⟩
abbrev S4x10x10x32 : Shape := ⟨4, ![4, 10, 10, 32]⟩
abbrev S4x10x10 : Shape := ⟨3, ![4, 10, 10]⟩
abbrev S1x10x10 : Shape := ⟨3, ![1, 10, 10]⟩

abbrev nBuf : Space → Nat
  | .hbm => 215
  | .vmem => 8
  | .smem => 0
  | _ => 0

abbrev hbmTy0_0 (i : Nat) : BufTy := match i % 128 with
  | 0 => ⟨S4x32x512x500, .f32⟩
  | 1 => ⟨S21x2, .i32⟩
  | 2 => ⟨S10x10, .f32⟩
  | 3 => ⟨S4x10x32, .f32⟩
  | 4 => ⟨S4x10x1, .f32⟩
  | 5 => ⟨S4x10, .f32⟩
  | 6 => ⟨S_, .f32⟩
  | 7 => ⟨S4x10x32, .f32⟩
  | 8 => ⟨S4x10x32, .f32⟩
  | 9 => ⟨S4x10x1, .f32⟩
  | 10 => ⟨S_, .f32⟩
  | 11 => ⟨S4x10x1, .f32⟩
  | 12 => ⟨S4x10x1, .f32⟩
  | 13 => ⟨S4x10x32, .f32⟩
  | 14 => ⟨S4x10x32, .f32⟩
  | 15 => ⟨S10, .i32⟩
  | 16 => ⟨S_, .i32⟩
  | 17 => ⟨S_, .i32⟩
  | 18 => ⟨S10, .i32⟩
  | 19 => ⟨S10, .i32⟩
  | 20 => ⟨S10, .i32⟩
  | 21 => ⟨S_, .i32⟩
  | 22 => ⟨S10, .i32⟩
  | 23 => ⟨S10, .i1⟩
  | 24 => ⟨S10, .i32⟩
  | 25 => ⟨S10, .i32⟩
  | 26 => ⟨S_, .i32⟩
  | 27 => ⟨S10, .i32⟩
  | 28 => ⟨S10, .i1⟩
  | 29 => ⟨S10, .i1⟩
  | 30 => ⟨S_, .i32⟩
  | 31 => ⟨S10, .i32⟩
  | 32 => ⟨S10, .i32⟩
  | 33 => ⟨S10, .i32⟩
  | 34 => ⟨S10x4x32, .f32⟩
  | 35 => ⟨S_, .f32⟩
  | 36 => ⟨S5x4x32, .f32⟩
  | 37 => ⟨S10x1, .i32⟩
  | 38 => ⟨S5x4x32, .f32⟩
  | 39 => ⟨S_, .f32⟩
  | 40 => ⟨S10, .f32⟩
  | 41 => ⟨S_, .f32⟩
  | 42 => ⟨S5, .f32⟩
  | 43 => ⟨S10x1, .i32⟩
  | 44 => ⟨S5, .f32⟩
  | 45 => ⟨S5x1x1, .f32⟩
  | 46 => ⟨S5x4x32, .f32⟩
  | 47 => ⟨S5x4x32, .f32⟩
  | 48 => ⟨S4x5x32, .f32⟩
  | 49 => ⟨S4x5x32, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S5, .i32⟩
  | 57 => ⟨S_, .i32⟩
  | 58 => ⟨S_, .i32⟩
  | 59 => ⟨S5, .i32⟩
  | 60 => ⟨S5, .i32⟩
  | 61 => ⟨S5, .i32⟩
  | 62 => ⟨S_, .i32⟩
  | 63 => ⟨S5, .i32⟩
  | 64 => ⟨S5, .i1⟩
  | 65 => ⟨S5, .i32⟩
  | 66 => ⟨S5, .i32⟩
  | 67 => ⟨S_, .i32⟩
  | 68 => ⟨S5, .i32⟩
  | 69 => ⟨S5, .i1⟩
  | 70 => ⟨S5, .i1⟩
  | 71 => ⟨S_, .i32⟩
  | 72 => ⟨S5, .i32⟩
  | 73 => ⟨S5, .i32⟩
  | 74 => ⟨S5, .i32⟩
  | 75 => ⟨S5x4x32, .f32⟩
  | 76 => ⟨S_, .f32⟩
  | 77 => ⟨S3x4x32, .f32⟩
  | 78 => ⟨S5x1, .i32⟩
  | 79 => ⟨S3x4x32, .f32⟩
  | 80 => ⟨S_, .f32⟩
  | 81 => ⟨S5, .f32⟩
  | 82 => ⟨S_, .f32⟩
  | 83 => ⟨S3, .f32⟩
  | 84 => ⟨S5x1, .i32⟩
  | 85 => ⟨S3, .f32⟩
  | 86 => ⟨S3x1x1, .f32⟩
  | 87 => ⟨S3x4x32, .f32⟩
  | 88 => ⟨S3x4x32, .f32⟩
  | 89 => ⟨S4x3x32, .f32⟩
  | 90 => ⟨S4x3x32, .f32⟩
  | 91 => ⟨S_, .f32⟩
  | 92 => ⟨S_, .f32⟩
  | 93 => ⟨S_, .f32⟩
  | 94 => ⟨S_, .f32⟩
  | 95 => ⟨S_, .f32⟩
  | 96 => ⟨S3, .i32⟩
  | 97 => ⟨S_, .i32⟩
  | 98 => ⟨S_, .i32⟩
  | 99 => ⟨S3, .i32⟩
  | 100 => ⟨S3, .i32⟩
  | 101 => ⟨S3, .i32⟩
  | 102 => ⟨S_, .i32⟩
  | 103 => ⟨S3, .i32⟩
  | 104 => ⟨S3, .i1⟩
  | 105 => ⟨S3, .i32⟩
  | 106 => ⟨S3, .i32⟩
  | 107 => ⟨S_, .i32⟩
  | 108 => ⟨S3, .i32⟩
  | 109 => ⟨S3, .i1⟩
  | 110 => ⟨S3, .i1⟩
  | 111 => ⟨S_, .i32⟩
  | 112 => ⟨S3, .i32⟩
  | 113 => ⟨S3, .i32⟩
  | 114 => ⟨S3, .i32⟩
  | 115 => ⟨S3x4x32, .f32⟩
  | 116 => ⟨S_, .f32⟩
  | 117 => ⟨S2x4x32, .f32⟩
  | 118 => ⟨S3x1, .i32⟩
  | 119 => ⟨S2x4x32, .f32⟩
  | 120 => ⟨S_, .f32⟩
  | 121 => ⟨S3, .f32⟩
  | 122 => ⟨S_, .f32⟩
  | 123 => ⟨S2, .f32⟩
  | 124 => ⟨S3x1, .i32⟩
  | 125 => ⟨S2, .f32⟩
  | 126 => ⟨S2x1x1, .f32⟩
  | 127 => ⟨S2x4x32, .f32⟩
  | _ => ⟨S4x32x512x500, .f32⟩

abbrev hbmTy0_1 (i : Nat) : BufTy := match i % 128 with
  | 0 => ⟨S2x4x32, .f32⟩
  | 1 => ⟨S4x2x32, .f32⟩
  | 2 => ⟨S4x2x32, .f32⟩
  | 3 => ⟨S_, .f32⟩
  | 4 => ⟨S_, .f32⟩
  | 5 => ⟨S_, .f32⟩
  | 6 => ⟨S_, .f32⟩
  | 7 => ⟨S_, .f32⟩
  | 8 => ⟨S2, .i32⟩
  | 9 => ⟨S_, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i1⟩
  | 17 => ⟨S2, .i32⟩
  | 18 => ⟨S2, .i32⟩
  | 19 => ⟨S_, .i32⟩
  | 20 => ⟨S2, .i32⟩
  | 21 => ⟨S2, .i1⟩
  | 22 => ⟨S2, .i1⟩
  | 23 => ⟨S_, .i32⟩
  | 24 => ⟨S2, .i32⟩
  | 25 => ⟨S2, .i32⟩
  | 26 => ⟨S2, .i32⟩
  | 27 => ⟨S2x4x32, .f32⟩
  | 28 => ⟨S_, .f32⟩
  | 29 => ⟨S1x4x32, .f32⟩
  | 30 => ⟨S2x1, .i32⟩
  | 31 => ⟨S1x4x32, .f32⟩
  | 32 => ⟨S_, .f32⟩
  | 33 => ⟨S2, .f32⟩
  | 34 => ⟨S_, .f32⟩
  | 35 => ⟨S1, .f32⟩
  | 36 => ⟨S2x1, .i32⟩
  | 37 => ⟨S1, .f32⟩
  | 38 => ⟨S1x1x1, .f32⟩
  | 39 => ⟨S1x4x32, .f32⟩
  | 40 => ⟨S1x4x32, .f32⟩
  | 41 => ⟨S4x1x32, .f32⟩
  | 42 => ⟨S4x1x32, .f32⟩
  | 43 => ⟨S_, .f32⟩
  | 44 => ⟨S_, .f32⟩
  | 45 => ⟨S_, .f32⟩
  | 46 => ⟨S_, .f32⟩
  | 47 => ⟨S_, .f32⟩
  | 48 => ⟨S1x21x2, .i32⟩
  | 49 => ⟨S4x21x2, .i32⟩
  | 50 => ⟨S4x10x1x32, .f32⟩
  | 51 => ⟨S4x1x10x32, .f32⟩
  | 52 => ⟨S4x10x10x32, .f32⟩
  | 53 => ⟨S4x10x10x32, .f32⟩
  | 54 => ⟨S4x10x10x32, .f32⟩
  | 55 => ⟨S4x10x10x32, .f32⟩
  | 56 => ⟨S_, .f32⟩
  | 57 => ⟨S4x10x10, .f32⟩
  | 58 => ⟨S_, .f32⟩
  | 59 => ⟨S4x10x10, .f32⟩
  | 60 => ⟨S4x10x10, .f32⟩
  | 61 => ⟨S4x10x10, .f32⟩
  | 62 => ⟨S4x10x10, .f32⟩
  | 63 => ⟨S1x10x10, .f32⟩
  | 64 => ⟨S4x10x10, .f32⟩
  | 65 => ⟨S4x10x10, .f32⟩
  | 66 => ⟨S_, .f32⟩
  | 67 => ⟨S10x10, .f32⟩
  | 68 => ⟨S10x10, .f32⟩
  | 69 => ⟨S_, .f32⟩
  | 70 => ⟨S4x10x10, .f32⟩
  | 71 => ⟨S4x10x10, .f32⟩
  | 72 => ⟨S_, .f32⟩
  | 73 => ⟨S4x10x10, .f32⟩
  | 74 => ⟨S4x10x10, .f32⟩
  | 75 => ⟨S4x10x10, .f32⟩
  | 76 => ⟨S1x10x10, .f32⟩
  | 77 => ⟨S4x10x10, .f32⟩
  | 78 => ⟨S4x10x10, .f32⟩
  | 79 => ⟨S4x10x10, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | _ => ⟨S4x32x512x500, .f32⟩

abbrev hbmTy (i : Nat) : BufTy := match i / 128 with
  | 0 => hbmTy0_0 i
  | 1 => hbmTy0_1 i
  | _ => ⟨S4x32x512x500, .f32⟩

abbrev bufTy : (tb : Table) → Fin (tcTables nBuf tb) → BufTy
  | .hbm, ⟨i, _⟩ => hbmTy i
  | .local _ .vmem, ⟨0, _⟩ => ⟨S1x32x256x500, .f32⟩
  | .local _ .vmem, ⟨1, _⟩ => ⟨S1x32x256x500, .f32⟩
  | .local _ .vmem, ⟨2, _⟩ => ⟨S1x10x32, .f32⟩
  | .local _ .vmem, ⟨3, _⟩ => ⟨S1x10x32, .f32⟩
  | .local _ .vmem, ⟨4, _⟩ => ⟨S1x10x1, .f32⟩
  | .local _ .vmem, ⟨5, _⟩ => ⟨S1x10x1, .f32⟩
  | .local _ .vmem, ⟨6, _⟩ => ⟨S32x500, .f32⟩
  | .local _ .vmem, ⟨7, _⟩ => ⟨S1x500, .f32⟩
  | _, _ => ⟨S4x32x512x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_cst_5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_c_9 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v28 : Ref sig .tc := ⟨.hbm, 74, rfl⟩
abbrev main_v29 : Ref sig .tc := ⟨.hbm, 75, rfl⟩
abbrev main_cst_10 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_11 : Ref sig .tc := ⟨.hbm, 80, rfl⟩
abbrev main_v33 : Ref sig .tc := ⟨.hbm, 81, rfl⟩
abbrev main_cst_12 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_13 : Ref sig .tc := ⟨.hbm, 91, rfl⟩
abbrev main_v42 : Ref sig .tc := ⟨.hbm, 92, rfl⟩
abbrev main_cst_14 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_15 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v46 : Ref sig .tc := ⟨.hbm, 114, rfl⟩
abbrev main_v47 : Ref sig .tc := ⟨.hbm, 115, rfl⟩
abbrev main_cst_16 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_cst_17 : Ref sig .tc := ⟨.hbm, 120, rfl⟩
abbrev main_v51 : Ref sig .tc := ⟨.hbm, 121, rfl⟩
abbrev main_cst_18 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_19 : Ref sig .tc := ⟨.hbm, 131, rfl⟩
abbrev main_v60 : Ref sig .tc := ⟨.hbm, 132, rfl⟩
abbrev main_cst_20 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_c_21 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_c : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_0 : Ref sig .tc := ⟨.hbm, 151, rfl⟩
abbrev main_call3_v12 : Ref sig .tc := ⟨.hbm, 152, rfl⟩
abbrev main_call3_v13 : Ref sig .tc := ⟨.hbm, 153, rfl⟩
abbrev main_v64 : Ref sig .tc := ⟨.hbm, 154, rfl⟩
abbrev main_v65 : Ref sig .tc := ⟨.hbm, 155, rfl⟩
abbrev main_cst_22 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_23 : Ref sig .tc := ⟨.hbm, 160, rfl⟩
abbrev main_v69 : Ref sig .tc := ⟨.hbm, 161, rfl⟩
abbrev main_cst_24 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_cst_25 : Ref sig .tc := ⟨.hbm, 171, rfl⟩
abbrev main_v78 : Ref sig .tc := ⟨.hbm, 172, rfl⟩
abbrev main_cst_26 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_cst_27 : Ref sig .tc := ⟨.hbm, 184, rfl⟩
abbrev main_v89 : Ref sig .tc := ⟨.hbm, 185, rfl⟩
abbrev main_cst_28 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_cst_29 : Ref sig .tc := ⟨.hbm, 194, rfl⟩
abbrev main_v97 : Ref sig .tc := ⟨.hbm, 195, rfl⟩
abbrev main_v98 : Ref sig .tc := ⟨.hbm, 196, rfl⟩
abbrev main_cst_30 : Ref sig .tc := ⟨.hbm, 197, rfl⟩
abbrev main_v99 : Ref sig .tc := ⟨.hbm, 198, rfl⟩
abbrev main_v100 : Ref sig .tc := ⟨.hbm, 199, rfl⟩
abbrev main_cst_31 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_cst_32 : Ref sig .tc := ⟨.hbm, 208, rfl⟩
abbrev main_v108 : Ref sig .tc := ⟨.hbm, 209, rfl⟩
abbrev main_cst_33 : Ref sig .tc := ⟨.hbm, 210, rfl⟩
abbrev main_v109 : Ref sig .tc := ⟨.hbm, 211, rfl⟩
abbrev main_cst_34 : Ref sig .tc := ⟨.hbm, 212, rfl⟩
abbrev main_v110 : Ref sig .tc := ⟨.hbm, 213, rfl⟩
abbrev main_v111 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_15 : BitVec 32 := 0#32
  let v24 : BitVec 1 := Scalar.cmpi .ne v23 c0_i32_15
  v24

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x500_S32x500_0_0 : ∀ a, (![0, 0] : Fin 2 → Nat) a + S32x500.size a ≤ S32x500.size a
  h_S32x500 : 0 < S32x500.numel
  shapeCasts_S32x500_S32x500 : S32x500.ShapeCasts S32x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  inb_S1x32x256x500_S1x32x256x500_0_0_0_0 : ∀ a, (![0, 0, 0, 0] : Fin 4 → Nat) a + S1x32x256x500.size a ≤ S1x32x256x500.size a
  h_S1x32x256x500 : 0 < S1x32x256x500.numel
  shapeCasts_S1x32x256x500_S32x256x500 : S1x32x256x500.ShapeCasts S32x256x500
  reduces_S32x256x500_S32x500 : S32x256x500.Reduces [1] S32x500
  reduces_S32x256x500_S256x500 : S32x256x500.Reduces [0] S256x500
  reduces_S256x500_S500 : S256x500.Reduces [0] S500
  shapeCasts_S500_S1x500 : S500.ShapeCasts S1x500
  shapeCasts_S32x500_S32x10x50 : S32x500.ShapeCasts S32x10x50
  reduces_S32x10x50_S32x10 : S32x10x50.Reduces [2] S32x10
  transposes_S32x10_p1_0_S10x32 : S32x10.Transposes [1, 0] S10x32
  shapeCasts_S10x32_S1x10x32 : S10x32.ShapeCasts S1x10x32
  inb_S1x10x32_S1x10x32_0_0_0 : ∀ a, (![0, 0, 0] : Fin 3 → Nat) a + S1x10x32.size a ≤ S1x10x32.size a
  h_S1x10x32 : 0 < S1x10x32.numel
  shapeCasts_S1x500_S1x10x50 : S1x500.ShapeCasts S1x10x50
  reduces_S1x10x50_S1x10 : S1x10x50.Reduces [2] S1x10
  shapeCasts_S1x10_S1x10x1 : S1x10.ShapeCasts S1x10x1
  inb_S1x10x1_S1x10x1_0_0_0 : ∀ a, (![0, 0, 0] : Fin 3 → Nat) a + S1x10x1.size a ≤ S1x10x1.size a
  h_S1x10x1 : 0 < S1x10x1.numel
  shapeCasts_S4x10x1_S4x10 : S4x10x1.ShapeCasts S4x10
  bcast_S_S4x10x32 : S_.BroadcastsInDim S4x10x32 (![] : Fin 0 → Fin S4x10x32.rank)
  bcast_S4x10_S4x10x1_0_1 : S4x10.BroadcastsInDim S4x10x1 (![0, 1] : Fin 2 → Fin S4x10x1.rank)
  bcast_S_S4x10x1 : S_.BroadcastsInDim S4x10x1 (![] : Fin 0 → Fin S4x10x1.rank)
  bcast_S4x10x1_S4x10x32_0_1_2 : S4x10x1.BroadcastsInDim S4x10x32 (![0, 1, 2] : Fin 3 → Fin S4x10x32.rank)
  bcast_S_S10 : S_.BroadcastsInDim S10 (![] : Fin 0 → Fin S10.rank)
  transposes_S4x10x32_S10x4x32_1_0_2 : S4x10x32.Transposes [1, 0, 2] S10x4x32
  bcast_S_S5x4x32 : S_.BroadcastsInDim S5x4x32 (![] : Fin 0 → Fin S5x4x32.rank)
  bcast_S10_S10x1_0 : S10.BroadcastsInDim S10x1 (![0] : Fin 1 → Fin S10x1.rank)
  bcast_S_S5 : S_.BroadcastsInDim S5 (![] : Fin 0 → Fin S5.rank)
  bcast_S5_S5x1x1_0 : S5.BroadcastsInDim S5x1x1 (![0] : Fin 1 → Fin S5x1x1.rank)
  bcast_S5x1x1_S5x4x32_0_1_2 : S5x1x1.BroadcastsInDim S5x4x32 (![0, 1, 2] : Fin 3 → Fin S5x4x32.rank)
  transposes_S5x4x32_S4x5x32_1_0_2 : S5x4x32.Transposes [1, 0, 2] S4x5x32
  reducesTo_S4x5x32_S_d0_1_2 : S4x5x32.ReducesTo [0, 1, 2] S_
  h_S_ : 0 < S_.numel
  transposes_S4x5x32_S5x4x32_1_0_2 : S4x5x32.Transposes [1, 0, 2] S5x4x32
  bcast_S_S3x4x32 : S_.BroadcastsInDim S3x4x32 (![] : Fin 0 → Fin S3x4x32.rank)
  bcast_S5_S5x1_0 : S5.BroadcastsInDim S5x1 (![0] : Fin 1 → Fin S5x1.rank)
  bcast_S_S3 : S_.BroadcastsInDim S3 (![] : Fin 0 → Fin S3.rank)
  bcast_S3_S3x1x1_0 : S3.BroadcastsInDim S3x1x1 (![0] : Fin 1 → Fin S3x1x1.rank)
  bcast_S3x1x1_S3x4x32_0_1_2 : S3x1x1.BroadcastsInDim S3x4x32 (![0, 1, 2] : Fin 3 → Fin S3x4x32.rank)
  transposes_S3x4x32_S4x3x32_1_0_2 : S3x4x32.Transposes [1, 0, 2] S4x3x32
  reducesTo_S4x3x32_S_d0_1_2 : S4x3x32.ReducesTo [0, 1, 2] S_
  transposes_S4x3x32_S3x4x32_1_0_2 : S4x3x32.Transposes [1, 0, 2] S3x4x32
  bcast_S_S2x4x32 : S_.BroadcastsInDim S2x4x32 (![] : Fin 0 → Fin S2x4x32.rank)
  bcast_S3_S3x1_0 : S3.BroadcastsInDim S3x1 (![0] : Fin 1 → Fin S3x1.rank)
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x4x32_0_1_2 : S2x1x1.BroadcastsInDim S2x4x32 (![0, 1, 2] : Fin 3 → Fin S2x4x32.rank)
  transposes_S2x4x32_S4x2x32_1_0_2 : S2x4x32.Transposes [1, 0, 2] S4x2x32
  reducesTo_S4x2x32_S_d0_1_2 : S4x2x32.ReducesTo [0, 1, 2] S_
  transposes_S4x2x32_S2x4x32_1_0_2 : S4x2x32.Transposes [1, 0, 2] S2x4x32
  bcast_S_S1x4x32 : S_.BroadcastsInDim S1x4x32 (![] : Fin 0 → Fin S1x4x32.rank)
  bcast_S2_S2x1_0 : S2.BroadcastsInDim S2x1 (![0] : Fin 1 → Fin S2x1.rank)
  bcast_S_S1 : S_.BroadcastsInDim S1 (![] : Fin 0 → Fin S1.rank)
  bcast_S1_S1x1x1_0 : S1.BroadcastsInDim S1x1x1 (![0] : Fin 1 → Fin S1x1x1.rank)
  bcast_S1x1x1_S1x4x32_0_1_2 : S1x1x1.BroadcastsInDim S1x4x32 (![0, 1, 2] : Fin 3 → Fin S1x4x32.rank)
  transposes_S1x4x32_S4x1x32_1_0_2 : S1x4x32.Transposes [1, 0, 2] S4x1x32
  reducesTo_S4x1x32_S_d0_1_2 : S4x1x32.ReducesTo [0, 1, 2] S_
  bcast_S21x2_S1x21x2_1_2 : S21x2.BroadcastsInDim S1x21x2 (![1, 2] : Fin 2 → Fin S1x21x2.rank)
  bcast_S1x21x2_S4x21x2_0_1_2 : S1x21x2.BroadcastsInDim S4x21x2 (![0, 1, 2] : Fin 3 → Fin S4x21x2.rank)
  bcast_S4x10x32_S4x10x1x32_0_1_3 : S4x10x32.BroadcastsInDim S4x10x1x32 (![0, 1, 3] : Fin 3 → Fin S4x10x1x32.rank)
  bcast_S4x10x32_S4x1x10x32_0_2_3 : S4x10x32.BroadcastsInDim S4x1x10x32 (![0, 2, 3] : Fin 3 → Fin S4x1x10x32.rank)
  bcast_S4x10x1x32_S4x10x10x32_0_1_2_3 : S4x10x1x32.BroadcastsInDim S4x10x10x32 (![0, 1, 2, 3] : Fin 4 → Fin S4x10x10x32.rank)
  bcast_S4x1x10x32_S4x10x10x32_0_1_2_3 : S4x1x10x32.BroadcastsInDim S4x10x10x32 (![0, 1, 2, 3] : Fin 4 → Fin S4x10x10x32.rank)
  reducesTo_S4x10x10x32_S4x10x10_d3 : S4x10x10x32.ReducesTo [3] S4x10x10
  bcast_S_S4x10x10 : S_.BroadcastsInDim S4x10x10 (![] : Fin 0 → Fin S4x10x10.rank)
  bcast_S10x10_S1x10x10_1_2 : S10x10.BroadcastsInDim S1x10x10 (![1, 2] : Fin 2 → Fin S1x10x10.rank)
  bcast_S1x10x10_S4x10x10_0_1_2 : S1x10x10.BroadcastsInDim S4x10x10 (![0, 1, 2] : Fin 3 → Fin S4x10x10.rank)
  bcast_S_S10x10 : S_.BroadcastsInDim S10x10 (![] : Fin 0 → Fin S10x10.rank)
  reducesTo_S4x10x10_S_d0_1_2 : S4x10x10.ReducesTo [0, 1, 2] S_
  scatter_S5x4x32_S10x1_S10x4x32_12_0_0_1_wf : ScatterDims.WF S5x4x32 S10x1 S10x4x32 [1, 2] [0] [0] 1
  scatter_S5_S10x1_S10_n_0_0_1_wf : ScatterDims.WF S5 S10x1 S10 [] [0] [0] 1
  scatter_S3x4x32_S5x1_S5x4x32_12_0_0_1_wf : ScatterDims.WF S3x4x32 S5x1 S5x4x32 [1, 2] [0] [0] 1
  scatter_S3_S5x1_S5_n_0_0_1_wf : ScatterDims.WF S3 S5x1 S5 [] [0] [0] 1
  scatter_S2x4x32_S3x1_S3x4x32_12_0_0_1_wf : ScatterDims.WF S2x4x32 S3x1 S3x4x32 [1, 2] [0] [0] 1
  scatter_S2_S3x1_S3_n_0_0_1_wf : ScatterDims.WF S2 S3x1 S3 [] [0] [0] 1
  scatter_S1x4x32_S2x1_S2x4x32_12_0_0_1_wf : ScatterDims.WF S1x4x32 S2x1 S2x4x32 [1, 2] [0] [0] 1
  scatter_S1_S2x1_S2_n_0_0_1_wf : ScatterDims.WF S1 S2x1 S2 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x500.size a ≤ S4x32x512x500.size a
  hwx0_0 : ∀ i : grid0.Coords, EltTy.bits .f32 = 32 ∨ (Rect.block (s := S4x32x512x500) S1x32x256x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x32.size a ≤ S4x10x32.size a
  hwx0_1 : ∀ i : grid0.Coords, EltTy.bits .f32 = 32 ∨ (Rect.block (s := S4x10x32) S1x10x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x1.size a ≤ S4x10x1.size a
  hwx0_2 : ∀ i : grid0.Coords, EltTy.bits .f32 = 32 ∨ (Rect.block (s := S4x10x1) S1x10x1.size (cc0_transform_2 i) (hinb0_2 i)).WholeWords (EltTy.packing .f32)

variable [Facts₀]

def scatter_S5x4x32_S10x1_S10x4x32_12_0_0_1 : ScatterDims S5x4x32 S10x1 S10x4x32 where
  updateWindowDims := [1, 2]
  insertedWindowDims := [0]
  scatterDimsToOperandDims := [0]
  indexVectorDim := 1
  wf := scatter_S5x4x32_S10x1_S10x4x32_12_0_0_1_wf
def scatter_S5_S10x1_S10_n_0_0_1 : ScatterDims S5 S10x1 S10 where
  updateWindowDims := []
  insertedWindowDims := [0]
  scatterDimsToOperandDims := [0]
  indexVectorDim := 1
  wf := scatter_S5_S10x1_S10_n_0_0_1_wf
def scatter_S3x4x32_S5x1_S5x4x32_12_0_0_1 : ScatterDims S3x4x32 S5x1 S5x4x32 where
  updateWindowDims := [1, 2]
  insertedWindowDims := [0]
  scatterDimsToOperandDims := [0]
  indexVectorDim := 1
  wf := scatter_S3x4x32_S5x1_S5x4x32_12_0_0_1_wf
def scatter_S3_S5x1_S5_n_0_0_1 : ScatterDims S3 S5x1 S5 where
  updateWindowDims := []
  insertedWindowDims := [0]
  scatterDimsToOperandDims := [0]
  indexVectorDim := 1
  wf := scatter_S3_S5x1_S5_n_0_0_1_wf
def scatter_S2x4x32_S3x1_S3x4x32_12_0_0_1 : ScatterDims S2x4x32 S3x1 S3x4x32 where
  updateWindowDims := [1, 2]
  insertedWindowDims := [0]
  scatterDimsToOperandDims := [0]
  indexVectorDim := 1
  wf := scatter_S2x4x32_S3x1_S3x4x32_12_0_0_1_wf
def scatter_S2_S3x1_S3_n_0_0_1 : ScatterDims S2 S3x1 S3 where
  updateWindowDims := []
  insertedWindowDims := [0]
  scatterDimsToOperandDims := [0]
  indexVectorDim := 1
  wf := scatter_S2_S3x1_S3_n_0_0_1_wf
def scatter_S1x4x32_S2x1_S2x4x32_12_0_0_1 : ScatterDims S1x4x32 S2x1 S2x4x32 where
  updateWindowDims := [1, 2]
  insertedWindowDims := [0]
  scatterDimsToOperandDims := [0]
  indexVectorDim := 1
  wf := scatter_S1x4x32_S2x1_S2x4x32_12_0_0_1_wf
def scatter_S1_S2x1_S2_n_0_0_1 : ScatterDims S1 S2x1 S2 where
  updateWindowDims := []
  insertedWindowDims := [0]
  scatterDimsToOperandDims := [0]
  indexVectorDim := 1
  wf := scatter_S1_S2x1_S2_n_0_0_1_wf

abbrev win0_0 : Pipeline.Window sig grid0 :=
  Pipeline.Window.ofSpec (Memref.whole main_arg0) S1x32x256x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x10x32.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x10x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x32x512x500 : Shape := ⟨4, ![4, 32, 512, 500]⟩
abbrev S21x2 : Shape := ⟨2, ![21, 2]⟩
abbrev S10x10 : Shape := ⟨2, ![10, 10]⟩
abbrev S4x32x512x10x50 : Shape := ⟨5, ![4, 32, 512, 10, 50]⟩
abbrev S_ : Shape := ⟨0, ![]⟩
abbrev S4x32x10 : Shape := ⟨3, ![4, 32, 10]⟩
abbrev S4x10x32 : Shape := ⟨3, ![4, 10, 32]⟩
abbrev S4x512x500 : Shape := ⟨3, ![4, 512, 500]⟩
abbrev S4x512x10x50 : Shape := ⟨4, ![4, 512, 10, 50]⟩
abbrev S4x10x512x50 : Shape := ⟨4, ![4, 10, 512, 50]⟩
abbrev S4x10x25600 : Shape := ⟨3, ![4, 10, 25600]⟩
abbrev S4x10 : Shape := ⟨2, ![4, 10]⟩
abbrev S4x10x1 : Shape := ⟨3, ![4, 10, 1]⟩
abbrev S10 : Shape := ⟨1, ![10]⟩
abbrev S10x4x32 : Shape := ⟨3, ![10, 4, 32]⟩
abbrev S5x4x32 : Shape := ⟨3, ![5, 4, 32]⟩
abbrev S10x1 : Shape := ⟨2, ![10, 1]⟩
abbrev S5 : Shape := ⟨1, ![5]⟩
abbrev S5x1x1 : Shape := ⟨3, ![5, 1, 1]⟩
abbrev S4x5x32 : Shape := ⟨3, ![4, 5, 32]⟩
abbrev S3x4x32 : Shape := ⟨3, ![3, 4, 32]⟩
abbrev S5x1 : Shape := ⟨2, ![5, 1]⟩
abbrev S3 : Shape := ⟨1, ![3]⟩
abbrev S3x1x1 : Shape := ⟨3, ![3, 1, 1]⟩
abbrev S4x3x32 : Shape := ⟨3, ![4, 3, 32]⟩
abbrev S2x4x32 : Shape := ⟨3, ![2, 4, 32]⟩
abbrev S3x1 : Shape := ⟨2, ![3, 1]⟩
abbrev S2 : Shape := ⟨1, ![2]⟩
abbrev S2x1x1 : Shape := ⟨3, ![2, 1, 1]⟩
abbrev S4x2x32 : Shape := ⟨3, ![4, 2, 32]⟩
abbrev S1x4x32 : Shape := ⟨3, ![1, 4, 32]⟩
abbrev S2x1 : Shape := ⟨2, ![2, 1]⟩
abbrev S1 : Shape := ⟨1, ![1]⟩
abbrev S1x1x1 : Shape := ⟨3, ![1, 1, 1]⟩
abbrev S4x1x32 : Shape := ⟨3, ![4, 1, 32]⟩
abbrev S1x21x2 : Shape := ⟨3, ![1, 21, 2]⟩
abbrev S4x21x2 : Shape := ⟨3, ![4, 21, 2]⟩
abbrev S4x10x1x32 : Shape := ⟨4, ![4, 10, 1, 32]⟩
abbrev S4x1x10x32 : Shape := ⟨4, ![4, 1, 10, 32]⟩
abbrev S4x10x10x32 : Shape := ⟨4, ![4, 10, 10, 32]⟩
abbrev S4x10x10 : Shape := ⟨3, ![4, 10, 10]⟩
abbrev S1x10x10 : Shape := ⟨3, ![1, 10, 10]⟩

abbrev nBuf : Space → Nat
  | .hbm => 230
  | .vmem => 0
  | .smem => 0
  | _ => 0

abbrev hbmTy0_0 (i : Nat) : BufTy := match i % 128 with
  | 0 => ⟨S4x32x512x500, .f32⟩
  | 1 => ⟨S21x2, .i32⟩
  | 2 => ⟨S10x10, .f32⟩
  | 3 => ⟨S4x32x512x10x50, .f32⟩
  | 4 => ⟨S_, .f32⟩
  | 5 => ⟨S4x32x10, .f32⟩
  | 6 => ⟨S_, .f32⟩
  | 7 => ⟨S4x32x10, .f32⟩
  | 8 => ⟨S4x32x10, .f32⟩
  | 9 => ⟨S4x10x32, .f32⟩
  | 10 => ⟨S_, .f32⟩
  | 11 => ⟨S4x512x500, .f32⟩
  | 12 => ⟨S_, .f32⟩
  | 13 => ⟨S4x512x500, .f32⟩
  | 14 => ⟨S4x512x500, .f32⟩
  | 15 => ⟨S4x512x10x50, .f32⟩
  | 16 => ⟨S4x10x512x50, .f32⟩
  | 17 => ⟨S4x10x25600, .f32⟩
  | 18 => ⟨S4x10x25600, .f32⟩
  | 19 => ⟨S_, .f32⟩
  | 20 => ⟨S4x10, .f32⟩
  | 21 => ⟨S_, .f32⟩
  | 22 => ⟨S4x10x32, .f32⟩
  | 23 => ⟨S4x10x32, .f32⟩
  | 24 => ⟨S4x10x1, .f32⟩
  | 25 => ⟨S_, .f32⟩
  | 26 => ⟨S4x10x1, .f32⟩
  | 27 => ⟨S4x10x1, .f32⟩
  | 28 => ⟨S4x10x32, .f32⟩
  | 29 => ⟨S4x10x32, .f32⟩
  | 30 => ⟨S10, .i32⟩
  | 31 => ⟨S_, .i32⟩
  | 32 => ⟨S_, .i32⟩
  | 33 => ⟨S10, .i32⟩
  | 34 => ⟨S10, .i32⟩
  | 35 => ⟨S10, .i32⟩
  | 36 => ⟨S_, .i32⟩
  | 37 => ⟨S10, .i32⟩
  | 38 => ⟨S10, .i1⟩
  | 39 => ⟨S10, .i32⟩
  | 40 => ⟨S10, .i32⟩
  | 41 => ⟨S_, .i32⟩
  | 42 => ⟨S10, .i32⟩
  | 43 => ⟨S10, .i1⟩
  | 44 => ⟨S10, .i1⟩
  | 45 => ⟨S_, .i32⟩
  | 46 => ⟨S10, .i32⟩
  | 47 => ⟨S10, .i32⟩
  | 48 => ⟨S10, .i32⟩
  | 49 => ⟨S10x4x32, .f32⟩
  | 50 => ⟨S_, .f32⟩
  | 51 => ⟨S5x4x32, .f32⟩
  | 52 => ⟨S10x1, .i32⟩
  | 53 => ⟨S5x4x32, .f32⟩
  | 54 => ⟨S_, .f32⟩
  | 55 => ⟨S10, .f32⟩
  | 56 => ⟨S_, .f32⟩
  | 57 => ⟨S5, .f32⟩
  | 58 => ⟨S10x1, .i32⟩
  | 59 => ⟨S5, .f32⟩
  | 60 => ⟨S5x1x1, .f32⟩
  | 61 => ⟨S5x4x32, .f32⟩
  | 62 => ⟨S5x4x32, .f32⟩
  | 63 => ⟨S4x5x32, .f32⟩
  | 64 => ⟨S4x5x32, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S5, .i32⟩
  | 72 => ⟨S_, .i32⟩
  | 73 => ⟨S_, .i32⟩
  | 74 => ⟨S5, .i32⟩
  | 75 => ⟨S5, .i32⟩
  | 76 => ⟨S5, .i32⟩
  | 77 => ⟨S_, .i32⟩
  | 78 => ⟨S5, .i32⟩
  | 79 => ⟨S5, .i1⟩
  | 80 => ⟨S5, .i32⟩
  | 81 => ⟨S5, .i32⟩
  | 82 => ⟨S_, .i32⟩
  | 83 => ⟨S5, .i32⟩
  | 84 => ⟨S5, .i1⟩
  | 85 => ⟨S5, .i1⟩
  | 86 => ⟨S_, .i32⟩
  | 87 => ⟨S5, .i32⟩
  | 88 => ⟨S5, .i32⟩
  | 89 => ⟨S5, .i32⟩
  | 90 => ⟨S5x4x32, .f32⟩
  | 91 => ⟨S_, .f32⟩
  | 92 => ⟨S3x4x32, .f32⟩
  | 93 => ⟨S5x1, .i32⟩
  | 94 => ⟨S3x4x32, .f32⟩
  | 95 => ⟨S_, .f32⟩
  | 96 => ⟨S5, .f32⟩
  | 97 => ⟨S_, .f32⟩
  | 98 => ⟨S3, .f32⟩
  | 99 => ⟨S5x1, .i32⟩
  | 100 => ⟨S3, .f32⟩
  | 101 => ⟨S3x1x1, .f32⟩
  | 102 => ⟨S3x4x32, .f32⟩
  | 103 => ⟨S3x4x32, .f32⟩
  | 104 => ⟨S4x3x32, .f32⟩
  | 105 => ⟨S4x3x32, .f32⟩
  | 106 => ⟨S_, .f32⟩
  | 107 => ⟨S_, .f32⟩
  | 108 => ⟨S_, .f32⟩
  | 109 => ⟨S_, .f32⟩
  | 110 => ⟨S_, .f32⟩
  | 111 => ⟨S3, .i32⟩
  | 112 => ⟨S_, .i32⟩
  | 113 => ⟨S_, .i32⟩
  | 114 => ⟨S3, .i32⟩
  | 115 => ⟨S3, .i32⟩
  | 116 => ⟨S3, .i32⟩
  | 117 => ⟨S_, .i32⟩
  | 118 => ⟨S3, .i32⟩
  | 119 => ⟨S3, .i1⟩
  | 120 => ⟨S3, .i32⟩
  | 121 => ⟨S3, .i32⟩
  | 122 => ⟨S_, .i32⟩
  | 123 => ⟨S3, .i32⟩
  | 124 => ⟨S3, .i1⟩
  | 125 => ⟨S3, .i1⟩
  | 126 => ⟨S_, .i32⟩
  | 127 => ⟨S3, .i32⟩
  | _ => ⟨S4x32x512x500, .f32⟩

abbrev hbmTy0_1 (i : Nat) : BufTy := match i % 128 with
  | 0 => ⟨S3, .i32⟩
  | 1 => ⟨S3, .i32⟩
  | 2 => ⟨S3x4x32, .f32⟩
  | 3 => ⟨S_, .f32⟩
  | 4 => ⟨S2x4x32, .f32⟩
  | 5 => ⟨S3x1, .i32⟩
  | 6 => ⟨S2x4x32, .f32⟩
  | 7 => ⟨S_, .f32⟩
  | 8 => ⟨S3, .f32⟩
  | 9 => ⟨S_, .f32⟩
  | 10 => ⟨S2, .f32⟩
  | 11 => ⟨S3x1, .i32⟩
  | 12 => ⟨S2, .f32⟩
  | 13 => ⟨S2x1x1, .f32⟩
  | 14 => ⟨S2x4x32, .f32⟩
  | 15 => ⟨S2x4x32, .f32⟩
  | 16 => ⟨S4x2x32, .f32⟩
  | 17 => ⟨S4x2x32, .f32⟩
  | 18 => ⟨S_, .f32⟩
  | 19 => ⟨S_, .f32⟩
  | 20 => ⟨S_, .f32⟩
  | 21 => ⟨S_, .f32⟩
  | 22 => ⟨S_, .f32⟩
  | 23 => ⟨S2, .i32⟩
  | 24 => ⟨S_, .i32⟩
  | 25 => ⟨S_, .i32⟩
  | 26 => ⟨S2, .i32⟩
  | 27 => ⟨S2, .i32⟩
  | 28 => ⟨S2, .i32⟩
  | 29 => ⟨S_, .i32⟩
  | 30 => ⟨S2, .i32⟩
  | 31 => ⟨S2, .i1⟩
  | 32 => ⟨S2, .i32⟩
  | 33 => ⟨S2, .i32⟩
  | 34 => ⟨S_, .i32⟩
  | 35 => ⟨S2, .i32⟩
  | 36 => ⟨S2, .i1⟩
  | 37 => ⟨S2, .i1⟩
  | 38 => ⟨S_, .i32⟩
  | 39 => ⟨S2, .i32⟩
  | 40 => ⟨S2, .i32⟩
  | 41 => ⟨S2, .i32⟩
  | 42 => ⟨S2x4x32, .f32⟩
  | 43 => ⟨S_, .f32⟩
  | 44 => ⟨S1x4x32, .f32⟩
  | 45 => ⟨S2x1, .i32⟩
  | 46 => ⟨S1x4x32, .f32⟩
  | 47 => ⟨S_, .f32⟩
  | 48 => ⟨S2, .f32⟩
  | 49 => ⟨S_, .f32⟩
  | 50 => ⟨S1, .f32⟩
  | 51 => ⟨S2x1, .i32⟩
  | 52 => ⟨S1, .f32⟩
  | 53 => ⟨S1x1x1, .f32⟩
  | 54 => ⟨S1x4x32, .f32⟩
  | 55 => ⟨S1x4x32, .f32⟩
  | 56 => ⟨S4x1x32, .f32⟩
  | 57 => ⟨S4x1x32, .f32⟩
  | 58 => ⟨S_, .f32⟩
  | 59 => ⟨S_, .f32⟩
  | 60 => ⟨S_, .f32⟩
  | 61 => ⟨S_, .f32⟩
  | 62 => ⟨S_, .f32⟩
  | 63 => ⟨S1x21x2, .i32⟩
  | 64 => ⟨S4x21x2, .i32⟩
  | 65 => ⟨S4x10x1x32, .f32⟩
  | 66 => ⟨S4x1x10x32, .f32⟩
  | 67 => ⟨S4x10x10x32, .f32⟩
  | 68 => ⟨S4x10x10x32, .f32⟩
  | 69 => ⟨S4x10x10x32, .f32⟩
  | 70 => ⟨S4x10x10x32, .f32⟩
  | 71 => ⟨S_, .f32⟩
  | 72 => ⟨S4x10x10, .f32⟩
  | 73 => ⟨S_, .f32⟩
  | 74 => ⟨S4x10x10, .f32⟩
  | 75 => ⟨S4x10x10, .f32⟩
  | 76 => ⟨S4x10x10, .f32⟩
  | 77 => ⟨S4x10x10, .f32⟩
  | 78 => ⟨S1x10x10, .f32⟩
  | 79 => ⟨S4x10x10, .f32⟩
  | 80 => ⟨S4x10x10, .f32⟩
  | 81 => ⟨S_, .f32⟩
  | 82 => ⟨S10x10, .f32⟩
  | 83 => ⟨S10x10, .f32⟩
  | 84 => ⟨S_, .f32⟩
  | 85 => ⟨S4x10x10, .f32⟩
  | 86 => ⟨S4x10x10, .f32⟩
  | 87 => ⟨S_, .f32⟩
  | 88 => ⟨S4x10x10, .f32⟩
  | 89 => ⟨S4x10x10, .f32⟩
  | 90 => ⟨S4x10x10, .f32⟩
  | 91 => ⟨S1x10x10, .f32⟩
  | 92 => ⟨S4x10x10, .f32⟩
  | 93 => ⟨S4x10x10, .f32⟩
  | 94 => ⟨S4x10x10, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S4x32x512x500, .f32⟩

abbrev hbmTy (i : Nat) : BufTy := match i / 128 with
  | 0 => hbmTy0_0 i
  | 1 => hbmTy0_1 i
  | _ => ⟨S4x32x512x500, .f32⟩

abbrev bufTy : (tb : Table) → Fin (tcTables nBuf tb) → BufTy
  | .hbm, ⟨i, _⟩ => hbmTy i
  | _, _ => ⟨S4x32x512x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v21 : Ref sig .tc := ⟨.hbm, 48, rfl⟩
abbrev main_v22 : Ref sig .tc := ⟨.hbm, 49, rfl⟩
abbrev main_cst_8 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_cst_10 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_11 : Ref sig .tc := ⟨.hbm, 65, rfl⟩
abbrev main_v35 : Ref sig .tc := ⟨.hbm, 66, rfl⟩
abbrev main_cst_12 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_v38 : Ref sig .tc := ⟨.hbm, 71, rfl⟩
abbrev main_c_14 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_0 : Ref sig .tc := ⟨.hbm, 86, rfl⟩
abbrev main_call1_v12 : Ref sig .tc := ⟨.hbm, 87, rfl⟩
abbrev main_call1_v13 : Ref sig .tc := ⟨.hbm, 88, rfl⟩
abbrev main_v39 : Ref sig .tc := ⟨.hbm, 89, rfl⟩
abbrev main_v40 : Ref sig .tc := ⟨.hbm, 90, rfl⟩
abbrev main_cst_15 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_16 : Ref sig .tc := ⟨.hbm, 95, rfl⟩
abbrev main_v44 : Ref sig .tc := ⟨.hbm, 96, rfl⟩
abbrev main_cst_17 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_18 : Ref sig .tc := ⟨.hbm, 106, rfl⟩
abbrev main_v53 : Ref sig .tc := ⟨.hbm, 107, rfl⟩
abbrev main_cst_19 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_c_20 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_c : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_0 : Ref sig .tc := ⟨.hbm, 126, rfl⟩
abbrev main_call2_v12 : Ref sig .tc := ⟨.hbm, 127, rfl⟩
abbrev main_call2_v13 : Ref sig .tc := ⟨.hbm, 128, rfl⟩
abbrev main_v57 : Ref sig .tc := ⟨.hbm, 129, rfl⟩
abbrev main_v58 : Ref sig .tc := ⟨.hbm, 130, rfl⟩
abbrev main_cst_21 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_22 : Ref sig .tc := ⟨.hbm, 135, rfl⟩
abbrev main_v62 : Ref sig .tc := ⟨.hbm, 136, rfl⟩
abbrev main_cst_23 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_24 : Ref sig .tc := ⟨.hbm, 146, rfl⟩
abbrev main_v71 : Ref sig .tc := ⟨.hbm, 147, rfl⟩
abbrev main_cst_25 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_c_26 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_v8 : Ref sig .tc := ⟨.hbm, 161, rfl⟩
abbrev main_call3_c : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_c_0 : Ref sig .tc := ⟨.hbm, 166, rfl⟩
abbrev main_call3_v12 : Ref sig .tc := ⟨.hbm, 167, rfl⟩
abbrev main_call3_v13 : Ref sig .tc := ⟨.hbm, 168, rfl⟩
abbrev main_v75 : Ref sig .tc := ⟨.hbm, 169, rfl⟩
abbrev main_v76 : Ref sig .tc := ⟨.hbm, 170, rfl⟩
abbrev main_cst_27 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_cst_28 : Ref sig .tc := ⟨.hbm, 175, rfl⟩
abbrev main_v80 : Ref sig .tc := ⟨.hbm, 176, rfl⟩
abbrev main_cst_29 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_cst_30 : Ref sig .tc := ⟨.hbm, 186, rfl⟩
abbrev main_v89 : Ref sig .tc := ⟨.hbm, 187, rfl⟩
abbrev main_cst_31 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_cst_32 : Ref sig .tc := ⟨.hbm, 199, rfl⟩
abbrev main_v100 : Ref sig .tc := ⟨.hbm, 200, rfl⟩
abbrev main_cst_33 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_34 : Ref sig .tc := ⟨.hbm, 209, rfl⟩
abbrev main_v108 : Ref sig .tc := ⟨.hbm, 210, rfl⟩
abbrev main_v109 : Ref sig .tc := ⟨.hbm, 211, rfl⟩
abbrev main_cst_35 : Ref sig .tc := ⟨.hbm, 212, rfl⟩
abbrev main_v110 : Ref sig .tc := ⟨.hbm, 213, rfl⟩
abbrev main_v111 : Ref sig .tc := ⟨.hbm, 214, rfl⟩
abbrev main_cst_36 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_cst_37 : Ref sig .tc := ⟨.hbm, 223, rfl⟩
abbrev main_v119 : Ref sig .tc := ⟨.hbm, 224, rfl⟩
abbrev main_cst_38 : Ref sig .tc := ⟨.hbm, 225, rfl⟩
abbrev main_v120 : Ref sig .tc := ⟨.hbm, 226, rfl⟩
abbrev main_cst_39 : Ref sig .tc := ⟨.hbm, 227, rfl⟩
abbrev main_v121 : Ref sig .tc := ⟨.hbm, 228, rfl⟩
abbrev main_v122 : Ref sig .tc := ⟨.hbm, 229, rfl⟩

abbrev nD : Nat := 1
abbrev τ : Topo := Topo.v7x

variable {F : FTy → Type} [FloatOps F]

class Facts₀ : Prop where
  shapeCasts_S4x32x512x500_S4x32x512x10x50 : S4x32x512x500.ShapeCasts S4x32x512x10x50
  reducesTo_S4x32x512x10x50_S4x32x10_d2_4 : S4x32x512x10x50.ReducesTo [2, 4] S4x32x10
  h_S_ : 0 < S_.numel
  bcast_S_S4x32x10 : S_.BroadcastsInDim S4x32x10 (![] : Fin 0 → Fin S4x32x10.rank)
  transposes_S4x32x10_S4x10x32_0_2_1 : S4x32x10.Transposes [0, 2, 1] S4x10x32
  reducesTo_S4x32x512x500_S4x512x500_d1 : S4x32x512x500.ReducesTo [1] S4x512x500
  bcast_S_S4x512x500 : S_.BroadcastsInDim S4x512x500 (![] : Fin 0 → Fin S4x512x500.rank)
  shapeCasts_S4x512x500_S4x512x10x50 : S4x512x500.ShapeCasts S4x512x10x50
  transposes_S4x512x10x50_S4x10x512x50_0_2_1_3 : S4x512x10x50.Transposes [0, 2, 1, 3] S4x10x512x50
  shapeCasts_S4x10x512x50_S4x10x25600 : S4x10x512x50.ShapeCasts S4x10x25600
  reducesTo_S4x10x25600_S4x10_d2 : S4x10x25600.ReducesTo [2] S4x10
  bcast_S_S4x10x32 : S_.BroadcastsInDim S4x10x32 (![] : Fin 0 → Fin S4x10x32.rank)
  bcast_S4x10_S4x10x1_0_1 : S4x10.BroadcastsInDim S4x10x1 (![0, 1] : Fin 2 → Fin S4x10x1.rank)
  bcast_S_S4x10x1 : S_.BroadcastsInDim S4x10x1 (![] : Fin 0 → Fin S4x10x1.rank)
  bcast_S4x10x1_S4x10x32_0_1_2 : S4x10x1.BroadcastsInDim S4x10x32 (![0, 1, 2] : Fin 3 → Fin S4x10x32.rank)
  bcast_S_S10 : S_.BroadcastsInDim S10 (![] : Fin 0 → Fin S10.rank)
  transposes_S4x10x32_S10x4x32_1_0_2 : S4x10x32.Transposes [1, 0, 2] S10x4x32
  bcast_S_S5x4x32 : S_.BroadcastsInDim S5x4x32 (![] : Fin 0 → Fin S5x4x32.rank)
  bcast_S10_S10x1_0 : S10.BroadcastsInDim S10x1 (![0] : Fin 1 → Fin S10x1.rank)
  bcast_S_S5 : S_.BroadcastsInDim S5 (![] : Fin 0 → Fin S5.rank)
  bcast_S5_S5x1x1_0 : S5.BroadcastsInDim S5x1x1 (![0] : Fin 1 → Fin S5x1x1.rank)
  bcast_S5x1x1_S5x4x32_0_1_2 : S5x1x1.BroadcastsInDim S5x4x32 (![0, 1, 2] : Fin 3 → Fin S5x4x32.rank)
  transposes_S5x4x32_S4x5x32_1_0_2 : S5x4x32.Transposes [1, 0, 2] S4x5x32
  reducesTo_S4x5x32_S_d0_1_2 : S4x5x32.ReducesTo [0, 1, 2] S_
  transposes_S4x5x32_S5x4x32_1_0_2 : S4x5x32.Transposes [1, 0, 2] S5x4x32
  bcast_S_S3x4x32 : S_.BroadcastsInDim S3x4x32 (![] : Fin 0 → Fin S3x4x32.rank)
  bcast_S5_S5x1_0 : S5.BroadcastsInDim S5x1 (![0] : Fin 1 → Fin S5x1.rank)
  bcast_S_S3 : S_.BroadcastsInDim S3 (![] : Fin 0 → Fin S3.rank)
  bcast_S3_S3x1x1_0 : S3.BroadcastsInDim S3x1x1 (![0] : Fin 1 → Fin S3x1x1.rank)
  bcast_S3x1x1_S3x4x32_0_1_2 : S3x1x1.BroadcastsInDim S3x4x32 (![0, 1, 2] : Fin 3 → Fin S3x4x32.rank)
  transposes_S3x4x32_S4x3x32_1_0_2 : S3x4x32.Transposes [1, 0, 2] S4x3x32
  reducesTo_S4x3x32_S_d0_1_2 : S4x3x32.ReducesTo [0, 1, 2] S_
  transposes_S4x3x32_S3x4x32_1_0_2 : S4x3x32.Transposes [1, 0, 2] S3x4x32
  bcast_S_S2x4x32 : S_.BroadcastsInDim S2x4x32 (![] : Fin 0 → Fin S2x4x32.rank)
  bcast_S3_S3x1_0 : S3.BroadcastsInDim S3x1 (![0] : Fin 1 → Fin S3x1.rank)
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x4x32_0_1_2 : S2x1x1.BroadcastsInDim S2x4x32 (![0, 1, 2] : Fin 3 → Fin S2x4x32.rank)
  transposes_S2x4x32_S4x2x32_1_0_2 : S2x4x32.Transposes [1, 0, 2] S4x2x32
  reducesTo_S4x2x32_S_d0_1_2 : S4x2x32.ReducesTo [0, 1, 2] S_
  transposes_S4x2x32_S2x4x32_1_0_2 : S4x2x32.Transposes [1, 0, 2] S2x4x32
  bcast_S_S1x4x32 : S_.BroadcastsInDim S1x4x32 (![] : Fin 0 → Fin S1x4x32.rank)
  bcast_S2_S2x1_0 : S2.BroadcastsInDim S2x1 (![0] : Fin 1 → Fin S2x1.rank)
  bcast_S_S1 : S_.BroadcastsInDim S1 (![] : Fin 0 → Fin S1.rank)
  bcast_S1_S1x1x1_0 : S1.BroadcastsInDim S1x1x1 (![0] : Fin 1 → Fin S1x1x1.rank)
  bcast_S1x1x1_S1x4x32_0_1_2 : S1x1x1.BroadcastsInDim S1x4x32 (![0, 1, 2] : Fin 3 → Fin S1x4x32.rank)
  transposes_S1x4x32_S4x1x32_1_0_2 : S1x4x32.Transposes [1, 0, 2] S4x1x32
  reducesTo_S4x1x32_S_d0_1_2 : S4x1x32.ReducesTo [0, 1, 2] S_
  bcast_S21x2_S1x21x2_1_2 : S21x2.BroadcastsInDim S1x21x2 (![1, 2] : Fin 2 → Fin S1x21x2.rank)
  bcast_S1x21x2_S4x21x2_0_1_2 : S1x21x2.BroadcastsInDim S4x21x2 (![0, 1, 2] : Fin 3 → Fin S4x21x2.rank)
  bcast_S4x10x32_S4x10x1x32_0_1_3 : S4x10x32.BroadcastsInDim S4x10x1x32 (![0, 1, 3] : Fin 3 → Fin S4x10x1x32.rank)
  bcast_S4x10x32_S4x1x10x32_0_2_3 : S4x10x32.BroadcastsInDim S4x1x10x32 (![0, 2, 3] : Fin 3 → Fin S4x1x10x32.rank)
  bcast_S4x10x1x32_S4x10x10x32_0_1_2_3 : S4x10x1x32.BroadcastsInDim S4x10x10x32 (![0, 1, 2, 3] : Fin 4 → Fin S4x10x10x32.rank)
  bcast_S4x1x10x32_S4x10x10x32_0_1_2_3 : S4x1x10x32.BroadcastsInDim S4x10x10x32 (![0, 1, 2, 3] : Fin 4 → Fin S4x10x10x32.rank)
  reducesTo_S4x10x10x32_S4x10x10_d3 : S4x10x10x32.ReducesTo [3] S4x10x10
  bcast_S_S4x10x10 : S_.BroadcastsInDim S4x10x10 (![] : Fin 0 → Fin S4x10x10.rank)
  bcast_S10x10_S1x10x10_1_2 : S10x10.BroadcastsInDim S1x10x10 (![1, 2] : Fin 2 → Fin S1x10x10.rank)
  bcast_S1x10x10_S4x10x10_0_1_2 : S1x10x10.BroadcastsInDim S4x10x10 (![0, 1, 2] : Fin 3 → Fin S4x10x10.rank)
  bcast_S_S10x10 : S_.BroadcastsInDim S10x10 (![] : Fin 0 → Fin S10x10.rank)
  reducesTo_S4x10x10_S_d0_1_2 : S4x10x10.ReducesTo [0, 1, 2] S_
  scatter_S5x4x32_S10x1_S10x4x32_12_0_0_1_wf : ScatterDims.WF S5x4x32 S10x1 S10x4x32 [1, 2] [0] [0] 1
  scatter_S5_S10x1_S10_n_0_0_1_wf : ScatterDims.WF S5 S10x1 S10 [] [0] [0] 1
  scatter_S3x4x32_S5x1_S5x4x32_12_0_0_1_wf : ScatterDims.WF S3x4x32 S5x1 S5x4x32 [1, 2] [0] [0] 1
  scatter_S3_S5x1_S5_n_0_0_1_wf : ScatterDims.WF S3 S5x1 S5 [] [0] [0] 1
  scatter_S2x4x32_S3x1_S3x4x32_12_0_0_1_wf : ScatterDims.WF S2x4x32 S3x1 S3x4x32 [1, 2] [0] [0] 1
  scatter_S2_S3x1_S3_n_0_0_1_wf : ScatterDims.WF S2 S3x1 S3 [] [0] [0] 1
  scatter_S1x4x32_S2x1_S2x4x32_12_0_0_1_wf : ScatterDims.WF S1x4x32 S2x1 S2x4x32 [1, 2] [0] [0] 1
  scatter_S1_S2x1_S2_n_0_0_1_wf : ScatterDims.WF S1 S2x1 S2 [] [0] [0] 1

variable [Facts₀]

def scatter_S5x4x32_S10x1_S10x4x32_12_0_0_1 : ScatterDims S5x4x32 S10x1 S10x4x32 where
  updateWindowDims := [1, 2]
  insertedWindowDims := [0]
  scatterDimsToOperandDims := [0]
  indexVectorDim := 1
  wf := scatter_S5x4x32_S10x1_S10x4x32_12_0_0_1_wf
def scatter_S5_S10x1_S10_n_0_0_1 : ScatterDims S5 S10x1 S10 where
  updateWindowDims := []
  insertedWindowDims := [0]
  scatterDimsToOperandDims := [0]
  indexVectorDim := 1
  wf := scatter_S5_S10x1_S10_n_0_0_1_wf
def scatter_S3x4x32_S5x1_S5x4x32_12_0_0_1 : ScatterDims S3x4x32 S5x1 S5x4x32 where
  updateWindowDims := [1, 2]
  insertedWindowDims := [0]
  scatterDimsToOperandDims := [0]
  indexVectorDim := 1
  wf := scatter_S3x4x32_S5x1_S5x4x32_12_0_0_1_wf
def scatter_S3_S5x1_S5_n_0_0_1 : ScatterDims S3 S5x1 S5 where
  updateWindowDims := []
  insertedWindowDims := [0]
  scatterDimsToOperandDims := [0]
  indexVectorDim := 1
  wf := scatter_S3_S5x1_S5_n_0_0_1_wf
def scatter_S2x4x32_S3x1_S3x4x32_12_0_0_1 : ScatterDims S2x4x32 S3x1 S3x4x32 where
  updateWindowDims := [1, 2]
  insertedWindowDims := [0]
  scatterDimsToOperandDims := [0]
  indexVectorDim := 1
  wf := scatter_S2x4x32_S3x1_S3x4x32_12_0_0_1_wf
def scatter_S2_S3x1_S3_n_0_0_1 : ScatterDims S2 S3x1 S3 where
  updateWindowDims := []
  insertedWindowDims := [0]
  scatterDimsToOperandDims := [0]
  indexVectorDim := 1
  wf := scatter_S2_S3x1_S3_n_0_0_1_wf
def scatter_S1x4x32_S2x1_S2x4x32_12_0_0_1 : ScatterDims S1x4x32 S2x1 S2x4x32 where
  updateWindowDims := [1, 2]
  insertedWindowDims := [0]
  scatterDimsToOperandDims := [0]
  indexVectorDim := 1
  wf := scatter_S1x4x32_S2x1_S2x4x32_12_0_0_1_wf
def scatter_S1_S2x1_S2_n_0_0_1 : ScatterDims S1 S2x1 S2 where
  updateWindowDims := []
  insertedWindowDims := [0]
  scatterDimsToOperandDims := [0]
  indexVectorDim := 1
  wf := scatter_S1_S2x1_S2_n_0_0_1_wf

class Facts : Prop extends Facts₀ where

variable [Facts]
-- ==== Proof.KBShared.lean ====
/-
  The tiled reduction kernel's region inside its host program: what every later module about the kernel's run shares.

  The program is two constant tables, the region, and then 210 host operations on the region's two small results.
  The region streams x[4,32,512,500] once over a grid of 4 × 2 points (b, hi), one block x[b, :, 256·hi : 256·hi+256, :]
  per point, and keeps two running sums in scratch buffers between the two points of a row b:
    per-channel column sums   Σ_h x[b,c,h,w]            (32 × 500), and
    column sums of squared channel means  Σ_h ((Σ_c x[b,c,h,w])·(1/32))²   (1 × 500).
  At hi = 0 both are reset to zero before accumulating; at hi = 1, after accumulating, they are folded over the ten
  strips of 50 columns into the two outputs' blocks (1,10,32) and (1,10,1) of row b. So a point is in one of two
  cases, decided by hi alone: the FIRST tile of a row (reset, accumulate; both outputs untouched and not written back)
  and the LAST tile (accumulate, store both outputs; written back).

  Here: the buffer contents when the region is entered, @main as prefix / region / later lines, the three facts the
  later lines owe (they touch only unscoped buffers, allocate nothing, write no array of the region), the input
  block at a point, the two cases in closed form over the grid, where the outputs are idle, and the region
  invariant spelt with both scratch buffers.
-/
import proofs.«168854_j60833916780679_2_alg».proof.Proof.Gen.Kernel.Launch
import proofs.«168854_j60833916780679_2_alg».proof.Proof.Gen.Kernel.Skeleton
import proofs.«168854_j60833916780679_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents after the two constant tables. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- No later line writes one of the region's three arrays (x and the two results): each writes its own result buffer. -/
theorem hostOps1_keeps : (hostOps1 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxRecDepth 131072 in
/-- @main is the two tables, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] [hostOps1, hostOps1_1, hostOps1_2, hostOps1_3, hostOps1_4, hostOps1_5, hostOps1_6, hostOps1_7, hostOps1_8] hostOps0_sub
    hostOps0_fresh main_chain

/-- The later lines touch unscoped TensorCore buffers only; nothing is prefetched, so each such buffer is an array of
    the region or bypasses it. -/
theorem tail_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- And they write none of the region's arrays. -/
theorem tail_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- The two tables are written to buffers of their own: x is found as launched. -/
theorem V_main_arg0 (c : Dev nD) : V m c main_arg0 = m ((c : Thread nD τ).loc main_arg0) := by
  dsimp only [V, V0]
  simp only [hostOps0, List.flatten_cons, List.flatten_nil, List.append_nil, List.cons_append, List.nil_append]
  after_results

/-! ## The input block -/

/-- Window `w`'s block at point `t`, read off its array as the region finds it. For the input window this is
    x[b, :, 256·hi : 256·hi + 256, :] at the point (b, hi). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point (it is fetched at every point), for any proof
    data whose array is the region-entry one and whose body leaves the block in place. -/
theorem input_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two cases, in closed form -/

/-- The body's first conditional (reset the running sums): the point is the first tile of its row, hi = 0. -/
abbrev firstTile (i : grid0.Coords) : Prop := (Scalar.cmpi .ne (Scalar.extui (Scalar.cmpi .eq (BitVec.ofNat 32 (i 1).val) 0#32)) 0#32) = 1#1
/-- Over the grid: the even points. -/
theorem firstTile_iff : ∀ t : Fin cfg0.N, firstTile (grid0.coords t) ↔ t.val % 2 = 0 :=
  (by decide +kernel : ∀ t : Fin grid0.N, firstTile (grid0.coords t) ↔ t.val % 2 = 0)

/-- The body's second conditional (fold the running sums into the outputs): the point is the last tile of its row, hi = 1. -/
abbrev lastTile (i : grid0.Coords) : Prop := k0_cond2 i = 1#1
/-- Over the grid: the odd points. -/
theorem lastTile_iff : ∀ t : Fin cfg0.N, lastTile (grid0.coords t) ↔ t.val % 2 = 1 :=
  (by decide +kernel : ∀ t : Fin grid0.N, lastTile (grid0.coords t) ↔ t.val % 2 = 1)

/-! ## Where the windows are idle -/

/-- The input is never idle. -/
theorem input_live : ∀ t : Fin cfg0.N, cfg0.idle 0 (grid0.coords t) = false := by decide +kernel
/-- At a first tile both outputs are idle (nothing is stored into them) and are not written back. -/
theorem nodes_idle_first : ∀ t : Fin cfg0.N, firstTile (grid0.coords t) → ¬lastTile (grid0.coords t) → cfg0.idle 1 (grid0.coords t) = true := by decide +kernel
theorem nodes_noFlush_first : ∀ t : Fin cfg0.N, firstTile (grid0.coords t) → ¬lastTile (grid0.coords t) → (cfg0.win 1).flush t = false := by decide +kernel
theorem texture_idle_first : ∀ t : Fin cfg0.N, firstTile (grid0.coords t) → ¬lastTile (grid0.coords t) → cfg0.idle 2 (grid0.coords t) = true := by decide +kernel
theorem texture_noFlush_first : ∀ t : Fin cfg0.N, firstTile (grid0.coords t) → ¬lastTile (grid0.coords t) → (cfg0.win 2).flush t = false := by decide +kernel
/-- At a last tile both outputs are stored. -/
theorem nodes_live_last : ∀ t : Fin cfg0.N, ¬firstTile (grid0.coords t) → lastTile (grid0.coords t) → cfg0.idle 1 (grid0.coords t) = false := by decide +kernel
theorem texture_live_last : ∀ t : Fin cfg0.N, ¬firstTile (grid0.coords t) → lastTile (grid0.coords t) → cfg0.idle 2 (grid0.coords t) = false := by decide +kernel

/-! ## The memrefs the body is called with -/

/-- One staging buffer of each output, through which its contents are stated (the choice does not matter). -/
abbrev nodesView : View sig .tc .vmem S1x10x32 .f32 := (Memref.whole cc0_stg1_0 : Memref sig .tc .vmem S1x10x32 .f32).view
abbrev textureView : View sig .tc .vmem S1x10x1 .f32 := (Memref.whole cc0_stg2_0 : Memref sig .tc .vmem S1x10x1 .f32).view
/-- Each window's current staging memref at point `t`, spelt as the pipeline passes it, and its wholeness. -/
abbrev ms0 (t : Fin cfg0.N) : Memref sig .tc .vmem S1x32x256x500 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x10x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x10x1 .f32 := win0_2.stage (cfg0.slots t 2)
abbrev hs2 (t : Fin cfg0.N) : (ms2 t).IsWhole := hstage0_2 ((cfg0.slots t 2).cast nbuf0_2)
/-- The two running sums: whole scoped buffers of the kernel's own. -/
abbrev colSumM : Memref sig .tc .vmem S32x500 .f32 := Memref.whole cc0_scratch0
abbrev sqSumM : Memref sig .tc .vmem S1x500 .f32 := Memref.whole cc0_scratch1
abbrev colSumView : View sig .tc .vmem S32x500 .f32 := colSumM.view
abbrev sqSumView : View sig .tc .vmem S1x500 .f32 := sqSumM.view

/-- The region's class invariant with the two running sums as memrefs owned at some contents. -/
theorem PhiA0_eq (c : Dev nD) :
    (Pipeline.ΦA spec0 c : sProp 𝕄)
      = iprop(iprop((∃ d, owns (c : Thread nD τ) colSumM fullShare d) ∗ (∃ d, owns (c : Thread nD τ) sqSumM fullShare d)) ∗ (∃ r, prngReg c r)) := by
  unfold Pipeline.ΦA; rw [scopedRest0_eq]; simp only [colSumM, sqSumM, owns_whole]; try rfl

end Cert.Kernel.Region

end
-- ==== Proof.KBRunFirst.lean ====
/-
  The body at a FIRST tile (hi = 0), run once on any whole memrefs: the input block x0 is only read; both outputs are
  handed back exactly as found; the two running sums, found at anything, end at what the body's stores leave in
  them — zero, then zero plus this tile's sums: the lists of stored pieces are the witnesses the run finds.
-/
import proofs.«168854_j60833916780679_2_alg».proof.Proof.KBShared

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: the pieces the two running sums end with, and the body's triple around them. -/
noncomputable def runFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) :
    Σ' (LS0 : List (View.Piece (Elt F) S32x500 .f32)), { LS1 : List (View.Piece (Elt F) S1x500 .f32) //
      ∀ (xi1 : Vec F S1x10x32 .f32) (xi2 : Vec F S1x10x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Region

end
-- ==== Proof.KBRunLast.lean ====
/-
  The body at a LAST tile (hi = 1), run once on any whole memrefs: the input block x0 is only read; the two running
  sums are found at what the first tile left (xs0, xs1) and end with this tile's sums added; both outputs, found
  at anything, end with the running sums folded over the ten strips of fifty columns. The lists of stored pieces
  are the witnesses the run finds.
-/
import proofs.«168854_j60833916780679_2_alg».proof.Proof.KBRunFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last tile: the pieces both outputs and both running sums end with, and the body's triple around them. -/
noncomputable def runLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    Σ' (L1 : List (View.Piece (Elt F) S1x10x32 .f32)) (L2 : List (View.Piece (Elt F) S1x10x1 .f32)) (LS0 : List (View.Piece (Elt F) S32x500 .f32)), { LS1 : List (View.Piece (Elt F) S1x500 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Region

end
-- ==== Proof.KBFrame.lean ====
/-
  The frame of the tiled reduction: what the body leaves at every grid point, and the run of the whole program.

  After a first tile the two running sums hold what that run's stores leave (its pieces read back); after a last
  tile so do both outputs' blocks and both running sums, the latter computed from what the first tile of the same
  row left. `outsAt` is this accumulation along the eight points. The region invariant before a point that is not
  the first holds the two running sums at `outsAt` of the point before; the proof data has the input's buffer at its
  block and the outputs' at `outsAt`; the body obligation is a case split on the point's parity, each case the
  corresponding run; and the program's run is the library's frame run for a region followed by host lines.
-/
import proofs.«168854_j60833916780679_2_alg».proof.Proof.KBRunLast

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First tile: the column sums' buffer after the body — its pieces read back. -/
def colSumFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : Vec F S32x500 .f32 :=
  colSumView.read (Elt F) (colSumView.writes (Elt F) colSumView.junk (runFirst c i arg2 harg2 arg3 harg3 arg4 harg4 arg5 harg5 arg6 harg6 hc0 hc1 x0).1)
/-- First tile: the squared-mean sums' buffer after the body. -/
def sqSumFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : Vec F S1x500 .f32 :=
  sqSumView.read (Elt F) (sqSumView.writes (Elt F) sqSumView.junk (runFirst c i arg2 harg2 arg3 harg3 arg4 harg4 arg5 harg5 arg6 harg6 hc0 hc1 x0).2.1)
/-- The stores of a first tile cover each running sum's buffer. -/
theorem colSumFirst_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) (y : S32x500.Idx) : ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S32x500.size (by sl_kernel_rfl) y
theorem sqSumFirst_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) (y : S1x500.Idx) : ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x500.size (by sl_kernel_rfl) y

/-- Last tile: each buffer after the body — its pieces read back. -/
def nodesLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x10x32 .f32 :=
  nodesView.read (Elt F) (nodesView.writes (Elt F) nodesView.junk (runLast c i arg2 harg2 arg3 harg3 arg4 harg4 arg5 harg5 arg6 harg6 hc0 hc1 x0 xs0 xs1).1)
def textureLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x10x1 .f32 :=
  textureView.read (Elt F) (textureView.writes (Elt F) textureView.junk (runLast c i arg2 harg2 arg3 harg3 arg4 harg4 arg5 harg5 arg6 harg6 hc0 hc1 x0 xs0 xs1).2.1)
def colSumLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S32x500 .f32 :=
  colSumView.read (Elt F) (colSumView.writes (Elt F) colSumView.junk (runLast c i arg2 harg2 arg3 harg3 arg4 harg4 arg5 harg5 arg6 harg6 hc0 hc1 x0 xs0 xs1).2.2.1)
def sqSumLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x500 .f32 :=
  sqSumView.read (Elt F) (sqSumView.writes (Elt F) sqSumView.junk (runLast c i arg2 harg2 arg3 harg3 arg4 harg4 arg5 harg5 arg6 harg6 hc0 hc1 x0 xs0 xs1).2.2.2.1)
/-- The stores of a last tile cover every buffer it writes. -/
theorem nodesLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x10x32.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x10x32.size (by sl_kernel_rfl) y
theorem textureLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x10x1.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x10x1.size (by sl_kernel_rfl) y
theorem colSumLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S32x500.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S32x500.size (by sl_kernel_rfl) y
theorem sqSumLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x500.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x500.size (by sl_kernel_rfl) y

/-! ## The accumulation along the grid -/

/-- An even point is a first tile and not a last one; an odd point the reverse. -/
theorem first_of_even (t : Fin cfg0.N) (h : t.val % 2 = 0) : firstTile (grid0.coords t) ∧ ¬lastTile (grid0.coords t) :=
  ⟨(firstTile_iff t).mpr h, fun hl => by have := (lastTile_iff t).mp hl; omega⟩
theorem last_of_odd (t : Fin cfg0.N) (h : ¬t.val % 2 = 0) : ¬firstTile (grid0.coords t) ∧ lastTile (grid0.coords t) :=
  ⟨fun hf => h ((firstTile_iff t).mp hf), (lastTile_iff t).mpr (by omega)⟩

/-- The four buffers (nodes block, texture block, column sums, squared-mean sums) after a first tile: the outputs'
    are placeholders nothing consults (idle and not written back there). -/
def stepFirst (c : Dev nD) (t : Fin cfg0.N) (h : t.val % 2 = 0) :
    Vec F S1x10x32 .f32 × Vec F S1x10x1 .f32 × Vec F S32x500 .f32 × Vec F S1x500 .f32 :=
  (nodesView.read (Elt F) nodesView.junk, textureView.read (Elt F) textureView.junk,
   colSumFirst c (grid0.coords t) (ms0 t) (hs0 t) (ms1 t) (hs1 t) (ms2 t) (hs2 t) colSumM (Memref.isWhole_whole _) sqSumM (Memref.isWhole_whole _) (first_of_even t h).1 (first_of_even t h).2 (iblk m c 0 t),
   sqSumFirst c (grid0.coords t) (ms0 t) (hs0 t) (ms1 t) (hs1 t) (ms2 t) (hs2 t) colSumM (Memref.isWhole_whole _) sqSumM (Memref.isWhole_whole _) (first_of_even t h).1 (first_of_even t h).2 (iblk m c 0 t))
/-- The four buffers after a last tile, from the running sums the point before left. -/
def stepLast (c : Dev nD) (t : Fin cfg0.N) (h : ¬t.val % 2 = 0) (xs0 : Vec F S32x500 .f32) (xs1 : Vec F S1x500 .f32) :
    Vec F S1x10x32 .f32 × Vec F S1x10x1 .f32 × Vec F S32x500 .f32 × Vec F S1x500 .f32 :=
  (nodesLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   textureLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   colSumLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   sqSumLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1)

/-- What the four buffers hold after the body at position `n`, by recursion on the position. -/
def outsAt (c : Dev nD) : (n : ℕ) → n < cfg0.N → Vec F S1x10x32 .f32 × Vec F S1x10x1 .f32 × Vec F S32x500 .f32 × Vec F S1x500 .f32
  | 0, hn => stepFirst m c ⟨0, hn⟩ (Nat.zero_mod _)
  | n + 1, hn =>
    if h0 : (n + 1) % 2 = 0 then stepFirst m c ⟨n + 1, hn⟩ h0
    else stepLast m c ⟨n + 1, hn⟩ h0 (outsAt c n (Nat.lt_of_succ_lt hn)).2.2.1 (outsAt c n (Nat.lt_of_succ_lt hn)).2.2.2

theorem outsAt_first (c : Dev nD) (t : Fin cfg0.N) (h0 : t.val % 2 = 0) : outsAt m c t.val t.isLt = stepFirst m c t h0 := by
  obtain ⟨n, hn⟩ := t
  cases n with
  | zero => rfl
  | succ n => exact dif_pos h0
theorem outsAt_last (c : Dev nD) (t : Fin cfg0.N) (h0 : ¬t.val % 2 = 0) :
    outsAt m c t.val t.isLt = stepLast m c t h0 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact dif_neg h0

/-- The region invariant before position `n`: before the first point the class's (both running sums at anything);
    afterwards both running sums at what the point before left, and the generator register at some state. -/
def PhiS (c : Dev nD) : (n : ℕ) → n ≤ cfg0.N → sProp 𝕄
  | 0, _ => Pipeline.ΦA spec0 c
  | n + 1, hn => iprop(iprop(owns (c : Thread nD τ) colSumM fullShare ((outsAt m c n hn).2.2.1) ∗ owns (c : Thread nD τ) sqSumM fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) colSumM fullShare ((outsAt m c n hn).2.2.1) ∗ owns (c : Thread nD τ) sqSumM fullShare ((outsAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) colSumM fullShare ((outsAt m c (n - 1) (by omega)).2.2.1) ∗ owns (c : Thread nD τ) sqSumM fullShare ((outsAt m c (n - 1) (by omega)).2.2.2)) ∗ (∃ r, prngReg c r)) := by
  cases n with
  | zero => exact absurd rfl hz
  | succ n => rfl

/-! ## The proof data -/

/-- On core `c`: the arrays as the region finds them; after the body at `t` the input's buffer at its block and the
    outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_input (c : Dev nD) (t : Fin cfg0.N) : (dats m 0 c).after 0 t = iblk m c 0 t := by dsimp only [dats]
theorem after_nodes (c : Dev nD) (t : Fin cfg0.N) : (dats m 0 c).after 1 t = (outsAt m c t.val t.isLt).1 := by dsimp only [dats]
theorem after_texture (c : Dev nD) (t : Fin cfg0.N) : (dats m 0 c).after 2 t = (outsAt m c t.val t.isLt).2.1 := by dsimp only [dats]
theorem before_input (c : Dev nD) (t : Fin cfg0.N) (d) : (dats m 0 c).before 0 t d = iblk m c 0 t :=
  input_before_of m (dats m 0 c) (A_eq m c 0) (after_input m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input's memref holds its block; the parity of the point says which case it is in;
    the invariant hands the body the two running sums (at anything before the first point, else at what the point
    before left) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_input]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [input_live t], after_input]
  by_cases h0 : t.val % 2 = 0
  · rw [Dat.leavesExact_idle (dats m 0 c) 1 t (nodes_idle_first t (first_of_even t h0).1 (first_of_even t h0).2) (nodes_noFlush_first t (first_of_even t h0).1 (first_of_even t h0).2)]
    rw [Dat.leavesExact_idle (dats m 0 c) 2 t (texture_idle_first t (first_of_even t h0).1 (first_of_even t h0).2) (texture_noFlush_first t (first_of_even t h0).1 (first_of_even t h0).2)]
    rw [outsAt_first m c t h0]
    unfold stepFirst colSumFirst sqSumFirst; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runFirst c (grid0.coords t) _ _ _ _ _ _ _ _ _ _ (first_of_even t h0).1 (first_of_even t h0).2 (iblk m c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (colSumFirst_cover c _ _ _ _ _ _ _ _ _ _ _ _ _ _)
          · unfold owns; iexists _; isplitr
            swap; · iexact HS1
            ipureintro; exact View.read_writes_of_cover _ _ _ _ _ (sqSumFirst_cover c _ _ _ _ _ _ _ _ _ _ _ _ _ _)
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) _ _ _ _ _ _ _ _ _ _ (first_of_even t h0).1 (first_of_even t h0).2 (iblk m c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (colSumFirst_cover c _ _ _ _ _ _ _ _ _ _ _ _ _ _)
          · unfold owns; iexists _; isplitr
            swap; · iexact HS1
            ipureintro; exact View.read_writes_of_cover _ _ _ _ _ (sqSumFirst_cover c _ _ _ _ _ _ _ _ _ _ _ _ _ _)
        iexact Hg
      isplitl [Ho]; · iexact Ho
      isplitl [H0]; · iexact H0
      isplitl [H1]; · iexists _; iexact H1
      iexists _; iexact H2
  · rw [show (dats m 0 c).leavesExact 1 t = owns (c : Thread nD τ) (ms1 t) fullShare ((dats m 0 c).after 1 t) from by
      unfold Dat.leavesExact; rw [nodes_live_last t (last_of_odd t h0).1 (last_of_odd t h0).2], after_nodes]
    rw [show (dats m 0 c).leavesExact 2 t = owns (c : Thread nD τ) (ms2 t) fullShare ((dats m 0 c).after 2 t) from by
      unfold Dat.leavesExact; rw [texture_live_last t (last_of_odd t h0).1 (last_of_odd t h0).2], after_texture]
    rw [outsAt_last m c t h0]
    unfold stepLast nodesLast textureLast colSumLast sqSumLast; (try dsimp only)
    have hz : t.val ≠ 0 := fun h => h0 (by rw [h])
    rw [PhiS_castSucc m c t, PhiS_pos m c _ _ hz]
    iintro ⟨⟨⟨HS0, HS1⟩, Hg⟩, Ho, ⟨%d0, H0⟩, ⟨%d1, H1⟩, ⟨%d2, H2⟩⟩
    iapply ((runLast c (grid0.coords t) _ _ _ _ _ _ _ _ _ _ (last_of_odd t h0).1 (last_of_odd t h0).2 (iblk m c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (colSumLast_cover c _ _ _ _ _ _ _ _ _ _ _ _ _ _ _ _)
        · unfold owns; iexists _; isplitr
          swap; · iexact HS1
          ipureintro; exact View.read_writes_of_cover _ _ _ _ _ (sqSumLast_cover c _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (nodesLast_cover c _ _ _ _ _ _ _ _ _ _ _ _ _ _ _ _)
    · unfold owns; iexists _; isplitr
      swap; · iexact H2
      ipureintro; exact View.read_writes_of_cover _ _ _ _ _ (textureLast_cover c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option maxRecDepth 131072 in
set_option backward.isDefEq.respectTransparency.types false in
/-- Every weakly fair execution of @main terminates, and every final state has each array of the region at what
    the library computes from the proof data and every other unscoped buffer as the later lines leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := tail_sub) (hfresh := tail_fresh) (hkeep := tail_keeps)
    (hmain := hmain m Variants.none) (hA := A_eq m) (hin := hin m) (hout := hout m)

/-- The frame: the program runs and x ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Region

end
-- ==== Proof.KIShared.lean ====
/-
  The tiled reduction kernel's region inside its host program: what every later module about the kernel's run shares.

  The program is two constant tables, the region, and then 210 host operations on the region's two small results.
  The region streams x[4,32,512,500] once over a grid of 4 × 2 points (b, hi), one block x[b, :, 256·hi : 256·hi+256, :]
  per point, and keeps two running sums in scratch buffers between the two points of a row b:
    per-channel column sums   Σ_h x[b,c,h,w]            (32 × 500), and
    column sums of squared channel means  Σ_h ((Σ_c x[b,c,h,w])·(1/32))²   (1 × 500).
  At hi = 0 both are reset to zero before accumulating; at hi = 1, after accumulating, they are folded over the ten
  strips of 50 columns into the two outputs' blocks (1,10,32) and (1,10,1) of row b. So a point is in one of two
  cases, decided by hi alone: the FIRST tile of a row (reset, accumulate; both outputs untouched and not written back)
  and the LAST tile (accumulate, store both outputs; written back).

  Here: the buffer contents when the region is entered, @main as prefix / region / later lines, the three facts the
  later lines owe (they touch only unscoped buffers, allocate nothing, write no array of the region), the input
  block at a point, the two cases in closed form over the grid, where the outputs are idle, and the region
  invariant spelt with both scratch buffers.
-/
import proofs.«168854_j60833916780679_2_alg».proof.Proof.Gen.KernelIdeal.Launch
import proofs.«168854_j60833916780679_2_alg».proof.Proof.Gen.KernelIdeal.Skeleton
import proofs.«168854_j60833916780679_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents after the two constant tables. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- No later line writes one of the region's three arrays (x and the two results): each writes its own result buffer. -/
theorem hostOps1_keeps : (hostOps1 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op =>
    ∀ w, Proc.devRef .tc (Pipeline.arrRef spec0 w) ∉ op.writes := by
  simp only [List.Forall]
  and_intros
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxRecDepth 131072 in
/-- @main is the two tables, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] [hostOps1, hostOps1_1, hostOps1_2, hostOps1_3, hostOps1_4, hostOps1_5, hostOps1_6, hostOps1_7, hostOps1_8] hostOps0_sub
    hostOps0_fresh main_chain

/-- The later lines touch unscoped TensorCore buffers only; nothing is prefetched, so each such buffer is an array of
    the region or bypasses it. -/
theorem tail_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- And they write none of the region's arrays. -/
theorem tail_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- The two tables are written to buffers of their own: x is found as launched. -/
theorem V_main_arg0 (c : Dev nD) : V m c main_arg0 = m ((c : Thread nD τ).loc main_arg0) := by
  dsimp only [V, V0]
  simp only [hostOps0, List.flatten_cons, List.flatten_nil, List.append_nil, List.cons_append, List.nil_append]
  after_results

/-! ## The input block -/

/-- Window `w`'s block at point `t`, read off its array as the region finds it. For the input window this is
    x[b, :, 256·hi : 256·hi + 256, :] at the point (b, hi). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point (it is fetched at every point), for any proof
    data whose array is the region-entry one and whose body leaves the block in place. -/
theorem input_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two cases, in closed form -/

/-- The body's first conditional (reset the running sums): the point is the first tile of its row, hi = 0. -/
abbrev firstTile (i : grid0.Coords) : Prop := (Scalar.cmpi .ne (Scalar.extui (Scalar.cmpi .eq (BitVec.ofNat 32 (i 1).val) 0#32)) 0#32) = 1#1
/-- Over the grid: the even points. -/
theorem firstTile_iff : ∀ t : Fin cfg0.N, firstTile (grid0.coords t) ↔ t.val % 2 = 0 :=
  (by decide +kernel : ∀ t : Fin grid0.N, firstTile (grid0.coords t) ↔ t.val % 2 = 0)

/-- The body's second conditional (fold the running sums into the outputs): the point is the last tile of its row, hi = 1. -/
abbrev lastTile (i : grid0.Coords) : Prop := k0_cond2 i = 1#1
/-- Over the grid: the odd points. -/
theorem lastTile_iff : ∀ t : Fin cfg0.N, lastTile (grid0.coords t) ↔ t.val % 2 = 1 :=
  (by decide +kernel : ∀ t : Fin grid0.N, lastTile (grid0.coords t) ↔ t.val % 2 = 1)

/-! ## Where the windows are idle -/

/-- The input is never idle. -/
theorem input_live : ∀ t : Fin cfg0.N, cfg0.idle 0 (grid0.coords t) = false := by decide +kernel
/-- At a first tile both outputs are idle (nothing is stored into them) and are not written back. -/
theorem nodes_idle_first : ∀ t : Fin cfg0.N, firstTile (grid0.coords t) → ¬lastTile (grid0.coords t) → cfg0.idle 1 (grid0.coords t) = true := by decide +kernel
theorem nodes_noFlush_first : ∀ t : Fin cfg0.N, firstTile (grid0.coords t) → ¬lastTile (grid0.coords t) → (cfg0.win 1).flush t = false := by decide +kernel
theorem texture_idle_first : ∀ t : Fin cfg0.N, firstTile (grid0.coords t) → ¬lastTile (grid0.coords t) → cfg0.idle 2 (grid0.coords t) = true := by decide +kernel
theorem texture_noFlush_first : ∀ t : Fin cfg0.N, firstTile (grid0.coords t) → ¬lastTile (grid0.coords t) → (cfg0.win 2).flush t = false := by decide +kernel
/-- At a last tile both outputs are stored. -/
theorem nodes_live_last : ∀ t : Fin cfg0.N, ¬firstTile (grid0.coords t) → lastTile (grid0.coords t) → cfg0.idle 1 (grid0.coords t) = false := by decide +kernel
theorem texture_live_last : ∀ t : Fin cfg0.N, ¬firstTile (grid0.coords t) → lastTile (grid0.coords t) → cfg0.idle 2 (grid0.coords t) = false := by decide +kernel

/-! ## The memrefs the body is called with -/

/-- One staging buffer of each output, through which its contents are stated (the choice does not matter). -/
abbrev nodesView : View sig .tc .vmem S1x10x32 .f32 := (Memref.whole cc0_stg1_0 : Memref sig .tc .vmem S1x10x32 .f32).view
abbrev textureView : View sig .tc .vmem S1x10x1 .f32 := (Memref.whole cc0_stg2_0 : Memref sig .tc .vmem S1x10x1 .f32).view
/-- Each window's current staging memref at point `t`, spelt as the pipeline passes it, and its wholeness. -/
abbrev ms0 (t : Fin cfg0.N) : Memref sig .tc .vmem S1x32x256x500 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x10x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x10x1 .f32 := win0_2.stage (cfg0.slots t 2)
abbrev hs2 (t : Fin cfg0.N) : (ms2 t).IsWhole := hstage0_2 ((cfg0.slots t 2).cast nbuf0_2)
/-- The two running sums: whole scoped buffers of the kernel's own. -/
abbrev colSumM : Memref sig .tc .vmem S32x500 .f32 := Memref.whole cc0_scratch0
abbrev sqSumM : Memref sig .tc .vmem S1x500 .f32 := Memref.whole cc0_scratch1
abbrev colSumView : View sig .tc .vmem S32x500 .f32 := colSumM.view
abbrev sqSumView : View sig .tc .vmem S1x500 .f32 := sqSumM.view

/-- The region's class invariant with the two running sums as memrefs owned at some contents. -/
theorem PhiA0_eq (c : Dev nD) :
    (Pipeline.ΦA spec0 c : sProp 𝕄)
      = iprop(iprop((∃ d, owns (c : Thread nD τ) colSumM fullShare d) ∗ (∃ d, owns (c : Thread nD τ) sqSumM fullShare d)) ∗ (∃ r, prngReg c r)) := by
  unfold Pipeline.ΦA; rw [scopedRest0_eq]; simp only [colSumM, sqSumM, owns_whole]; try rfl

end Cert.KernelIdeal.Region

end
-- ==== Proof.KIRunFirst.lean ====
/-
  The body at a FIRST tile (hi = 0), run once on any whole memrefs: the input block x0 is only read; both outputs are
  handed back exactly as found; the two running sums, found at anything, end at what the body's stores leave in
  them — zero, then zero plus this tile's sums: the lists of stored pieces are the witnesses the run finds.
-/
import proofs.«168854_j60833916780679_2_alg».proof.Proof.KIShared

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- First tile: the pieces the two running sums end with, and the body's triple around them. -/
noncomputable def runFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) :
    Σ' (LS0 : List (View.Piece (Elt F) S32x500 .f32)), { LS1 : List (View.Piece (Elt F) S1x500 .f32) //
      ∀ (xi1 : Vec F S1x10x32 .f32) (xi2 : Vec F S1x10x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Region

end
-- ==== Proof.KIRunLast.lean ====
/-
  The body at a LAST tile (hi = 1), run once on any whole memrefs: the input block x0 is only read; the two running
  sums are found at what the first tile left (xs0, xs1) and end with this tile's sums added; both outputs, found
  at anything, end with the running sums folded over the ten strips of fifty columns. The lists of stored pieces
  are the witnesses the run finds.
-/
import proofs.«168854_j60833916780679_2_alg».proof.Proof.KIRunFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Last tile: the pieces both outputs and both running sums end with, and the body's triple around them. -/
noncomputable def runLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    Σ' (L1 : List (View.Piece (Elt F) S1x10x32 .f32)) (L2 : List (View.Piece (Elt F) S1x10x1 .f32)) (LS0 : List (View.Piece (Elt F) S32x500 .f32)), { LS1 : List (View.Piece (Elt F) S1x500 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Region

end
-- ==== Proof.KIFrame.lean ====
/-
  The frame of the tiled reduction: what the body leaves at every grid point, and the run of the whole program.

  After a first tile the two running sums hold what that run's stores leave (its pieces read back); after a last
  tile so do both outputs' blocks and both running sums, the latter computed from what the first tile of the same
  row left. `outsAt` is this accumulation along the eight points. The region invariant before a point that is not
  the first holds the two running sums at `outsAt` of the point before; the proof data has the input's buffer at its
  block and the outputs' at `outsAt`; the body obligation is a case split on the point's parity, each case the
  corresponding run; and the program's run is the library's frame run for a region followed by host lines.
-/
import proofs.«168854_j60833916780679_2_alg».proof.Proof.KIRunLast

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- First tile: the column sums' buffer after the body — its pieces read back. -/
def colSumFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : Vec F S32x500 .f32 :=
  colSumView.read (Elt F) (colSumView.writes (Elt F) colSumView.junk (runFirst c i arg2 harg2 arg3 harg3 arg4 harg4 arg5 harg5 arg6 harg6 hc0 hc1 x0).1)
/-- First tile: the squared-mean sums' buffer after the body. -/
def sqSumFirst (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : Vec F S1x500 .f32 :=
  sqSumView.read (Elt F) (sqSumView.writes (Elt F) sqSumView.junk (runFirst c i arg2 harg2 arg3 harg3 arg4 harg4 arg5 harg5 arg6 harg6 hc0 hc1 x0).2.1)
/-- The stores of a first tile cover each running sum's buffer. -/
theorem colSumFirst_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) (y : S32x500.Idx) : ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S32x500.size (by sl_kernel_rfl) y
theorem sqSumFirst_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) (y : S1x500.Idx) : ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x500.size (by sl_kernel_rfl) y

/-- Last tile: each buffer after the body — its pieces read back. -/
def nodesLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x10x32 .f32 :=
  nodesView.read (Elt F) (nodesView.writes (Elt F) nodesView.junk (runLast c i arg2 harg2 arg3 harg3 arg4 harg4 arg5 harg5 arg6 harg6 hc0 hc1 x0 xs0 xs1).1)
def textureLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x10x1 .f32 :=
  textureView.read (Elt F) (textureView.writes (Elt F) textureView.junk (runLast c i arg2 harg2 arg3 harg3 arg4 harg4 arg5 harg5 arg6 harg6 hc0 hc1 x0 xs0 xs1).2.1)
def colSumLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S32x500 .f32 :=
  colSumView.read (Elt F) (colSumView.writes (Elt F) colSumView.junk (runLast c i arg2 harg2 arg3 harg3 arg4 harg4 arg5 harg5 arg6 harg6 hc0 hc1 x0 xs0 xs1).2.2.1)
def sqSumLast (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) : Vec F S1x500 .f32 :=
  sqSumView.read (Elt F) (sqSumView.writes (Elt F) sqSumView.junk (runLast c i arg2 harg2 arg3 harg3 arg4 harg4 arg5 harg5 arg6 harg6 hc0 hc1 x0 xs0 xs1).2.2.2.1)
/-- The stores of a last tile cover every buffer it writes. -/
theorem nodesLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x10x32.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x10x32.size (by sl_kernel_rfl) y
theorem textureLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x10x1.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x10x1.size (by sl_kernel_rfl) y
theorem colSumLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S32x500.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S32x500.size (by sl_kernel_rfl) y
theorem sqSumLast_cover (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) (y : S1x500.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x500.size (by sl_kernel_rfl) y

/-! ## The accumulation along the grid -/

/-- An even point is a first tile and not a last one; an odd point the reverse. -/
theorem first_of_even (t : Fin cfg0.N) (h : t.val % 2 = 0) : firstTile (grid0.coords t) ∧ ¬lastTile (grid0.coords t) :=
  ⟨(firstTile_iff t).mpr h, fun hl => by have := (lastTile_iff t).mp hl; omega⟩
theorem last_of_odd (t : Fin cfg0.N) (h : ¬t.val % 2 = 0) : ¬firstTile (grid0.coords t) ∧ lastTile (grid0.coords t) :=
  ⟨fun hf => h ((firstTile_iff t).mp hf), (lastTile_iff t).mpr (by omega)⟩

/-- The four buffers (nodes block, texture block, column sums, squared-mean sums) after a first tile: the outputs'
    are placeholders nothing consults (idle and not written back there). -/
def stepFirst (c : Dev nD) (t : Fin cfg0.N) (h : t.val % 2 = 0) :
    Vec F S1x10x32 .f32 × Vec F S1x10x1 .f32 × Vec F S32x500 .f32 × Vec F S1x500 .f32 :=
  (nodesView.read (Elt F) nodesView.junk, textureView.read (Elt F) textureView.junk,
   colSumFirst c (grid0.coords t) (ms0 t) (hs0 t) (ms1 t) (hs1 t) (ms2 t) (hs2 t) colSumM (Memref.isWhole_whole _) sqSumM (Memref.isWhole_whole _) (first_of_even t h).1 (first_of_even t h).2 (iblk m c 0 t),
   sqSumFirst c (grid0.coords t) (ms0 t) (hs0 t) (ms1 t) (hs1 t) (ms2 t) (hs2 t) colSumM (Memref.isWhole_whole _) sqSumM (Memref.isWhole_whole _) (first_of_even t h).1 (first_of_even t h).2 (iblk m c 0 t))
/-- The four buffers after a last tile, from the running sums the point before left. -/
def stepLast (c : Dev nD) (t : Fin cfg0.N) (h : ¬t.val % 2 = 0) (xs0 : Vec F S32x500 .f32) (xs1 : Vec F S1x500 .f32) :
    Vec F S1x10x32 .f32 × Vec F S1x10x1 .f32 × Vec F S32x500 .f32 × Vec F S1x500 .f32 :=
  (nodesLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   textureLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   colSumLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1,
   sqSumLast c (grid0.coords t) (ms0 t) (hs0 t) (ms1 t) (hs1 t) (ms2 t) (hs2 t) colSumM (Memref.isWhole_whole _) sqSumM (Memref.isWhole_whole _) (last_of_odd t h).1 (last_of_odd t h).2 (iblk m c 0 t) xs0 xs1)

/-- What the four buffers hold after the body at position `n`, by recursion on the position. -/
def outsAt (c : Dev nD) : (n : ℕ) → n < cfg0.N → Vec F S1x10x32 .f32 × Vec F S1x10x1 .f32 × Vec F S32x500 .f32 × Vec F S1x500 .f32
  | 0, hn => stepFirst m c ⟨0, hn⟩ (Nat.zero_mod _)
  | n + 1, hn =>
    if h0 : (n + 1) % 2 = 0 then stepFirst m c ⟨n + 1, hn⟩ h0
    else stepLast m c ⟨n + 1, hn⟩ h0 (outsAt c n (Nat.lt_of_succ_lt hn)).2.2.1 (outsAt c n (Nat.lt_of_succ_lt hn)).2.2.2

theorem outsAt_first (c : Dev nD) (t : Fin cfg0.N) (h0 : t.val % 2 = 0) : outsAt m c t.val t.isLt = stepFirst m c t h0 := by
  obtain ⟨n, hn⟩ := t
  cases n with
  | zero => rfl
  | succ n => exact dif_pos h0
theorem outsAt_last (c : Dev nD) (t : Fin cfg0.N) (h0 : ¬t.val % 2 = 0) :
    outsAt m c t.val t.isLt = stepLast m c t h0 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact dif_neg h0

/-- The region invariant before position `n`: before the first point the class's (both running sums at anything);
    afterwards both running sums at what the point before left, and the generator register at some state. -/
def PhiS (c : Dev nD) : (n : ℕ) → n ≤ cfg0.N → sProp 𝕄
  | 0, _ => Pipeline.ΦA spec0 c
  | n + 1, hn => iprop(iprop(owns (c : Thread nD τ) colSumM fullShare ((outsAt m c n hn).2.2.1) ∗ owns (c : Thread nD τ) sqSumM fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) colSumM fullShare ((outsAt m c n hn).2.2.1) ∗ owns (c : Thread nD τ) sqSumM fullShare ((outsAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) colSumM fullShare ((outsAt m c (n - 1) (by omega)).2.2.1) ∗ owns (c : Thread nD τ) sqSumM fullShare ((outsAt m c (n - 1) (by omega)).2.2.2)) ∗ (∃ r, prngReg c r)) := by
  cases n with
  | zero => exact absurd rfl hz
  | succ n => rfl

/-! ## The proof data -/

/-- On core `c`: the arrays as the region finds them; after the body at `t` the input's buffer at its block and the
    outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_input (c : Dev nD) (t : Fin cfg0.N) : (dats m 0 c).after 0 t = iblk m c 0 t := by dsimp only [dats]
theorem after_nodes (c : Dev nD) (t : Fin cfg0.N) : (dats m 0 c).after 1 t = (outsAt m c t.val t.isLt).1 := by dsimp only [dats]
theorem after_texture (c : Dev nD) (t : Fin cfg0.N) : (dats m 0 c).after 2 t = (outsAt m c t.val t.isLt).2.1 := by dsimp only [dats]
theorem before_input (c : Dev nD) (t : Fin cfg0.N) (d) : (dats m 0 c).before 0 t d = iblk m c 0 t :=
  input_before_of m (dats m 0 c) (A_eq m c 0) (after_input m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input's memref holds its block; the parity of the point says which case it is in;
    the invariant hands the body the two running sums (at anything before the first point, else at what the point
    before left) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_input]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [input_live t], after_input]
  by_cases h0 : t.val % 2 = 0
  · rw [Dat.leavesExact_idle (dats m 0 c) 1 t (nodes_idle_first t (first_of_even t h0).1 (first_of_even t h0).2) (nodes_noFlush_first t (first_of_even t h0).1 (first_of_even t h0).2)]
    rw [Dat.leavesExact_idle (dats m 0 c) 2 t (texture_idle_first t (first_of_even t h0).1 (first_of_even t h0).2) (texture_noFlush_first t (first_of_even t h0).1 (first_of_even t h0).2)]
    rw [outsAt_first m c t h0]
    unfold stepFirst colSumFirst sqSumFirst; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runFirst c (grid0.coords t) _ _ _ _ _ _ _ _ _ _ (first_of_even t h0).1 (first_of_even t h0).2 (iblk m c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (colSumFirst_cover c _ _ _ _ _ _ _ _ _ _ _ _ _ _)
          · unfold owns; iexists _; isplitr
            swap; · iexact HS1
            ipureintro; exact View.read_writes_of_cover _ _ _ _ _ (sqSumFirst_cover c _ _ _ _ _ _ _ _ _ _ _ _ _ _)
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) _ _ _ _ _ _ _ _ _ _ (first_of_even t h0).1 (first_of_even t h0).2 (iblk m c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (colSumFirst_cover c _ _ _ _ _ _ _ _ _ _ _ _ _ _)
          · unfold owns; iexists _; isplitr
            swap; · iexact HS1
            ipureintro; exact View.read_writes_of_cover _ _ _ _ _ (sqSumFirst_cover c _ _ _ _ _ _ _ _ _ _ _ _ _ _)
        iexact Hg
      isplitl [Ho]; · iexact Ho
      isplitl [H0]; · iexact H0
      isplitl [H1]; · iexists _; iexact H1
      iexists _; iexact H2
  · rw [show (dats m 0 c).leavesExact 1 t = owns (c : Thread nD τ) (ms1 t) fullShare ((dats m 0 c).after 1 t) from by
      unfold Dat.leavesExact; rw [nodes_live_last t (last_of_odd t h0).1 (last_of_odd t h0).2], after_nodes]
    rw [show (dats m 0 c).leavesExact 2 t = owns (c : Thread nD τ) (ms2 t) fullShare ((dats m 0 c).after 2 t) from by
      unfold Dat.leavesExact; rw [texture_live_last t (last_of_odd t h0).1 (last_of_odd t h0).2], after_texture]
    rw [outsAt_last m c t h0]
    unfold stepLast nodesLast textureLast colSumLast sqSumLast; (try dsimp only)
    have hz : t.val ≠ 0 := fun h => h0 (by rw [h])
    rw [PhiS_castSucc m c t, PhiS_pos m c _ _ hz]
    iintro ⟨⟨⟨HS0, HS1⟩, Hg⟩, Ho, ⟨%d0, H0⟩, ⟨%d1, H1⟩, ⟨%d2, H2⟩⟩
    iapply ((runLast c (grid0.coords t) _ _ _ _ _ _ _ _ _ _ (last_of_odd t h0).1 (last_of_odd t h0).2 (iblk m c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (colSumLast_cover c _ _ _ _ _ _ _ _ _ _ _ _ _ _ _ _)
        · unfold owns; iexists _; isplitr
          swap; · iexact HS1
          ipureintro; exact View.read_writes_of_cover _ _ _ _ _ (sqSumLast_cover c _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (nodesLast_cover c _ _ _ _ _ _ _ _ _ _ _ _ _ _ _ _)
    · unfold owns; iexists _; isplitr
      swap; · iexact H2
      ipureintro; exact View.read_writes_of_cover _ _ _ _ _ (textureLast_cover c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option maxRecDepth 131072 in
set_option backward.isDefEq.respectTransparency.types false in
/-- Every weakly fair execution of @main terminates, and every final state has each array of the region at what
    the library computes from the proof data and every other unscoped buffer as the later lines leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := tail_sub) (hfresh := tail_fresh) (hkeep := tail_keeps)
    (hmain := hmain m Variants.none) (hA := A_eq m) (hin := hin m) (hout := hout m)

/-- The frame: the program runs and x ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Region

end
-- ==== Proof.KIPieces.lean ====
/-
  What each case of the body leaves, as values of the kernel's payload functions.

  A first tile leaves, in the column-sum buffer, the tile's column sums added to the zero block it has just stored
  there, and in the squared-mean buffer the tile's squared channel means summed over its rows, added to zero. A
  last tile adds its own sums to what it finds, and stores both outputs from the updated running sums: the node
  means from the column sums, the texture energies from the squared-mean sums. Each buffer is written by whole-
  buffer stores, so what it ends with is its last store's payload, the loads inside it reading what the stores
  before left.
-/
import proofs.«168854_j60833916780679_2_alg».proof.Proof.KIFrame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First tile, column sums: zero plus the tile's sums over its rows. -/
theorem colSumFirst_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : colSumFirst c i arg2 harg2 arg3 harg3 arg4 harg4 arg5 harg5 arg6 harg6 hc0 hc1 x0 = k0_pay4 x0 (k0_pay1 (F := F)) := by
  unfold colSumFirst
  rw [View.read_writes_eq_canon _ _ _ (colSumFirst_cover c i arg2 harg2 arg3 harg3 arg4 harg4 arg5 harg5 arg6 harg6 hc0 hc1 x0)]
  unfold runFirst
  dsimp only
  sl_unfold_words
  rw [View.canon_cons_unit_zero (S := S32x500) hz2, View.readCov_unit_zero (S := S32x500) _ hz2]
  simp only [View.readAt_eq_ld, harg2.read_unread, View.ld_unit_zero (S := S1x32x256x500) hz4]

/-- First tile, squared channel means: zero plus the tile's sums over its rows. -/
theorem sqSumFirst_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : firstTile i) (hc1 : ¬lastTile i)
    (x0 : Vec F S1x32x256x500 .f32) : sqSumFirst c i arg2 harg2 arg3 harg3 arg4 harg4 arg5 harg5 arg6 harg6 hc0 hc1 x0 = k0_pay5 x0 (k0_pay2 (F := F)) := by
  unfold sqSumFirst
  rw [View.read_writes_eq_canon _ _ _ (sqSumFirst_cover c i arg2 harg2 arg3 harg3 arg4 harg4 arg5 harg5 arg6 harg6 hc0 hc1 x0)]
  unfold runFirst
  dsimp only
  sl_unfold_words
  rw [View.canon_cons_unit_zero (S := S1x500) hz2, View.readCov_unit_zero (S := S1x500) _ hz2]
  simp only [View.readAt_eq_ld, harg2.read_unread, View.ld_unit_zero (S := S1x32x256x500) hz4]

/-- Last tile, column sums: what was there plus the tile's sums. -/
theorem colSumLast_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    colSumLast c i arg2 harg2 arg3 harg3 arg4 harg4 arg5 harg5 arg6 harg6 hc0 hc1 x0 xs0 xs1 = k0_pay4 x0 xs0 := by
  unfold colSumLast
  rw [View.read_writes_eq_canon _ _ _ (colSumLast_cover c i arg2 harg2 arg3 harg3 arg4 harg4 arg5 harg5 arg6 harg6 hc0 hc1 x0 xs0 xs1)]
  unfold runLast
  dsimp only
  sl_unfold_words
  rw [View.canon_unit_zero hz2]
  simp only [View.readAt_eq_ld, harg2.read_unread, harg5.read_unread, View.ld_unit_zero (S := S1x32x256x500) hz4, View.ld_unit_zero (S := S32x500) hz2]

/-- Last tile, squared channel means: what was there plus the tile's sums. -/
theorem sqSumLast_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    sqSumLast c i arg2 harg2 arg3 harg3 arg4 harg4 arg5 harg5 arg6 harg6 hc0 hc1 x0 xs0 xs1 = k0_pay5 x0 xs1 := by
  unfold sqSumLast
  rw [View.read_writes_eq_canon _ _ _ (sqSumLast_cover c i arg2 harg2 arg3 harg3 arg4 harg4 arg5 harg5 arg6 harg6 hc0 hc1 x0 xs0 xs1)]
  unfold runLast
  dsimp only
  sl_unfold_words
  rw [View.canon_unit_zero hz2]
  simp only [View.readAt_eq_ld, harg2.read_unread, harg6.read_unread, View.ld_unit_zero (S := S1x32x256x500) hz4, View.ld_unit_zero (S := S1x500) hz2]

/-- Last tile, node means: the updated column sums folded over the strips and scaled. -/
theorem nodesLast_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    nodesLast c i arg2 harg2 arg3 harg3 arg4 harg4 arg5 harg5 arg6 harg6 hc0 hc1 x0 xs0 xs1 = k0_pay6 (k0_pay4 x0 xs0) := by
  unfold nodesLast
  rw [View.read_writes_eq_canon _ _ _ (nodesLast_cover c i arg2 harg2 arg3 harg3 arg4 harg4 arg5 harg5 arg6 harg6 hc0 hc1 x0 xs0 xs1)]
  unfold runLast
  dsimp only
  sl_unfold_words
  rw [View.canon_unit_zero hz3, View.readCov_unit_zero (S := S32x500) _ hz2]
  simp only [View.readAt_eq_ld, harg2.read_unread, harg5.read_unread, View.ld_unit_zero (S := S1x32x256x500) hz4, View.ld_unit_zero (S := S32x500) hz2]

/-- Last tile, texture energies: the updated squared-mean sums folded over the strips. -/
theorem textureLast_eq (c : Dev nD) (i : grid0.Coords) (arg2 : Memref sig .tc .vmem S1x32x256x500 .f32) (harg2 : arg2.IsWhole) (arg3 : Memref sig .tc .vmem S1x10x32 .f32) (harg3 : arg3.IsWhole) (arg4 : Memref sig .tc .vmem S1x10x1 .f32) (harg4 : arg4.IsWhole) (arg5 : Memref sig .tc .vmem S32x500 .f32) (harg5 : arg5.IsWhole) (arg6 : Memref sig .tc .vmem S1x500 .f32) (harg6 : arg6.IsWhole) (hc0 : ¬firstTile i) (hc1 : lastTile i)
    (x0 : Vec F S1x32x256x500 .f32) (xs0 : Vec F S32x500 .f32) (xs1 : Vec F S1x500 .f32) :
    textureLast c i arg2 harg2 arg3 harg3 arg4 harg4 arg5 harg5 arg6 harg6 hc0 hc1 x0 xs0 xs1 = k0_pay7 (k0_pay5 x0 xs1) := by
  unfold textureLast
  rw [View.read_writes_eq_canon _ _ _ (textureLast_cover c i arg2 harg2 arg3 harg3 arg4 harg4 arg5 harg5 arg6 harg6 hc0 hc1 x0 xs0 xs1)]
  unfold runLast
  dsimp only
  sl_unfold_words
  rw [View.canon_unit_zero hz3, View.readCov_unit_zero (S := S1x500) _ hz2]
  simp only [View.readAt_eq_ld, harg2.read_unread, harg6.read_unread, View.ld_unit_zero (S := S1x32x256x500) hz4, View.ld_unit_zero (S := S1x500) hz2]

end Cert.KernelIdeal.Region

end
-- ==== Proof.KIArrays.lean ====
/-
  The two result arrays after the region, each as ONE function of the input array.

  Row b of the grid is the two points 2b (first tile) and 2b + 1 (last tile). After the last tile the column-sum
  buffer holds (0 + sums over the rows of the first tile) + sums over the rows of the last tile, and the squared-mean
  buffer likewise; the node block of row b is the column sums folded over the ten strips and scaled, the texture
  block the squared-mean sums folded over the strips. Only the odd points write the outputs back, point 2b + 1 to
  block b of each result array, and these four blocks tile each array: so each array is, index by index, the block
  function of the row its leading coordinate names. The input block of point t is x[t / 2, :, 256·(t % 2) + ·, :].
-/
import proofs.«168854_j60833916780679_2_alg».proof.Proof.KIPieces
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

theorem N8 : cfg0.N = 8 := N_0

/-- The printed index maps, decided over the grid: the input's block index is (t / 2, 0, t % 2, 0), each output's (t / 2, 0, 0). -/
theorem idx_facts : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The point before `t`, and the last tile of row `r`. -/
def prevPt (t : Fin cfg0.N) : Fin cfg0.N := ⟨t.val - 1, lt_of_le_of_lt (Nat.sub_le _ _) t.isLt⟩
def lastPt (r : ℕ) (h : r < 4) : Fin cfg0.N := ⟨2 * r + 1, by rw [N8]; omega⟩

/-- The running sums after a last tile `t`: zero, plus the first tile's sums, plus the last tile's. -/
def colSumAfter (c : Dev nD) (t : Fin cfg0.N) : Vec F S32x500 .f32 :=
  k0_pay4 (iblk m c 0 t) (k0_pay4 (iblk m c 0 (prevPt t)) (k0_pay1 (F := F)))
def sqSumAfter (c : Dev nD) (t : Fin cfg0.N) : Vec F S1x500 .f32 :=
  k0_pay5 (iblk m c 0 t) (k0_pay5 (iblk m c 0 (prevPt t)) (k0_pay2 (F := F)))

/-- What an odd point leaves in the two outputs' buffers. -/
theorem outsAt_odd (c : Dev nD) (t : Fin cfg0.N) (h0 : ¬t.val % 2 = 0) :
    (outsAt m c t.val t.isLt).1 = k0_pay6 (colSumAfter m c t) ∧ (outsAt m c t.val t.isLt).2.1 = k0_pay7 (sqSumAfter m c t) := by
  have hp : (prevPt t).val % 2 = 0 := by show (t.val - 1) % 2 = 0; omega
  have e1 : outsAt m c (t.val - 1) (Nat.lt_of_le_of_lt (Nat.sub_le _ _) t.isLt) = stepFirst m c (prevPt t) hp :=
    outsAt_first m c (prevPt t) hp
  rw [outsAt_last m c t h0, e1]
  unfold stepLast stepFirst
  dsimp only
  rw [nodesLast_eq, textureLast_eq, colSumFirst_eq, sqSumFirst_eq]
  exact ⟨rfl, rfl⟩

/-- The node array: at (b, s, ch) the node block of row b at (0, s, ch). -/
def nodesArr (c : Dev nD) : S4x10x32.Idx → Elt F .f32 := fun i =>
  k0_pay6 (colSumAfter m c (lastPt (i 0).val (i 0).isLt)) (ix3 (0 : Fin 1) (⟨(i 1).val, (i 1).isLt⟩ : Fin 10) (⟨(i 2).val, (i 2).isLt⟩ : Fin 32))
/-- The texture array: at (b, s, 0) the texture block of row b at (0, s, 0). -/
def textureArr (c : Dev nD) : S4x10x1.Idx → Elt F .f32 := fun i =>
  k0_pay7 (sqSumAfter m c (lastPt (i 0).val (i 0).isLt)) (ix3 (0 : Fin 1) (⟨(i 1).val, (i 1).isLt⟩ : Fin 10) (0 : Fin 1))

/-- A flushing point writes back its block of the node array. -/
theorem nodes_flushed (c : Dev nD) (t : Fin cfg0.N) (hf : (cfg0.win 1).flush t = true) :
    (dats m 0 c).flushed 1 t = ((cfg0.win 1).blk t).view.read (Elt F) (nodesArr m c) := by
  have hN := N8
  have ht : t.val % 2 = 1 := (flush0_1 t).mp hf
  have hlt := t.isLt
  show (cfg0.win 1).cut (grid0.coords t) ((dats m 0 c).after 1 t) = _
  rw [after_nodes, (outsAt_odd m c t (by omega)).1]
  obtain ⟨-, -, -, -, e0, e1, e2, -, -, -⟩ := idx_facts t
  funext j
  show k0_pay6 (colSumAfter m c t) j = nodesArr m c (((cfg0.win 1).blk t).view.emb j)
  unfold nodesArr
  have hj0 : (j 0).val < 1 := (j 0).isLt
  have hj1 : (j 1).val < 10 := (j 1).isLt
  have hj2 : (j 2).val < 32 := (j 2).isLt
  have a0 : ((((cfg0.win 1).blk t).view.emb j) 0).val = t.val / 2 := by
    show win0_1.index t (0 : Fin 3) * 1 + 1 * (j 0).val = _; omega
  have a1 : ((((cfg0.win 1).blk t).view.emb j) 1).val = (j 1).val := by
    show win0_1.index t (1 : Fin 3) * 10 + 1 * (j 1).val = _; omega
  have a2 : ((((cfg0.win 1).blk t).view.emb j) 2).val = (j 2).val := by
    show win0_1.index t (2 : Fin 3) * 32 + 1 * (j 2).val = _; omega
  have ep : t = lastPt ((((cfg0.win 1).blk t).view.emb j) 0).val ((((cfg0.win 1).blk t).view.emb j) 0).isLt :=
    Fin.ext (by show t.val = 2 * ((((cfg0.win 1).blk t).view.emb j) 0).val + 1; rw [a0]; omega)
  have ej : j = ix3 (0 : Fin 1) (⟨((((cfg0.win 1).blk t).view.emb j) 1).val, ((((cfg0.win 1).blk t).view.emb j) 1).isLt⟩ : Fin 10)
      (⟨((((cfg0.win 1).blk t).view.emb j) 2).val, ((((cfg0.win 1).blk t).view.emb j) 2).isLt⟩ : Fin 32) :=
    funext fun a => Fin.ext (by
      match a with
      | ⟨0, _⟩ => show (j 0).val = 0; omega
      | ⟨1, _⟩ => exact a1.symm
      | ⟨2, _⟩ => exact a2.symm)
  exact congr (congrArg k0_pay6 (congrArg (colSumAfter m c) ep)) ej

/-- A flushing point writes back its block of the texture array. -/
theorem texture_flushed (c : Dev nD) (t : Fin cfg0.N) (hf : (cfg0.win 2).flush t = true) :
    (dats m 0 c).flushed 2 t = ((cfg0.win 2).blk t).view.read (Elt F) (textureArr m c) := by
  have hN := N8
  have ht : t.val % 2 = 1 := (flush0_2 t).mp hf
  have hlt := t.isLt
  show (cfg0.win 2).cut (grid0.coords t) ((dats m 0 c).after 2 t) = _
  rw [after_texture, (outsAt_odd m c t (by omega)).2]
  obtain ⟨-, -, -, -, -, -, -, e0, e1, e2⟩ := idx_facts t
  funext j
  show k0_pay7 (sqSumAfter m c t) j = textureArr m c (((cfg0.win 2).blk t).view.emb j)
  unfold textureArr
  have hj0 : (j 0).val < 1 := (j 0).isLt
  have hj1 : (j 1).val < 10 := (j 1).isLt
  have hj2 : (j 2).val < 1 := (j 2).isLt
  have a0 : ((((cfg0.win 2).blk t).view.emb j) 0).val = t.val / 2 := by
    show win0_2.index t (0 : Fin 3) * 1 + 1 * (j 0).val = _; omega
  have a1 : ((((cfg0.win 2).blk t).view.emb j) 1).val = (j 1).val := by
    show win0_2.index t (1 : Fin 3) * 10 + 1 * (j 1).val = _; omega
  have ep : t = lastPt ((((cfg0.win 2).blk t).view.emb j) 0).val ((((cfg0.win 2).blk t).view.emb j) 0).isLt :=
    Fin.ext (by show t.val = 2 * ((((cfg0.win 2).blk t).view.emb j) 0).val + 1; rw [a0]; omega)
  have ej : j = ix3 (0 : Fin 1) (⟨((((cfg0.win 2).blk t).view.emb j) 1).val, ((((cfg0.win 2).blk t).view.emb j) 1).isLt⟩ : Fin 10) (0 : Fin 1) :=
    funext fun a => Fin.ext (by
      match a with
      | ⟨0, _⟩ => show (j 0).val = 0; omega
      | ⟨1, _⟩ => exact a1.symm
      | ⟨2, _⟩ => show (j 2).val = 0; omega)
  exact congr (congrArg k0_pay7 (congrArg (sqSumAfter m c) ep)) ej

/-- An index of a result array is in point `t`'s block iff each coordinate is in the block's range on its axis. -/
theorem nodes_mem_blk (t : Fin cfg0.N) (i : S4x10x32.Idx) :
    i ∈ ((cfg0.win 1).blk t).view.set ↔ ∀ a : Fin 3, win0_1.index t a * S1x10x32.size a ≤ (i a).val ∧ (i a).val < win0_1.index t a * S1x10x32.size a + S1x10x32.size a := by
  show i ∈ ((View.whole main_v0_0).slice (win0_1.rect t)).set ↔ _
  rw [View.set_slice_whole, Rect.mem_set_unit]
  exact Iff.rfl
theorem texture_mem_blk (t : Fin cfg0.N) (i : S4x10x1.Idx) :
    i ∈ ((cfg0.win 2).blk t).view.set ↔ ∀ a : Fin 3, win0_2.index t a * S1x10x1.size a ≤ (i a).val ∧ (i a).val < win0_2.index t a * S1x10x1.size a + S1x10x1.size a := by
  show i ∈ ((View.whole main_v0_1).slice (win0_2.rect t)).set ↔ _
  rw [View.set_slice_whole, Rect.mem_set_unit]
  exact Iff.rfl

/-- The last tile of row b covers every index of row b. -/
theorem nodes_cover (i : S4x10x32.Idx) : ∃ t : Fin cfg0.N, (cfg0.win 1).flush t = true ∧ i ∈ ((cfg0.win 1).blk t).view.set := by
  have hi0 : (i 0).val < 4 := (i 0).isLt
  have hi1 : (i 1).val < 10 := (i 1).isLt
  have hi2 : (i 2).val < 32 := (i 2).isLt
  have hv : (lastPt (i 0).val hi0).val = 2 * (i 0).val + 1 := rfl
  obtain ⟨-, -, -, -, e0, e1, e2, -, -, -⟩ := idx_facts (lastPt (i 0).val hi0)
  refine ⟨lastPt (i 0).val hi0, (flush0_1 _).mpr (by rw [hv]; omega), ?_⟩
  rw [nodes_mem_blk]
  intro a
  match a with
  | ⟨0, _⟩ => show win0_1.index (lastPt (i 0).val hi0) (0 : Fin 3) * 1 ≤ (i 0).val ∧ (i 0).val < win0_1.index (lastPt (i 0).val hi0) (0 : Fin 3) * 1 + 1; rw [e0, hv]; omega
  | ⟨1, _⟩ => show win0_1.index (lastPt (i 0).val hi0) (1 : Fin 3) * 10 ≤ (i 1).val ∧ (i 1).val < win0_1.index (lastPt (i 0).val hi0) (1 : Fin 3) * 10 + 10; rw [e1]; omega
  | ⟨2, _⟩ => show win0_1.index (lastPt (i 0).val hi0) (2 : Fin 3) * 32 ≤ (i 2).val ∧ (i 2).val < win0_1.index (lastPt (i 0).val hi0) (2 : Fin 3) * 32 + 32; rw [e2]; omega
theorem texture_cover (i : S4x10x1.Idx) : ∃ t : Fin cfg0.N, (cfg0.win 2).flush t = true ∧ i ∈ ((cfg0.win 2).blk t).view.set := by
  have hi0 : (i 0).val < 4 := (i 0).isLt
  have hi1 : (i 1).val < 10 := (i 1).isLt
  have hi2 : (i 2).val < 1 := (i 2).isLt
  have hv : (lastPt (i 0).val hi0).val = 2 * (i 0).val + 1 := rfl
  obtain ⟨-, -, -, -, -, -, -, e0, e1, e2⟩ := idx_facts (lastPt (i 0).val hi0)
  refine ⟨lastPt (i 0).val hi0, (flush0_2 _).mpr (by rw [hv]; omega), ?_⟩
  rw [texture_mem_blk]
  intro a
  match a with
  | ⟨0, _⟩ => show win0_2.index (lastPt (i 0).val hi0) (0 : Fin 3) * 1 ≤ (i 0).val ∧ (i 0).val < win0_2.index (lastPt (i 0).val hi0) (0 : Fin 3) * 1 + 1; rw [e0, hv]; omega
  | ⟨1, _⟩ => show win0_2.index (lastPt (i 0).val hi0) (1 : Fin 3) * 10 ≤ (i 1).val ∧ (i 1).val < win0_2.index (lastPt (i 0).val hi0) (1 : Fin 3) * 10 + 10; rw [e1]; omega
  | ⟨2, _⟩ => show win0_2.index (lastPt (i 0).val hi0) (2 : Fin 3) * 1 ≤ (i 2).val ∧ (i 2).val < win0_2.index (lastPt (i 0).val hi0) (2 : Fin 3) * 1 + 1; rw [e2]; omega

/-- The two result arrays after the region. -/
theorem nodes_final (c : Dev nD) : (dats m 0 c).arrAt 1 cfg0.N = nodesArr m c :=
  (dats m 0 c).arrAt_eq_of_cover 1 (nodesArr m c) (nodes_flushed m c) nodes_cover
theorem texture_final (c : Dev nD) : (dats m 0 c).arrAt 2 cfg0.N = textureArr m c :=
  (dats m 0 c).arrAt_eq_of_cover 2 (textureArr m c) (texture_flushed m c) texture_cover

/-- The input block of point `t` read at (0, ch, h, w) is x at (t / 2, ch, 256·(t % 2) + h, w). -/
theorem iblk_apply (c : Dev nD) (t : Fin cfg0.N) (ch : Fin 32) (h : Fin 256) (w : Fin 500) :
    (iblk m c 0 t : Vec F S1x32x256x500 .f32) (ix4 (0 : Fin 1) ch h w)
      = m ((c : Thread nD τ).loc main_arg0) (ix4 (⟨t.val / 2, by have := t.isLt; have := N8; omega⟩ : Fin 4) ch
          (⟨256 * (t.val % 2) + h.val, by have := h.isLt; omega⟩ : Fin 512) w) := by
  obtain ⟨e0, e1, e2, e3, -⟩ := idx_facts t
  unfold iblk
  rw [View.read_apply]
  show V m c main_arg0 _ = _
  rw [V_main_arg0]
  refine congrArg _ ?_
  funext a
  apply Fin.ext
  match a with
  | ⟨0, _⟩ => show win0_0.index t (0 : Fin 4) * 1 + 1 * 0 = t.val / 2; omega
  | ⟨1, _⟩ => show win0_0.index t (1 : Fin 4) * 32 + 1 * ch.val = ch.val; omega
  | ⟨2, _⟩ => show win0_0.index t (2 : Fin 4) * 256 + 1 * h.val = 256 * (t.val % 2) + h.val; omega
  | ⟨3, _⟩ => show win0_0.index t (3 : Fin 4) * 500 + 1 * w.val = w.val; omega

end Cert.KernelIdeal.Region

end
-- ==== Proof.KIResult.lean ====
/-
  The idealized kernel program's run, read back.

  When the region is left, the buffers hold: x as launched, the two constant tables, the node array and the texture
  array (each the function of x the blocks-to-array step found), and everything else as it was. The program's two
  results are then what its later host lines compute from these contents. Nothing of those lines is opened here.
-/
import proofs.«168854_j60833916780679_2_alg».proof.Proof.KIArrays
import Idealize.ShloMosaic.Lib.StableHlo.Run

set_option maxRecDepth 131072

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The later host lines, stretch by stretch. -/
abbrev laterLines : List (List (HloOp τ sig (Elt Ideal))) := [hostOps1, hostOps1_1, hostOps1_2, hostOps1_3, hostOps1_4, hostOps1_5, hostOps1_6, hostOps1_7, hostOps1_8]

/-- The buffer contents on core `c` when the region is left: the region's arrays as the run leaves them, everything
    else as the region found it. -/
def exitContents (c : Dev nD) : Valuation τ sig (Elt Ideal) :=
  Pipeline.withArrays spec0 c (V0 m c) (fun w => (dats m 0 c).arrAt w cfg0.N)

/-- At the node array: the node function of x. -/
theorem exit_nodes (c : Dev nD) : exitContents m c (Proc.devRef .tc main_v0_0) = nodesArr m c :=
  (Pipeline.withArrays_arr spec0 launch0.win.arr_inj c (V0 m c) _ 1).trans (nodes_final m c)
/-- At the texture array: the texture function of x. -/
theorem exit_texture (c : Dev nD) : exitContents m c (Proc.devRef .tc main_v0_1) = textureArr m c :=
  (Pipeline.withArrays_arr spec0 launch0.win.arr_inj c (V0 m c) _ 2).trans (texture_final m c)
/-- At the weight table and the tree table: the printed words. -/
theorem exit_weights (c : Dev nD) :
    exitContents m c (Proc.devRef .tc main_cst) = (fun i => FloatOps.ofBits (F := Ideal) .f32 (lit1 (S10x10.rowMajor i)) : S10x10.Idx → Elt Ideal .f32) := by
  unfold exitContents
  rw [Pipeline.withArrays_of_ne spec0 c (V0 m c) _ main_cst (fun w => by fin_cases w <;> decide)]
  dsimp only [V0]
  simp only [hostOps0, List.flatten_cons, List.flatten_nil, List.append_nil, List.cons_append, List.nil_append]
  after_results
  try rfl
theorem exit_tree (c : Dev nD) :
    exitContents m c (Proc.devRef .tc main_c) = (fun i => lit0 (S21x2.rowMajor i) : S21x2.Idx → BitVec 32) := by
  unfold exitContents
  rw [Pipeline.withArrays_of_ne spec0 c (V0 m c) _ main_c (fun w => by fin_cases w <;> decide)]
  dsimp only [V0]
  simp only [hostOps0, List.flatten_cons, List.flatten_nil, List.append_nil, List.cons_append, List.nil_append]
  after_results
  try rfl

/-- The run: both results at the later lines' value from the exit contents, x unchanged. -/
theorem run_results : θ_run defs (onTc (τ := τ) (main (F := Ideal))) ⟨m, fun _ => 0, ρ⟩ (fun r => ∀ c : Dev nD,
      r.2.mem ((c.tc : Thread nD τ).loc main_v82) = StableHlo.after (laterLines).flatten (exitContents m c) (Proc.devRef .tc main_v82)
      ∧ r.2.mem ((c.tc : Thread nD τ).loc main_v111) = StableHlo.after (laterLines).flatten (exitContents m c) (Proc.devRef .tc main_v111)
      ∧ r.2.mem ((c.tc : Thread nD τ).loc main_arg0) = m ((c.tc : Thread nD τ).loc main_arg0)) :=
  (θ_run defs _ _).mono (fun _ h c =>
    ⟨(h c).2 main_v82 (Pipeline.mem_restRefs_of main_v82 rfl (fun w => by fin_cases w <;> decide)),
     (h c).2 main_v111 (Pipeline.mem_restRefs_of main_v111 rfl (fun w => by fin_cases w <;> decide)),
     ((h c).1 0).trans (((dats m 0 c).arrAt_in 0 rfl _).trans ((A_eq m c 0).trans (V_main_arg0 m c)))⟩) (run_main m ρ)

end Cert.KernelIdeal.Region

end
-- ==== Proof.KIPayIdeal.lean ====
/-
  The kernel's payloads and the first host operations after the kernel, read at an index at the ideal instance
  (a float an extended real, every operation exact): each stored block as an explicit sum over the reduced axis of
  the values it was computed from, and the host's combination of the kernel's two results as a sum of two products.
-/
import proofs.«168854_j60833916780679_2_alg».proof.Proof.Gen.KernelIdeal.Skeleton
import proofs.«168854_j60833916780679_2_alg».proof.Proof.Gen.KernelIdeal.Launch
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.PayIdeal

open Cert.KernelIdeal Cert.KernelIdeal.Gen Idealize.ShloMosaic Idealize.ShloMosaic.ValueIdx
open scoped BigOperators

/-- Column `50 s + j` of a 500-wide row: the `j`-th column of the `s`-th group of 50. -/
abbrev col (s : Fin 10) (j : Fin 50) : Fin 500 := ⟨50 * s.val + j.val, by have := s.isLt; have := j.isLt; omega⟩

/-! ## Lane sums over one axis, at literal shapes -/

/-- The sum over the 256 rows of a `[32, 256, 500]` block, at channel `c` and column `w`. -/
theorem sum_rows (src : FVec Ideal S32x256x500 .f32) (h : S32x256x500.Reduces [1] S32x500)
    (hφ : FKind.Formats .f32) (hacc : (0x00000000#32 : BitVec 32) = 0x00000000#32) (c : Fin 32) (w : Fin 500) :
    multiReduction .add [1] S32x500 src 0x00000000#32 h hφ hacc (ix2 c w) = ∑ k : Fin 256, src (ix3 c k w) := by
  refine (Ideal.multiReduction_add_single src 0x00000000#32 h hφ hacc (ix2 c w)).trans ?_
  refine Finset.sum_congr rfl fun k _ => congrArg src (funext fun a => Fin.ext ?_)
  match a with
  | ⟨0, _⟩ => rfl
  | ⟨1, _⟩ => rfl
  | ⟨2, _⟩ => rfl

/-- The sum over the last axis of an `[a, b, n]` block, at `(p, q)`. -/
theorem sum_last {a b n : ℕ} (src : FVec Ideal ⟨3, ![a, b, n]⟩ .f32)
    (h : (⟨3, ![a, b, n]⟩ : Shape).Reduces [2] ⟨2, ![a, b]⟩)
    (hφ : FKind.Formats .f32) (hacc : (0x00000000#32 : BitVec 32) = 0x00000000#32) (p : Fin a) (q : Fin b) :
    multiReduction .add [2] ⟨2, ![a, b]⟩ src 0x00000000#32 h hφ hacc (ix2 p q) = ∑ k : Fin n, src (ix3 p q k) := by
  refine (Ideal.multiReduction_add_single src 0x00000000#32 h hφ hacc (ix2 p q)).trans ?_
  refine Finset.sum_congr rfl fun k _ => congrArg src (funext fun c => Fin.ext ?_)
  match c with
  | ⟨0, _⟩ => rfl
  | ⟨1, _⟩ => rfl
  | ⟨2, _⟩ => rfl

/-- The sum over the 32 channels of a `[32, 256, 500]` block, at row `r` and column `w`. -/
theorem sum_channels (src : FVec Ideal S32x256x500 .f32) (h : S32x256x500.Reduces [0] S256x500)
    (hφ : FKind.Formats .f32) (hacc : (0x00000000#32 : BitVec 32) = 0x00000000#32) (r : Fin 256) (w : Fin 500) :
    multiReduction .add [0] S256x500 src 0x00000000#32 h hφ hacc (ix2 r w) = ∑ k : Fin 32, src (ix3 k r w) := by
  refine (Ideal.multiReduction_add_single src 0x00000000#32 h hφ hacc (ix2 r w)).trans ?_
  refine Finset.sum_congr rfl fun k _ => congrArg src (funext fun a => Fin.ext ?_)
  match a with
  | ⟨0, _⟩ => rfl
  | ⟨1, _⟩ => rfl
  | ⟨2, _⟩ => rfl

/-- The sum over the 256 rows of a `[256, 500]` block, at column `w`. -/
theorem sum_rows2 (src : FVec Ideal S256x500 .f32) (h : S256x500.Reduces [0] S500)
    (hφ : FKind.Formats .f32) (hacc : (0x00000000#32 : BitVec 32) = 0x00000000#32) (w : Fin 500) :
    multiReduction .add [0] S500 src 0x00000000#32 h hφ hacc (ix1 w) = ∑ k : Fin 256, src (ix2 k w) := by
  refine (Ideal.multiReduction_add_single src 0x00000000#32 h hφ hacc (ix1 w)).trans ?_
  refine Finset.sum_congr rfl fun k _ => congrArg src (funext fun a => Fin.ext ?_)
  match a with
  | ⟨0, _⟩ => rfl
  | ⟨1, _⟩ => rfl

/-! ## Layout operations at an index -/

/-- A `[p, 500]` array cast to `[p, 10, 50]` reads, at `(c, s, j)`, the operand at `(c, 50 s + j)`. -/
theorem shapeCast_groups_apply {p : ℕ} {α : Type} (x : (⟨2, ![p, 500]⟩ : Shape).Idx → α)
    (h : (⟨2, ![p, 500]⟩ : Shape).ShapeCasts ⟨3, ![p, 10, 50]⟩) (c : Fin p) (s : Fin 10) (j : Fin 50) :
    shapeCast ⟨3, ![p, 10, 50]⟩ x h (ix3 c s j) = x (ix2 c (col s j)) :=
  shapeCast_apply x h _ _ (by
    rw [Shape.rowMajor_val_three, Shape.rowMajor_val_two]
    show c.val * 500 + (50 * s.val + j.val) = (c.val * 10 + s.val) * 50 + j.val
    omega)

/-- An `[a, b]` array cast to `[a, b, 1]` reads, at `(i, j, u)`, the operand at `(i, j)`. -/
theorem shapeCast_ab_ab1_apply {a b : ℕ} {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} {α : Type} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-! ## The payloads at an index -/

/-- The running channel-by-column sum after a block: what it held plus the block's sum over its 256 rows. -/
theorem pay4_apply (x0 : Vec Ideal S1x32x256x500 .f32) (v5 : Vec Ideal S32x500 .f32) (c : Fin 32) (w : Fin 500) :
    k0_pay4 x0 v5 (ix2 c w) = v5 (ix2 c w) + ∑ h : Fin 256, x0 (ix4 (0 : Fin 1) c h w) := by
  unfold k0_pay4 k0_pay3
  simp only [shapeCast_self]
  rw [addf_apply]
  refine congrArg (v5 (ix2 c w) + ·) ?_
  refine (sum_rows _ _ _ _ c w).trans ?_
  refine Finset.sum_congr rfl fun h _ => ?_
  exact shapeCast_1abc_abc_apply x0 _ c h w

/-- The per-group channel sums, scaled: the 50 columns of group `s` of channel `c` summed, times the constant named
    `inv_25600`. -/
theorem pay6_apply (v25 : Vec Ideal S32x500 .f32) (s : Fin 10) (c : Fin 32) :
    k0_pay6 v25 (ix3 (0 : Fin 1) s c) = (∑ j : Fin 50, v25 (ix2 c (col s j))) * Named.named (F := Ideal) κ "inv_25600" (φ := .f32) 0x3823D70A#32 := by
  unfold k0_pay6
  refine (shapeCast_ab_1ab_apply _ _ (0 : Fin 1) s c).trans ?_
  refine (transpose_ix2_apply _ _ s c).trans ?_
  rw [mulf_apply, broadcast_apply]
  refine congrArg (· * Named.named (F := Ideal) κ "inv_25600" (φ := .f32) 0x3823D70A#32) ?_
  refine (sum_last _ _ _ _ c s).trans ?_
  refine Finset.sum_congr rfl fun j _ => ?_
  exact shapeCast_groups_apply v25 _ c s j

/-- The per-group sums of the one row: the 50 columns of group `s` summed. -/
theorem pay7_apply (v33 : Vec Ideal S1x500 .f32) (s : Fin 10) :
    k0_pay7 v33 (ix3 (0 : Fin 1) s (0 : Fin 1)) = ∑ j : Fin 50, v33 (ix2 (0 : Fin 1) (col s j)) := by
  unfold k0_pay7
  refine (shapeCast_ab_ab1_apply _ _ (0 : Fin 1) s (0 : Fin 1)).trans ?_
  refine (sum_last _ _ _ _ (0 : Fin 1) s).trans ?_
  refine Finset.sum_congr rfl fun j _ => ?_
  exact shapeCast_groups_apply v33 _ (0 : Fin 1) s j

/-- The running column sum of squares after a block: what it held plus, over the block's 256 rows, the square of the
    channel sum scaled by `2⁻⁵` (the word `0x3D000000`). -/
theorem pay5_apply (x0 : Vec Ideal S1x32x256x500 .f32) (v14 : Vec Ideal S1x500 .f32) (w : Fin 500) :
    k0_pay5 x0 v14 (ix2 (0 : Fin 1) w) = v14 (ix2 (0 : Fin 1) w)
      + ∑ h : Fin 256, ((∑ c : Fin 32, x0 (ix4 (0 : Fin 1) c h w)) * Ideal.ofBits .f32 0x3D000000#32) * ((∑ c : Fin 32, x0 (ix4 (0 : Fin 1) c h w)) * Ideal.ofBits .f32 0x3D000000#32) := by
  have hch : ∀ (hr : S32x256x500.Reduces [0] S256x500) (hφ : FKind.Formats .f32)
      (hacc : (0x00000000#32 : BitVec 32) = 0x00000000#32) (h : Fin 256),
      multiReduction .add [0] S256x500 (k0_pay3 x0) 0x00000000#32 hr hφ hacc (ix2 h w)
        = ∑ c : Fin 32, x0 (ix4 (0 : Fin 1) c h w) := fun hr hφ hacc h =>
    (sum_channels _ hr hφ hacc h w).trans
      (Finset.sum_congr rfl fun c _ => by unfold k0_pay3; exact shapeCast_1abc_abc_apply x0 _ c h w)
  unfold k0_pay5
  simp only [shapeCast_self]
  rw [addf_apply]
  refine congrArg (v14 (ix2 (0 : Fin 1) w) + ·) ?_
  refine (shapeCast_a_1a_apply _ _ (0 : Fin 1) w).trans ?_
  refine (sum_rows2 _ _ _ _ w).trans ?_
  refine Finset.sum_congr rfl fun h _ => ?_
  rw [mulf_apply, mulf_apply, broadcast_apply, hch]
  rfl

/-- The channel-by-column sum starts from zero. -/
theorem pay1_apply (c : Fin 32) (w : Fin 500) : (k0_pay1 (F := Ideal)) (ix2 c w) = 0 := by
  unfold k0_pay1
  simp only [shapeCast_self]
  rw [broadcast_apply]
  exact Ideal.ofBits_zero_f32

/-- The column sum of squares starts from zero. -/
theorem pay2_apply (w : Fin 500) : (k0_pay2 (F := Ideal)) (ix2 (0 : Fin 1) w) = 0 := by
  unfold k0_pay2
  simp only [shapeCast_self]
  rw [broadcast_apply]
  exact Ideal.ofBits_zero_f32

/-! ## The host's first ten operations after the kernel -/

/-- The ten host operations that combine the kernel's two results: half the first plus half the second broadcast
    along the last axis. -/
abbrev headK : List (HloOp τ sig (Elt Ideal)) :=
  [ StableHlo.reshape main_v0_1 main_v1 rfl shapeCasts_S4x10x1_S4x10,
    StableHlo.nullary main_cst_0 (constant (F := Ideal) S_ .f32 0x3F000000#32),
    StableHlo.unary main_cst_0 main_v2 (broadcastInDim S4x10x32 ![] bcast_S_S4x10x32 : (⟨S_, .f32⟩ : BufTy).Contents (Elt Ideal) → (⟨S4x10x32, .f32⟩ : BufTy).Contents (Elt Ideal)),
    StableHlo.binary main_v0_0 main_v2 main_v3 (mulf (F := Ideal) (s := S4x10x32) (φ := .f32) : (⟨S4x10x32, .f32⟩ : BufTy).Contents (Elt Ideal) → (⟨S4x10x32, .f32⟩ : BufTy).Contents (Elt Ideal) → (⟨S4x10x32, .f32⟩ : BufTy).Contents (Elt Ideal)),
    StableHlo.unary main_v1 main_v4 (broadcastInDim S4x10x1 ![0, 1] bcast_S4x10_S4x10x1_0_1 : (⟨S4x10, .f32⟩ : BufTy).Contents (Elt Ideal) → (⟨S4x10x1, .f32⟩ : BufTy).Contents (Elt Ideal)),
    StableHlo.nullary main_cst_1 (constant (F := Ideal) S_ .f32 0x3F000000#32),
    StableHlo.unary main_cst_1 main_v5 (broadcastInDim S4x10x1 ![] bcast_S_S4x10x1 : (⟨S_, .f32⟩ : BufTy).Contents (Elt Ideal) → (⟨S4x10x1, .f32⟩ : BufTy).Contents (Elt Ideal)),
    StableHlo.binary main_v4 main_v5 main_v6 (mulf (F := Ideal) (s := S4x10x1) (φ := .f32) : (⟨S4x10x1, .f32⟩ : BufTy).Contents (Elt Ideal) → (⟨S4x10x1, .f32⟩ : BufTy).Contents (Elt Ideal) → (⟨S4x10x1, .f32⟩ : BufTy).Contents (Elt Ideal)),
    StableHlo.unary main_v6 main_v7 (broadcastInDim S4x10x32 ![0, 1, 2] bcast_S4x10x1_S4x10x32_0_1_2 : (⟨S4x10x1, .f32⟩ : BufTy).Contents (Elt Ideal) → (⟨S4x10x32, .f32⟩ : BufTy).Contents (Elt Ideal)),
    StableHlo.binary main_v3 main_v7 main_v8 (addf (F := Ideal) (s := S4x10x32) (φ := .f32) : (⟨S4x10x32, .f32⟩ : BufTy).Contents (Elt Ideal) → (⟨S4x10x32, .f32⟩ : BufTy).Contents (Elt Ideal) → (⟨S4x10x32, .f32⟩ : BufTy).Contents (Elt Ideal)) ]

/-- The host's twelve operations after the kernel are those ten and then two integer constants. -/
theorem hostOps1_split : (hostOps1 (F := Ideal)) = headK ++ [StableHlo.nullary main_v9 (iotaInDim S10 32 0), StableHlo.nullary main_c_2 (constantI S_ 32 2#32)] := rfl

/-- What the combined array holds after the ten operations, as one term of the kernel's two results. -/
theorem feats_eq (W : Valuation τ sig (Elt Ideal)) :
    (StableHlo.after headK W (Proc.devRef .tc main_v8) : S4x10x32.Idx → EReal)
      = addf (mulf (W (Proc.devRef .tc main_v0_0)) (broadcastInDim S4x10x32 ![] bcast_S_S4x10x32 (constant (F := Ideal) S_ .f32 0x3F000000#32)))
          (broadcastInDim S4x10x32 ![0, 1, 2] bcast_S4x10x1_S4x10x32_0_1_2
            (mulf (broadcastInDim S4x10x1 ![0, 1] bcast_S4x10_S4x10x1_0_1 (shapeCast S4x10 (W (Proc.devRef .tc main_v0_1)) shapeCasts_S4x10x1_S4x10))
              (broadcastInDim S4x10x1 ![] bcast_S_S4x10x1 (constant (F := Ideal) S_ .f32 0x3F000000#32)))) := by
  after_results
  rfl

/-- The kernel's first result, `[4, 10, 32]`, as a valuation holds it. -/
abbrev res0 (W : Valuation τ sig (Elt Ideal)) : FVec Ideal S4x10x32 .f32 := W (Proc.devRef .tc main_v0_0)
/-- The kernel's second result, `[4, 10, 1]`, as a valuation holds it. -/
abbrev res1 (W : Valuation τ sig (Elt Ideal)) : FVec Ideal S4x10x1 .f32 := W (Proc.devRef .tc main_v0_1)

/-- The combined array at `(b, s, c)`: half the first result there plus half the second result at `(b, s, 0)`. -/
theorem feats_apply (W : Valuation τ sig (Elt Ideal)) (b : Fin 4) (s : Fin 10) (c : Fin 32) :
    StableHlo.after headK W (Proc.devRef .tc main_v8) (ix3 b s c)
      = res0 W (ix3 b s c) * Ideal.ofBits .f32 0x3F000000#32 + res1 W (ix3 b s (0 : Fin 1)) * Ideal.ofBits .f32 0x3F000000#32 := by
  refine (congrFun (feats_eq W) (ix3 b s c)).trans ?_
  rw [addf_apply, mulf_apply]
  refine congrArg₂ (· + ·) rfl ?_
  refine (broadcastInDim_apply _ _ _ (ix3 b s c) (ix3 b s (0 : Fin 1))
    (fun a => match a with | ⟨0, _⟩ => rfl | ⟨1, _⟩ => rfl | ⟨2, _⟩ => rfl)).trans ?_
  rw [mulf_apply]
  refine congrArg₂ (· * ·) ?_ rfl
  refine (broadcastInDim_apply _ _ _ (ix3 b s (0 : Fin 1)) (ix2 b s)
    (fun a => match a with | ⟨0, _⟩ => rfl | ⟨1, _⟩ => rfl)).trans ?_
  exact shapeCast_ab1_ab_apply _ _ b s

/-- The same with the two results' contents named. -/
theorem feats_apply_of_eq (W : Valuation τ sig (Elt Ideal)) (A : FVec Ideal S4x10x32 .f32) (B : FVec Ideal S4x10x1 .f32)
    (hA : W (Proc.devRef .tc main_v0_0) = A) (hB : W (Proc.devRef .tc main_v0_1) = B) (b : Fin 4) (s : Fin 10) (c : Fin 32) :
    StableHlo.after headK W (Proc.devRef .tc main_v8) (ix3 b s c)
      = A (ix3 b s c) * Ideal.ofBits .f32 0x3F000000#32 + B (ix3 b s (0 : Fin 1)) * Ideal.ofBits .f32 0x3F000000#32 := by
  subst hA hB
  exact feats_apply W b s c

end Cert.KernelIdeal.PayIdeal

end
-- ==== Proof.Bridge.lean ====
/- Extended-real arithmetic joining two arrangements of the same finite sums: a channel mean as a product with the
   word of 1/32 against a quotient by the word of 32; a patch mean summed column by column over two half-ranges of
   rows against the sum over the product of rows and columns divided by the word of 25600; and the same two
   arrangements of a patch's sum of squares, the second indexed by the flat position k = 50 · row + column. The
   extended reals are an additive commutative monoid, so the regroupings need no finiteness hypothesis. -/
import Idealize.ShloMosaic.PureOps.Ideal
import Idealize.ShloMosaic.PureOps.Ideal.Laws

noncomputable section

open scoped BigOperators

namespace Cert.Bridge

open Idealize.ShloMosaic

/-- Column j of the s-th strip of 50 columns. -/
abbrev col (s : Fin 10) (j : Fin 50) : Fin 500 := ⟨50 * s.val + j.val, by have := s.isLt; have := j.isLt; omega⟩
/-- Row h of the first half. -/
abbrev lo (h : Fin 256) : Fin 512 := ⟨h.val, by have := h.isLt; omega⟩
/-- Row h of the second half. -/
abbrev hi (h : Fin 256) : Fin 512 := ⟨256 + h.val, by have := h.isLt; omega⟩

/-! ## The words as reals -/

/-- The word `0x46C80000` denotes the real 25600 (exponent 14, mantissa 1.5625). -/
theorem ofBits_25600 : Ideal.ofBits .f32 0x46C80000#32 = ((25600 : ℝ) : EReal) := by
  simp [Ideal.ofBits, Ideal.ieee, -EReal.coe_mul]; norm_num

/-- The word `0x42000000` denotes the real 32. -/
theorem ofBits_32 : Ideal.ofBits .f32 0x42000000#32 = ((32 : ℝ) : EReal) := by
  simp [Ideal.ofBits, Ideal.ieee, -EReal.coe_mul]; norm_num

/-- The word `0x3D000000` denotes the real 1/32. -/
theorem ofBits_inv32 : Ideal.ofBits .f32 0x3D000000#32 = ((1 / 32 : ℝ) : EReal) := by
  simp [Ideal.ofBits, Ideal.ieee, -EReal.coe_mul]; norm_num

/-! ## The channel mean -/

/-- The channel sum times the word of 1/32. -/
def grayK (x : Fin 32 → Fin 512 → Fin 500 → EReal) (h : Fin 512) (w : Fin 500) : EReal :=
  (∑ c : Fin 32, x c h w) * Ideal.ofBits .f32 0x3D000000#32

/-- The zero word plus the channel sum, divided by the word of 32. -/
def grayR (x : Fin 32 → Fin 512 → Fin 500 → EReal) (h : Fin 512) (w : Fin 500) : EReal :=
  Ideal.div (Ideal.ofBits .f32 0x00000000#32 + ∑ c : Fin 32, x c h w) (Ideal.ofBits .f32 0x42000000#32)

/-- Division by 32 is the product with 1/32 on every extended real, and the zero word adds nothing. -/
theorem gray_eq (x : Fin 32 → Fin 512 → Fin 500 → EReal) (h : Fin 512) (w : Fin 500) : grayK x h w = grayR x h w := by
  unfold grayK grayR
  rw [Ideal.ofBits_zero_f32, ofBits_32, ofBits_inv32, zero_add, Ideal.div_coe (by norm_num : (32 : ℝ) ≠ 0)]

/-! ## Sums over the two halves of the rows, and over the flat position -/

/-- The sum over the first 256 rows onto zero, plus the sum over the last 256, is the sum over all 512. -/
theorem sum_halves (f : Fin 512 → EReal) :
    (0 + ∑ h : Fin 256, f (lo h)) + ∑ h : Fin 256, f (hi h) = ∑ h : Fin 512, f h := by
  rw [zero_add]
  exact (Fin.sum_univ_add (M := EReal) (a := 256) (b := 256) f).symm

/-- Column by column over the two halves is the sum over rows × columns. -/
theorem sum_cols_halves (a : Fin 512 → Fin 50 → EReal) :
    ∑ j : Fin 50, ((0 + ∑ h : Fin 256, a (lo h) j) + ∑ h : Fin 256, a (hi h) j) = ∑ p : Fin 512 × Fin 50, a p.1 p.2 := by
  rw [Fintype.sum_prod_type, Finset.sum_comm]
  exact Finset.sum_congr rfl fun j _ => sum_halves fun h => a h j

/-- The sum over rows × columns is the sum over the flat position k, read at row k / 50 and column k % 50. -/
theorem sum_flat (a : Fin 512 → Fin 50 → EReal) :
    ∑ p : Fin 512 × Fin 50, a p.1 p.2 = ∑ k : Fin 25600, a ⟨k.val / 50, by omega⟩ ⟨k.val % 50, by omega⟩ :=
  (Equiv.sum_comp (finProdFinEquiv (m := 512) (n := 50)).symm fun p : Fin 512 × Fin 50 => a p.1 p.2).symm

/-! ## The two bridges -/

/-- Node means: each column summed over the first 256 rows onto zero, plus the sum over the last 256 rows, summed over
    the strip's 50 columns and multiplied by 1/25600, is the zero word plus the sum over 512 × 50 divided by the word
    of 25600. -/
theorem nodes_bridge (a : Fin 512 → Fin 50 → EReal) (inv : EReal) (hinv : inv = ((1 / 25600 : ℝ) : EReal)) :
    (∑ j : Fin 50, ((0 + ∑ h : Fin 256, a (lo h) j) + ∑ h : Fin 256, a (hi h) j)) * inv
      = Ideal.div (Ideal.ofBits .f32 0x00000000#32 + ∑ p : Fin 512 × Fin 50, a p.1 p.2) (Ideal.ofBits .f32 0x46C80000#32) := by
  rw [hinv, Ideal.ofBits_zero_f32, ofBits_25600, zero_add, Ideal.div_coe (by norm_num : (25600 : ℝ) ≠ 0), sum_cols_halves]

/-- Texture energies: the squares summed column by column over the two halves of the rows are the zero word plus the
    flat sum over k < 25600 of the squares at row k / 50 and column 50 s + k % 50. -/
theorem texture_bridge (g : Fin 512 → Fin 500 → EReal) (s : Fin 10) :
    (∑ j : Fin 50, ((0 + ∑ h : Fin 256, g (lo h) (col s j) * g (lo h) (col s j))
        + ∑ h : Fin 256, g (hi h) (col s j) * g (hi h) (col s j)))
      = Ideal.ofBits .f32 0x00000000#32
          + ∑ k : Fin 25600, g ⟨k.val / 50, by omega⟩ ⟨50 * s.val + k.val % 50, by omega⟩
              * g ⟨k.val / 50, by omega⟩ ⟨50 * s.val + k.val % 50, by omega⟩ := by
  rw [Ideal.ofBits_zero_f32, zero_add, sum_cols_halves fun h j => g h (col s j) * g h (col s j),
    sum_flat fun h j => g h (col s j) * g h (col s j)]

end Cert.Bridge

end
-- ==== Proof.KIFeats.lean ====
/-
  The kernel's two result arrays read at an index, at the ideal instance.

  At (b, s, ch) the node array is (Σ_j ((0 + Σ_{h<256} x[b,ch,h,50s+j]) + Σ_{h<256} x[b,ch,256+h,50s+j])) · inv, the two
  inner sums being the two tiles of row b and inv the named constant 1/25600; at (b, s, 0) the texture array is the
  same arrangement of g² with g[h,w] = (Σ_ch x[b,ch,h,w]) · (the word of 1/32). These are the left-hand sides of the
  two regrouping laws that join them to the reference's quotient and flat sum.
-/
import proofs.«168854_j60833916780679_2_alg».proof.Proof.KIResult
import proofs.«168854_j60833916780679_2_alg».proof.Proof.KIPayIdeal
import proofs.«168854_j60833916780679_2_alg».proof.Proof.Bridge

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Bridge (col lo hi grayK)

variable (m : (ℓ : Loc nD τ sig) → Buf (Elt Ideal) ℓ)

/-- Two indices with equal coordinates are equal. -/
theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl

/-- x as launched on core `c`. -/
abbrev xOf (c : Dev nD) : S4x32x512x500.Idx → EReal := m ((c : Thread nD τ).loc main_arg0)

/-- The input block of point `t`, as a vector of its literal shape. -/
abbrev inBlk (c : Dev nD) (t : Fin cfg0.N) : Vec Ideal S1x32x256x500 .f32 := iblk m c 0 t

/-- Row b's last tile holds rows 256 … 511 of x[b]; its first tile rows 0 … 255. -/
theorem iblk_last (c : Dev nD) (b : Fin 4) (ch : Fin 32) (h : Fin 256) (w : Fin 500) :
    inBlk m c (lastPt b.val b.isLt) (ix4 (0 : Fin 1) ch h w) = xOf m c (ix4 b ch (hi h) w) :=
  (iblk_apply m c (lastPt b.val b.isLt) ch h w).trans (congrArg _ (ix4_congr
    (by show (2 * b.val + 1) / 2 = b.val; omega) rfl (by show 256 * ((2 * b.val + 1) % 2) + h.val = 256 + h.val; omega) rfl))
theorem iblk_first (c : Dev nD) (b : Fin 4) (ch : Fin 32) (h : Fin 256) (w : Fin 500) :
    inBlk m c (prevPt (lastPt b.val b.isLt)) (ix4 (0 : Fin 1) ch h w) = xOf m c (ix4 b ch (lo h) w) :=
  (iblk_apply m c (prevPt (lastPt b.val b.isLt)) ch h w).trans (congrArg _ (ix4_congr
    (by show (2 * b.val + 1 - 1) / 2 = b.val; omega) rfl (by show 256 * ((2 * b.val + 1 - 1) % 2) + h.val = h.val; omega) rfl))

/-- The column sums after row b: zero, plus the first tile's, plus the last tile's. -/
theorem colSumAfter_apply (c : Dev nD) (b : Fin 4) (ch : Fin 32) (w : Fin 500) :
    colSumAfter m c (lastPt b.val b.isLt) (ix2 ch w)
      = (0 + ∑ h : Fin 256, xOf m c (ix4 b ch (lo h) w)) + ∑ h : Fin 256, xOf m c (ix4 b ch (hi h) w) := by
  show k0_pay4 (inBlk m c (lastPt b.val b.isLt)) (k0_pay4 (inBlk m c (prevPt (lastPt b.val b.isLt))) (k0_pay1 (F := Ideal))) (ix2 ch w) = _
  rw [PayIdeal.pay4_apply, PayIdeal.pay4_apply, PayIdeal.pay1_apply]
  simp only [iblk_last, iblk_first]

/-- The kernel's channel mean of x[b] at (h, w). -/
abbrev gOf (c : Dev nD) (b : Fin 4) (h : Fin 512) (w : Fin 500) : EReal :=
  grayK (fun ch h w => xOf m c (ix4 b ch h w)) h w

/-- The squared-mean sums after row b. -/
theorem sqSumAfter_apply (c : Dev nD) (b : Fin 4) (w : Fin 500) :
    sqSumAfter m c (lastPt b.val b.isLt) (ix2 (0 : Fin 1) w)
      = (0 + ∑ h : Fin 256, gOf m c b (lo h) w * gOf m c b (lo h) w) + ∑ h : Fin 256, gOf m c b (hi h) w * gOf m c b (hi h) w := by
  show k0_pay5 (inBlk m c (lastPt b.val b.isLt)) (k0_pay5 (inBlk m c (prevPt (lastPt b.val b.isLt))) (k0_pay2 (F := Ideal))) (ix2 (0 : Fin 1) w) = _
  rw [PayIdeal.pay5_apply, PayIdeal.pay5_apply, PayIdeal.pay2_apply]
  simp only [iblk_last, iblk_first]
  rfl

/-- The node array at (b, s, ch). -/
theorem nodesArr_apply (c : Dev nD) (b : Fin 4) (s : Fin 10) (ch : Fin 32) :
    nodesArr m c (ix3 b s ch)
      = (∑ j : Fin 50, ((0 + ∑ h : Fin 256, xOf m c (ix4 b ch (lo h) (col s j))) + ∑ h : Fin 256, xOf m c (ix4 b ch (hi h) (col s j))))
          * Named.named (F := Ideal) κ "inv_25600" (φ := .f32) 0x3823D70A#32 := by
  show k0_pay6 (colSumAfter m c (lastPt b.val b.isLt)) (ix3 (0 : Fin 1) s ch) = _
  refine (PayIdeal.pay6_apply _ s ch).trans ?_
  exact congrArg (· * _) (Finset.sum_congr rfl fun j _ => colSumAfter_apply m c b ch (col s j))

/-- The texture array at (b, s, 0). -/
theorem textureArr_apply (c : Dev nD) (b : Fin 4) (s : Fin 10) :
    textureArr m c (ix3 b s (0 : Fin 1))
      = ∑ j : Fin 50, ((0 + ∑ h : Fin 256, gOf m c b (lo h) (col s j) * gOf m c b (lo h) (col s j))
          + ∑ h : Fin 256, gOf m c b (hi h) (col s j) * gOf m c b (hi h) (col s j)) := by
  show k0_pay7 (sqSumAfter m c (lastPt b.val b.isLt)) (ix3 (0 : Fin 1) s (0 : Fin 1)) = _
  refine (PayIdeal.pay7_apply _ s).trans ?_
  exact Finset.sum_congr rfl fun j _ => sqSumAfter_apply m c b (col s j)

end Cert.KernelIdeal.Region

end
-- ==== Proof.RefRun.lean ====
/- The reference program's @main as a list of its host operations, in two pieces — the head, up to the feature
   tensor `%19`, and everything after it, each called function's operations standing at its call over that call's
   buffers —, the equation `main = seq ops` window by window, and the run read back (`run_seq`): every weakly fair
   execution terminates with each buffer at the fold of the operations over the launch contents; the argument is
   written by no operation and keeps its contents. -/
import proofs.«168854_j60833916780679_2_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The head of @main (operations 1 … 29 of 229): from the two constant tables through the sum `%19`. -/
abbrev opsHead : List (HloOp τ sig (Elt F)) :=
  [ StableHlo.nullary main_c (fun i => lit0 (S21x2.rowMajor i)),
    StableHlo.nullary main_cst (fun i => FloatOps.ofBits .f32 (lit1 (S10x10.rowMajor i))),
    StableHlo.reshape main_arg0 main_v0 rfl shapeCasts_S4x32x512x500_S4x32x512x10x50,
    StableHlo.nullary main_cst_0 (constant S_ .f32 0x00000000#32),
    StableHlo.binary main_v0 main_cst_0 main_v1 ((fun x v => Host.reduceAdd x v reducesTo_S4x32x512x10x50_S4x32x10_d2_4 h_S_) : (⟨S4x32x512x10x50, .f32⟩ : BufTy).Contents (Elt F) → (⟨S_, .f32⟩ : BufTy).Contents (Elt F) → (⟨S4x32x10, .f32⟩ : BufTy).Contents (Elt F)),
    StableHlo.nullary main_cst_1 (constant S_ .f32 0x46C80000#32),
    StableHlo.unary main_cst_1 main_v2 (broadcastInDim S4x32x10 ![] bcast_S_S4x32x10 : (⟨S_, .f32⟩ : BufTy).Contents (Elt F) → (⟨S4x32x10, .f32⟩ : BufTy).Contents (Elt F)),
    StableHlo.binary main_v1 main_v2 main_v3 (Host.divf : (⟨S4x32x10, .f32⟩ : BufTy).Contents (Elt F) → (⟨S4x32x10, .f32⟩ : BufTy).Contents (Elt F) → (⟨S4x32x10, .f32⟩ : BufTy).Contents (Elt F)),
    StableHlo.unary main_v3 main_v4 ((transpose S4x10x32 [0, 2, 1] · transposes_S4x32x10_S4x10x32_0_2_1) : (⟨S4x32x10, .f32⟩ : BufTy).Contents (Elt F) → (⟨S4x10x32, .f32⟩ : BufTy).Contents (Elt F)),
    StableHlo.nullary main_cst_2 (constant S_ .f32 0x00000000#32),
    StableHlo.binary main_arg0 main_cst_2 main_v5 ((fun x v => Host.reduceAdd x v reducesTo_S4x32x512x500_S4x512x500_d1 h_S_) : (⟨S4x32x512x500, .f32⟩ : BufTy).Contents (Elt F) → (⟨S_, .f32⟩ : BufTy).Contents (Elt F) → (⟨S4x512x500, .f32⟩ : BufTy).Contents (Elt F)),
    StableHlo.nullary main_cst_3 (constant S_ .f32 0x42000000#32),
    StableHlo.unary main_cst_3 main_v6 (broadcastInDim S4x512x500 ![] bcast_S_S4x512x500 : (⟨S_, .f32⟩ : BufTy).Contents (Elt F) → (⟨S4x512x500, .f32⟩ : BufTy).Contents (Elt F)),
    StableHlo.binary main_v5 main_v6 main_v7 (Host.divf : (⟨S4x512x500, .f32⟩ : BufTy).Contents (Elt F) → (⟨S4x512x500, .f32⟩ : BufTy).Contents (Elt F) → (⟨S4x512x500, .f32⟩ : BufTy).Contents (Elt F)),
    StableHlo.reshape main_v7 main_v8 rfl shapeCasts_S4x512x500_S4x512x10x50,
    StableHlo.unary main_v8 main_v9 ((transpose S4x10x512x50 [0, 2, 1, 3] · transposes_S4x512x10x50_S4x10x512x50_0_2_1_3) : (⟨S4x512x10x50, .f32⟩ : BufTy).Contents (Elt F) → (⟨S4x10x512x50, .f32⟩ : BufTy).Contents (Elt F)),
    StableHlo.reshape main_v9 main_v10 rfl shapeCasts_S4x10x512x50_S4x10x25600,
    StableHlo.binary main_v10 main_v10 main_v11 (mulf : (⟨S4x10x25600, .f32⟩ : BufTy).Contents (Elt F) → (⟨S4x10x25600, .f32⟩ : BufTy).Contents (Elt F) → (⟨S4x10x25600, .f32⟩ : BufTy).Contents (Elt F)),
    StableHlo.nullary main_cst_4 (constant S_ .f32 0x00000000#32),
    StableHlo.binary main_v11 main_cst_4 main_v12 ((fun x v => Host.reduceAdd x v reducesTo_S4x10x25600_S4x10_d2 h_S_) : (⟨S4x10x25600, .f32⟩ : BufTy).Contents (Elt F) → (⟨S_, .f32⟩ : BufTy).Contents (Elt F) → (⟨S4x10, .f32⟩ : BufTy).Contents (Elt F)),
    StableHlo.nullary main_cst_5 (constant S_ .f32 0x3F000000#32),
    StableHlo.unary main_cst_5 main_v13 (broadcastInDim S4x10x32 ![] bcast_S_S4x10x32 : (⟨S_, .f32⟩ : BufTy).Contents (Elt F) → (⟨S4x10x32, .f32⟩ : BufTy).Contents (Elt F)),
    StableHlo.binary main_v4 main_v13 main_v14 (mulf : (⟨S4x10x32, .f32⟩ : BufTy).Contents (Elt F) → (⟨S4x10x32, .f32⟩ : BufTy).Contents (Elt F) → (⟨S4x10x32, .f32⟩ : BufTy).Contents (Elt F)),
    StableHlo.unary main_v12 main_v15 (broadcastInDim S4x10x1 ![0, 1] bcast_S4x10_S4x10x1_0_1 : (⟨S4x10, .f32⟩ : BufTy).Contents (Elt F) → (⟨S4x10x1, .f32⟩ : BufTy).Contents (Elt F)),
    StableHlo.nullary main_cst_6 (constant S_ .f32 0x3F000000#32),
    StableHlo.unary main_cst_6 main_v16 (broadcastInDim S4x10x1 ![] bcast_S_S4x10x1 : (⟨S_, .f32⟩ : BufTy).Contents (Elt F) → (⟨S4x10x1, .f32⟩ : BufTy).Contents (Elt F)),
    StableHlo.binary main_v15 main_v16 main_v17 (mulf : (⟨S4x10x1, .f32⟩ : BufTy).Contents (Elt F) → (⟨S4x10x1, .f32⟩ : BufTy).Contents (Elt F) → (⟨S4x10x1, .f32⟩ : BufTy).Contents (Elt F)),
    StableHlo.unary main_v17 main_v18 (broadcastInDim S4x10x32 ![0, 1, 2] bcast_S4x10x1_S4x10x32_0_1_2 : (⟨S4x10x1, .f32⟩ : BufTy).Contents (Elt F) → (⟨S4x10x32, .f32⟩ : BufTy).Contents (Elt F)),
    StableHlo.binary main_v14 main_v18 main_v19 (addf : (⟨S4x10x32, .f32⟩ : BufTy).Contents (Elt F) → (⟨S4x10x32, .f32⟩ : BufTy).Contents (Elt F) → (⟨S4x10x32, .f32⟩ : BufTy).Contents (Elt F)) ]

/-- The operations after `%19` that @main's first window still holds (operations 30 … 92 of 229), each called function's operations standing at its call over that call's buffers. -/
abbrev opsT0 : List (HloOp τ sig (Elt F)) :=
  [ StableHlo.nullary main_v20 (iotaInDim S10 32 0),
    StableHlo.nullary main_c_7 (constantI S_ 32 2#32),
    StableHlo.TRef.unary (.of main_c_7 : StableHlo.TRef sig ⟨S_, .i32⟩) main_call0.v0 id,
    StableHlo.TRef.unary main_call0.v0 main_call0.v1 (broadcastInDim S10 ![] bcast_S_S10),
    StableHlo.TRef.binary (.of main_v20 : StableHlo.TRef sig ⟨S10, .i32⟩) main_call0.v1 main_call0.v2 Host.divsi,
    StableHlo.TRef.unary (.of main_v20 : StableHlo.TRef sig ⟨S10, .i32⟩) main_call0.v3 signi,
    StableHlo.TRef.unary main_call0.v0 main_call0.v4 signi,
    StableHlo.TRef.unary main_call0.v4 main_call0.v5 (broadcastInDim S10 ![] bcast_S_S10),
    StableHlo.TRef.binary main_call0.v3 main_call0.v5 main_call0.v6 (cmpi .ne),
    StableHlo.TRef.unary main_call0.v0 main_call0.v7 (broadcastInDim S10 ![] bcast_S_S10),
    StableHlo.TRef.binary (.of main_v20 : StableHlo.TRef sig ⟨S10, .i32⟩) main_call0.v7 main_call0.v8 Host.remsi,
    StableHlo.TRef.nullary main_call0.c (constantI S_ 32 0#32),
    StableHlo.TRef.unary main_call0.c main_call0.v9 (broadcastInDim S10 ![] bcast_S_S10),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S10 ![] bcast_S_S10),
    StableHlo.TRef.binary main_call0.v2 main_call0.v12 main_call0.v13 subi,
    StableHlo.TRef.ternary main_call0.v11 main_call0.v13 main_call0.v2 main_call0.call0.v0 select,
    StableHlo.unary main_v19 main_v22 ((transpose S10x4x32 [1, 0, 2] · transposes_S4x10x32_S10x4x32_1_0_2) : (⟨S4x10x32, .f32⟩ : BufTy).Contents (Elt F) → (⟨S10x4x32, .f32⟩ : BufTy).Contents (Elt F)),
    StableHlo.nullary main_cst_8 (constant S_ .f32 0x00000000#32),
    StableHlo.unary main_cst_8 main_v23 (broadcastInDim S5x4x32 ![] bcast_S_S5x4x32 : (⟨S_, .f32⟩ : BufTy).Contents (Elt F) → (⟨S5x4x32, .f32⟩ : BufTy).Contents (Elt F)),
    StableHlo.unary main_v21 main_v24 (broadcastInDim S10x1 ![0] bcast_S10_S10x1_0 : (⟨S10, .i32⟩ : BufTy).Contents (Elt F) → (⟨S10x1, .i32⟩ : BufTy).Contents (Elt F)),
    StableHlo.ternary main_v23 main_v24 main_v22 main_v25 ((fun x i u => Host.scatterAdd scatter_S5x4x32_S10x1_S10x4x32_12_0_0_1 x i u) : (⟨S5x4x32, .f32⟩ : BufTy).Contents (Elt F) → (⟨S10x1, .i32⟩ : BufTy).Contents (Elt F) → (⟨S10x4x32, .f32⟩ : BufTy).Contents (Elt F) → (⟨S5x4x32, .f32⟩ : BufTy).Contents (Elt F)),
    StableHlo.nullary main_cst_9 (constant S_ .f32 0x3F800000#32),
    StableHlo.unary main_cst_9 main_v26 (broadcastInDim S10 ![] bcast_S_S10 : (⟨S_, .f32⟩ : BufTy).Contents (Elt F) → (⟨S10, .f32⟩ : BufTy).Contents (Elt F)),
    StableHlo.nullary main_cst_10 (constant S_ .f32 0x00000000#32),
    StableHlo.unary main_cst_10 main_v27 (broadcastInDim S5 ![] bcast_S_S5 : (⟨S_, .f32⟩ : BufTy).Contents (Elt F) → (⟨S5, .f32⟩ : BufTy).Contents (Elt F)),
    StableHlo.unary main_v21 main_v28 (broadcastInDim S10x1 ![0] bcast_S10_S10x1_0 : (⟨S10, .i32⟩ : BufTy).Contents (Elt F) → (⟨S10x1, .i32⟩ : BufTy).Contents (Elt F)),
    StableHlo.ternary main_v27 main_v28 main_v26 main_v29 ((fun x i u => Host.scatterAdd scatter_S5_S10x1_S10_n_0_0_1 x i u) : (⟨S5, .f32⟩ : BufTy).Contents (Elt F) → (⟨S10x1, .i32⟩ : BufTy).Contents (Elt F) → (⟨S10, .f32⟩ : BufTy).Contents (Elt F) → (⟨S5, .f32⟩ : BufTy).Contents (Elt F)),
    StableHlo.unary main_v29 main_v30 (broadcastInDim S5x1x1 ![0] bcast_S5_S5x1x1_0 : (⟨S5, .f32⟩ : BufTy).Contents (Elt F) → (⟨S5x1x1, .f32⟩ : BufTy).Contents (Elt F)),
    StableHlo.unary main_v30 main_v31 (broadcastInDim S5x4x32 ![0, 1, 2] bcast_S5x1x1_S5x4x32_0_1_2 : (⟨S5x1x1, .f32⟩ : BufTy).Contents (Elt F) → (⟨S5x4x32, .f32⟩ : BufTy).Contents (Elt F)),
    StableHlo.binary main_v25 main_v31 main_v32 (Host.divf : (⟨S5x4x32, .f32⟩ : BufTy).Contents (Elt F) → (⟨S5x4x32, .f32⟩ : BufTy).Contents (Elt F) → (⟨S5x4x32, .f32⟩ : BufTy).Contents (Elt F)),
    StableHlo.unary main_v32 main_v33 ((transpose S4x5x32 [1, 0, 2] · transposes_S5x4x32_S4x5x32_1_0_2) : (⟨S5x4x32, .f32⟩ : BufTy).Contents (Elt F) → (⟨S4x5x32, .f32⟩ : BufTy).Contents (Elt F)),
    StableHlo.binary main_v33 main_v33 main_v34 (mulf : (⟨S4x5x32, .f32⟩ : BufTy).Contents (Elt F) → (⟨S4x5x32, .f32⟩ : BufTy).Contents (Elt F) → (⟨S4x5x32, .f32⟩ : BufTy).Contents (Elt F)),
    StableHlo.nullary main_cst_11 (constant S_ .f32 0x00000000#32),
    StableHlo.binary main_v34 main_cst_11 main_v35 ((fun x v => Host.reduceAdd x v reducesTo_S4x5x32_S_d0_1_2 h_S_) : (⟨S4x5x32, .f32⟩ : BufTy).Contents (Elt F) → (⟨S_, .f32⟩ : BufTy).Contents (Elt F) → (⟨S_, .f32⟩ : BufTy).Contents (Elt F)),
    StableHlo.nullary main_cst_12 (constant S_ .f32 0x44200000#32),
    StableHlo.binary main_v35 main_cst_12 main_v36 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x00000000#32),
    StableHlo.binary main_cst_13 main_v36 main_v37 (addf : (⟨S_, .f32⟩ : BufTy).Contents (Elt F) → (⟨S_, .f32⟩ : BufTy).Contents (Elt F) → (⟨S_, .f32⟩ : BufTy).Contents (Elt F)),
    StableHlo.nullary main_v38 (iotaInDim S5 32 0),
    StableHlo.nullary main_c_14 (constantI S_ 32 2#32),
    StableHlo.TRef.unary (.of main_c_14 : StableHlo.TRef sig ⟨S_, .i32⟩) main_call1.v0 id,
    StableHlo.TRef.unary main_call1.v0 main_call1.v1 (broadcastInDim S5 ![] bcast_S_S5),
    StableHlo.TRef.binary (.of main_v38 : StableHlo.TRef sig ⟨S5, .i32⟩) main_call1.v1 main_call1.v2 Host.divsi,
    StableHlo.TRef.unary (.of main_v38 : StableHlo.TRef sig ⟨S5, .i32⟩) main_call1.v3 signi,
    StableHlo.TRef.unary main_call1.v0 main_call1.v4 signi,
    StableHlo.TRef.unary main_call1.v4 main_call1.v5 (broadcastInDim S5 ![] bcast_S_S5),
    StableHlo.TRef.binary main_call1.v3 main_call1.v5 main_call1.v6 (cmpi .ne),
    StableHlo.TRef.unary main_call1.v0 main_call1.v7 (broadcastInDim S5 ![] bcast_S_S5),
    StableHlo.TRef.binary (.of main_v38 : StableHlo.TRef sig ⟨S5, .i32⟩) main_call1.v7 main_call1.v8 Host.remsi,
    StableHlo.TRef.nullary main_call1.c (constantI S_ 32 0#32),
    StableHlo.TRef.unary main_call1.c main_call1.v9 (broadcastInDim S5 ![] bcast_S_S5),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S5 ![] bcast_S_S5),
    StableHlo.TRef.binary main_call1.v2 main_call1.v12 main_call1.v13 subi,
    StableHlo.TRef.ternary main_call1.v11 main_call1.v13 main_call1.v2 main_call1.call0.v0 select,
    StableHlo.unary main_v33 main_v40 ((transpose S5x4x32 [1, 0, 2] · transposes_S4x5x32_S5x4x32_1_0_2) : (⟨S4x5x32, .f32⟩ : BufTy).Contents (Elt F) → (⟨S5x4x32, .f32⟩ : BufTy).Contents (Elt F)),
    StableHlo.nullary main_cst_15 (constant S_ .f32 0x00000000#32),
    StableHlo.unary main_cst_15 main_v41 (broadcastInDim S3x4x32 ![] bcast_S_S3x4x32 : (⟨S_, .f32⟩ : BufTy).Contents (Elt F) → (⟨S3x4x32, .f32⟩ : BufTy).Contents (Elt F)) ]

/-- The operations of @main's second window (operations 93 … 184 of 229), called functions inlined likewise. -/
abbrev opsT1 : List (HloOp τ sig (Elt F)) :=
  [ StableHlo.unary main_v39 main_v42 (broadcastInDim S5x1 ![0] bcast_S5_S5x1_0 : (⟨S5, .i32⟩ : BufTy).Contents (Elt F) → (⟨S5x1, .i32⟩ : BufTy).Contents (Elt F)),
    StableHlo.ternary main_v41 main_v42 main_v40 main_v43 ((fun x i u => Host.scatterAdd scatter_S3x4x32_S5x1_S5x4x32_12_0_0_1 x i u) : (⟨S3x4x32, .f32⟩ : BufTy).Contents (Elt F) → (⟨S5x1, .i32⟩ : BufTy).Contents (Elt F) → (⟨S5x4x32, .f32⟩ : BufTy).Contents (Elt F) → (⟨S3x4x32, .f32⟩ : BufTy).Contents (Elt F)),
    StableHlo.nullary main_cst_16 (constant S_ .f32 0x3F800000#32),
    StableHlo.unary main_cst_16 main_v44 (broadcastInDim S5 ![] bcast_S_S5 : (⟨S_, .f32⟩ : BufTy).Contents (Elt F) → (⟨S5, .f32⟩ : BufTy).Contents (Elt F)),
    StableHlo.nullary main_cst_17 (constant S_ .f32 0x00000000#32),
    StableHlo.unary main_cst_17 main_v45 (broadcastInDim S3 ![] bcast_S_S3 : (⟨S_, .f32⟩ : BufTy).Contents (Elt F) → (⟨S3, .f32⟩ : BufTy).Contents (Elt F)),
    StableHlo.unary main_v39 main_v46 (broadcastInDim S5x1 ![0] bcast_S5_S5x1_0 : (⟨S5, .i32⟩ : BufTy).Contents (Elt F) → (⟨S5x1, .i32⟩ : BufTy).Contents (Elt F)),
    StableHlo.ternary main_v45 main_v46 main_v44 main_v47 ((fun x i u => Host.scatterAdd scatter_S3_S5x1_S5_n_0_0_1 x i u) : (⟨S3, .f32⟩ : BufTy).Contents (Elt F) → (⟨S5x1, .i32⟩ : BufTy).Contents (Elt F) → (⟨S5, .f32⟩ : BufTy).Contents (Elt F) → (⟨S3, .f32⟩ : BufTy).Contents (Elt F)),
    StableHlo.unary main_v47 main_v48 (broadcastInDim S3x1x1 ![0] bcast_S3_S3x1x1_0 : (⟨S3, .f32⟩ : BufTy).Contents (Elt F) → (⟨S3x1x1, .f32⟩ : BufTy).Contents (Elt F)),
    StableHlo.unary main_v48 main_v49 (broadcastInDim S3x4x32 ![0, 1, 2] bcast_S3x1x1_S3x4x32_0_1_2 : (⟨S3x1x1, .f32⟩ : BufTy).Contents (Elt F) → (⟨S3x4x32, .f32⟩ : BufTy).Contents (Elt F)),
    StableHlo.binary main_v43 main_v49 main_v50 (Host.divf : (⟨S3x4x32, .f32⟩ : BufTy).Contents (Elt F) → (⟨S3x4x32, .f32⟩ : BufTy).Contents (Elt F) → (⟨S3x4x32, .f32⟩ : BufTy).Contents (Elt F)),
    StableHlo.unary main_v50 main_v51 ((transpose S4x3x32 [1, 0, 2] · transposes_S3x4x32_S4x3x32_1_0_2) : (⟨S3x4x32, .f32⟩ : BufTy).Contents (Elt F) → (⟨S4x3x32, .f32⟩ : BufTy).Contents (Elt F)),
    StableHlo.binary main_v51 main_v51 main_v52 (mulf : (⟨S4x3x32, .f32⟩ : BufTy).Contents (Elt F) → (⟨S4x3x32, .f32⟩ : BufTy).Contents (Elt F) → (⟨S4x3x32, .f32⟩ : BufTy).Contents (Elt F)),
    StableHlo.nullary main_cst_18 (constant S_ .f32 0x00000000#32),
    StableHlo.binary main_v52 main_cst_18 main_v53 ((fun x v => Host.reduceAdd x v reducesTo_S4x3x32_S_d0_1_2 h_S_) : (⟨S4x3x32, .f32⟩ : BufTy).Contents (Elt F) → (⟨S_, .f32⟩ : BufTy).Contents (Elt F) → (⟨S_, .f32⟩ : BufTy).Contents (Elt F)),
    StableHlo.nullary main_cst_19 (constant S_ .f32 0x43C00000#32),
    StableHlo.binary main_v53 main_cst_19 main_v54 (Host.divf : (⟨S_, .f32⟩ : BufTy).Contents (Elt F) → (⟨S_, .f32⟩ : BufTy).Contents (Elt F) → (⟨S_, .f32⟩ : BufTy).Contents (Elt F)),
    StableHlo.binary main_v37 main_v54 main_v55 (addf : (⟨S_, .f32⟩ : BufTy).Contents (Elt F) → (⟨S_, .f32⟩ : BufTy).Contents (Elt F) → (⟨S_, .f32⟩ : BufTy).Contents (Elt F)),
    StableHlo.nullary main_v56 (iotaInDim S3 32 0),
    StableHlo.nullary main_c_20 (constantI S_ 32 2#32),
    StableHlo.TRef.unary (.of main_c_20 : StableHlo.TRef sig ⟨S_, .i32⟩) main_call2.v0 id,
    StableHlo.TRef.unary main_call2.v0 main_call2.v1 (broadcastInDim S3 ![] bcast_S_S3),
    StableHlo.TRef.binary (.of main_v56 : StableHlo.TRef sig ⟨S3, .i32⟩) main_call2.v1 main_call2.v2 Host.divsi,
    StableHlo.TRef.unary (.of main_v56 : StableHlo.TRef sig ⟨S3, .i32⟩) main_call2.v3 signi,
    StableHlo.TRef.unary main_call2.v0 main_call2.v4 signi,
    StableHlo.TRef.unary main_call2.v4 main_call2.v5 (broadcastInDim S3 ![] bcast_S_S3),
    StableHlo.TRef.binary main_call2.v3 main_call2.v5 main_call2.v6 (cmpi .ne),
    StableHlo.TRef.unary main_call2.v0 main_call2.v7 (broadcastInDim S3 ![] bcast_S_S3),
    StableHlo.TRef.binary (.of main_v56 : StableHlo.TRef sig ⟨S3, .i32⟩) main_call2.v7 main_call2.v8 Host.remsi,
    StableHlo.TRef.nullary main_call2.c (constantI S_ 32 0#32),
    StableHlo.TRef.unary main_call2.c main_call2.v9 (broadcastInDim S3 ![] bcast_S_S3),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S3 ![] bcast_S_S3),
    StableHlo.TRef.binary main_call2.v2 main_call2.v12 main_call2.v13 subi,
    StableHlo.TRef.ternary main_call2.v11 main_call2.v13 main_call2.v2 main_call2.call0.v0 select,
    StableHlo.unary main_v51 main_v58 ((transpose S3x4x32 [1, 0, 2] · transposes_S4x3x32_S3x4x32_1_0_2) : (⟨S4x3x32, .f32⟩ : BufTy).Contents (Elt F) → (⟨S3x4x32, .f32⟩ : BufTy).Contents (Elt F)),
    StableHlo.nullary main_cst_21 (constant S_ .f32 0x00000000#32),
    StableHlo.unary main_cst_21 main_v59 (broadcastInDim S2x4x32 ![] bcast_S_S2x4x32 : (⟨S_, .f32⟩ : BufTy).Contents (Elt F) → (⟨S2x4x32, .f32⟩ : BufTy).Contents (Elt F)),
    StableHlo.unary main_v57 main_v60 (broadcastInDim S3x1 ![0] bcast_S3_S3x1_0 : (⟨S3, .i32⟩ : BufTy).Contents (Elt F) → (⟨S3x1, .i32⟩ : BufTy).Contents (Elt F)),
    StableHlo.ternary main_v59 main_v60 main_v58 main_v61 ((fun x i u => Host.scatterAdd scatter_S2x4x32_S3x1_S3x4x32_12_0_0_1 x i u) : (⟨S2x4x32, .f32⟩ : BufTy).Contents (Elt F) → (⟨S3x1, .i32⟩ : BufTy).Contents (Elt F) → (⟨S3x4x32, .f32⟩ : BufTy).Contents (Elt F) → (⟨S2x4x32, .f32⟩ : BufTy).Contents (Elt F)),
    StableHlo.nullary main_cst_22 (constant S_ .f32 0x3F800000#32),
    StableHlo.unary main_cst_22 main_v62 (broadcastInDim S3 ![] bcast_S_S3 : (⟨S_, .f32⟩ : BufTy).Contents (Elt F) → (⟨S3, .f32⟩ : BufTy).Contents (Elt F)),
    StableHlo.nullary main_cst_23 (constant S_ .f32 0x00000000#32),
    StableHlo.unary main_cst_23 main_v63 (broadcastInDim S2 ![] bcast_S_S2 : (⟨S_, .f32⟩ : BufTy).Contents (Elt F) → (⟨S2, .f32⟩ : BufTy).Contents (Elt F)),
    StableHlo.unary main_v57 main_v64 (broadcastInDim S3x1 ![0] bcast_S3_S3x1_0 : (⟨S3, .i32⟩ : BufTy).Contents (Elt F) → (⟨S3x1, .i32⟩ : BufTy).Contents (Elt F)),
    StableHlo.ternary main_v63 main_v64 main_v62 main_v65 ((fun x i u => Host.scatterAdd scatter_S2_S3x1_S3_n_0_0_1 x i u) : (⟨S2, .f32⟩ : BufTy).Contents (Elt F) → (⟨S3x1, .i32⟩ : BufTy).Contents (Elt F) → (⟨S3, .f32⟩ : BufTy).Contents (Elt F) → (⟨S2, .f32⟩ : BufTy).Contents (Elt F)),
    StableHlo.unary main_v65 main_v66 (broadcastInDim S2x1x1 ![0] bcast_S2_S2x1x1_0 : (⟨S2, .f32⟩ : BufTy).Contents (Elt F) → (⟨S2x1x1, .f32⟩ : BufTy).Contents (Elt F)),
    StableHlo.unary main_v66 main_v67 (broadcastInDim S2x4x32 ![0, 1, 2] bcast_S2x1x1_S2x4x32_0_1_2 : (⟨S2x1x1, .f32⟩ : BufTy).Contents (Elt F) → (⟨S2x4x32, .f32⟩ : BufTy).Contents (Elt F)),
    StableHlo.binary main_v61 main_v67 main_v68 (Host.divf : (⟨S2x4x32, .f32⟩ : BufTy).Contents (Elt F) → (⟨S2x4x32, .f32⟩ : BufTy).Contents (Elt F) → (⟨S2x4x32, .f32⟩ : BufTy).Contents (Elt F)),
    StableHlo.unary main_v68 main_v69 ((transpose S4x2x32 [1, 0, 2] · transposes_S2x4x32_S4x2x32_1_0_2) : (⟨S2x4x32, .f32⟩ : BufTy).Contents (Elt F) → (⟨S4x2x32, .f32⟩ : BufTy).Contents (Elt F)),
    StableHlo.binary main_v69 main_v69 main_v70 (mulf : (⟨S4x2x32, .f32⟩ : BufTy).Contents (Elt F) → (⟨S4x2x32, .f32⟩ : BufTy).Contents (Elt F) → (⟨S4x2x32, .f32⟩ : BufTy).Contents (Elt F)),
    StableHlo.nullary main_cst_24 (constant S_ .f32 0x00000000#32),
    StableHlo.binary main_v70 main_cst_24 main_v71 ((fun x v => Host.reduceAdd x v reducesTo_S4x2x32_S_d0_1_2 h_S_) : (⟨S4x2x32, .f32⟩ : BufTy).Contents (Elt F) → (⟨S_, .f32⟩ : BufTy).Contents (Elt F) → (⟨S_, .f32⟩ : BufTy).Contents (Elt F)),
    StableHlo.nullary main_cst_25 (constant S_ .f32 0x43800000#32),
    StableHlo.binary main_v71 main_cst_25 main_v72 (Host.divf : (⟨S_, .f32⟩ : BufTy).Contents (Elt F) → (⟨S_, .f32⟩ : BufTy).Contents (Elt F) → (⟨S_, .f32⟩ : BufTy).Contents (Elt F)),
    StableHlo.binary main_v55 main_v72 main_v73 (addf : (⟨S_, .f32⟩ : BufTy).Contents (Elt F) → (⟨S_, .f32⟩ : BufTy).Contents (Elt F) → (⟨S_, .f32⟩ : BufTy).Contents (Elt F)),
    StableHlo.nullary main_v74 (iotaInDim S2 32 0),
    StableHlo.nullary main_c_26 (constantI S_ 32 2#32),
    StableHlo.TRef.unary (.of main_c_26 : StableHlo.TRef sig ⟨S_, .i32⟩) main_call3.v0 id,
    StableHlo.TRef.unary main_call3.v0 main_call3.v1 (broadcastInDim S2 ![] bcast_S_S2),
    StableHlo.TRef.binary (.of main_v74 : StableHlo.TRef sig ⟨S2, .i32⟩) main_call3.v1 main_call3.v2 Host.divsi,
    StableHlo.TRef.unary (.of main_v74 : StableHlo.TRef sig ⟨S2, .i32⟩) main_call3.v3 signi,
    StableHlo.TRef.unary main_call3.v0 main_call3.v4 signi,
    StableHlo.TRef.unary main_call3.v4 main_call3.v5 (broadcastInDim S2 ![] bcast_S_S2),
    StableHlo.TRef.binary main_call3.v3 main_call3.v5 main_call3.v6 (cmpi .ne),
    StableHlo.TRef.unary main_call3.v0 main_call3.v7 (broadcastInDim S2 ![] bcast_S_S2),
    StableHlo.TRef.binary (.of main_v74 : StableHlo.TRef sig ⟨S2, .i32⟩) main_call3.v7 main_call3.v8 Host.remsi,
    StableHlo.TRef.nullary main_call3.c (constantI S_ 32 0#32),
    StableHlo.TRef.unary main_call3.c main_call3.v9 (broadcastInDim S2 ![] bcast_S_S2),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S2 ![] bcast_S_S2),
    StableHlo.TRef.binary main_call3.v2 main_call3.v12 main_call3.v13 subi,
    StableHlo.TRef.ternary main_call3.v11 main_call3.v13 main_call3.v2 main_call3.call0.v0 select,
    StableHlo.unary main_v69 main_v76 ((transpose S2x4x32 [1, 0, 2] · transposes_S4x2x32_S2x4x32_1_0_2) : (⟨S4x2x32, .f32⟩ : BufTy).Contents (Elt F) → (⟨S2x4x32, .f32⟩ : BufTy).Contents (Elt F)),
    StableHlo.nullary main_cst_27 (constant S_ .f32 0x00000000#32),
    StableHlo.unary main_cst_27 main_v77 (broadcastInDim S1x4x32 ![] bcast_S_S1x4x32 : (⟨S_, .f32⟩ : BufTy).Contents (Elt F) → (⟨S1x4x32, .f32⟩ : BufTy).Contents (Elt F)),
    StableHlo.unary main_v75 main_v78 (broadcastInDim S2x1 ![0] bcast_S2_S2x1_0 : (⟨S2, .i32⟩ : BufTy).Contents (Elt F) → (⟨S2x1, .i32⟩ : BufTy).Contents (Elt F)),
    StableHlo.ternary main_v77 main_v78 main_v76 main_v79 ((fun x i u => Host.scatterAdd scatter_S1x4x32_S2x1_S2x4x32_12_0_0_1 x i u) : (⟨S1x4x32, .f32⟩ : BufTy).Contents (Elt F) → (⟨S2x1, .i32⟩ : BufTy).Contents (Elt F) → (⟨S2x4x32, .f32⟩ : BufTy).Contents (Elt F) → (⟨S1x4x32, .f32⟩ : BufTy).Contents (Elt F)),
    StableHlo.nullary main_cst_28 (constant S_ .f32 0x3F800000#32),
    StableHlo.unary main_cst_28 main_v80 (broadcastInDim S2 ![] bcast_S_S2 : (⟨S_, .f32⟩ : BufTy).Contents (Elt F) → (⟨S2, .f32⟩ : BufTy).Contents (Elt F)),
    StableHlo.nullary main_cst_29 (constant S_ .f32 0x00000000#32),
    StableHlo.unary main_cst_29 main_v81 (broadcastInDim S1 ![] bcast_S_S1 : (⟨S_, .f32⟩ : BufTy).Contents (Elt F) → (⟨S1, .f32⟩ : BufTy).Contents (Elt F)),
    StableHlo.unary main_v75 main_v82 (broadcastInDim S2x1 ![0] bcast_S2_S2x1_0 : (⟨S2, .i32⟩ : BufTy).Contents (Elt F) → (⟨S2x1, .i32⟩ : BufTy).Contents (Elt F)),
    StableHlo.ternary main_v81 main_v82 main_v80 main_v83 ((fun x i u => Host.scatterAdd scatter_S1_S2x1_S2_n_0_0_1 x i u) : (⟨S1, .f32⟩ : BufTy).Contents (Elt F) → (⟨S2x1, .i32⟩ : BufTy).Contents (Elt F) → (⟨S2, .f32⟩ : BufTy).Contents (Elt F) → (⟨S1, .f32⟩ : BufTy).Contents (Elt F)),
    StableHlo.unary main_v83 main_v84 (broadcastInDim S1x1x1 ![0] bcast_S1_S1x1x1_0 : (⟨S1, .f32⟩ : BufTy).Contents (Elt F) → (⟨S1x1x1, .f32⟩ : BufTy).Contents (Elt F)),
    StableHlo.unary main_v84 main_v85 (broadcastInDim S1x4x32 ![0, 1, 2] bcast_S1x1x1_S1x4x32_0_1_2 : (⟨S1x1x1, .f32⟩ : BufTy).Contents (Elt F) → (⟨S1x4x32, .f32⟩ : BufTy).Contents (Elt F)),
    StableHlo.binary main_v79 main_v85 main_v86 (Host.divf : (⟨S1x4x32, .f32⟩ : BufTy).Contents (Elt F) → (⟨S1x4x32, .f32⟩ : BufTy).Contents (Elt F) → (⟨S1x4x32, .f32⟩ : BufTy).Contents (Elt F)),
    StableHlo.unary main_v86 main_v87 ((transpose S4x1x32 [1, 0, 2] · transposes_S1x4x32_S4x1x32_1_0_2) : (⟨S1x4x32, .f32⟩ : BufTy).Contents (Elt F) → (⟨S4x1x32, .f32⟩ : BufTy).Contents (Elt F)) ]

/-- The operations of @main's third window (operations 185 … 229 of 229), ending in the one that writes `%122`. -/
abbrev opsT2 : List (HloOp τ sig (Elt F)) :=
  [ StableHlo.binary main_v87 main_v87 main_v88 (mulf : (⟨S4x1x32, .f32⟩ : BufTy).Contents (Elt F) → (⟨S4x1x32, .f32⟩ : BufTy).Contents (Elt F) → (⟨S4x1x32, .f32⟩ : BufTy).Contents (Elt F)),
    StableHlo.nullary main_cst_30 (constant S_ .f32 0x00000000#32),
    StableHlo.binary main_v88 main_cst_30 main_v89 ((fun x v => Host.reduceAdd x v reducesTo_S4x1x32_S_d0_1_2 h_S_) : (⟨S4x1x32, .f32⟩ : BufTy).Contents (Elt F) → (⟨S_, .f32⟩ : BufTy).Contents (Elt F) → (⟨S_, .f32⟩ : BufTy).Contents (Elt F)),
    StableHlo.nullary main_cst_31 (constant S_ .f32 0x43000000#32),
    StableHlo.binary main_v89 main_cst_31 main_v90 (Host.divf : (⟨S_, .f32⟩ : BufTy).Contents (Elt F) → (⟨S_, .f32⟩ : BufTy).Contents (Elt F) → (⟨S_, .f32⟩ : BufTy).Contents (Elt F)),
    StableHlo.binary main_v73 main_v90 main_v91 (addf : (⟨S_, .f32⟩ : BufTy).Contents (Elt F) → (⟨S_, .f32⟩ : BufTy).Contents (Elt F) → (⟨S_, .f32⟩ : BufTy).Contents (Elt F)),
    StableHlo.unary main_c main_v92 (broadcastInDim S1x21x2 ![1, 2] bcast_S21x2_S1x21x2_1_2 : (⟨S21x2, .i32⟩ : BufTy).Contents (Elt F) → (⟨S1x21x2, .i32⟩ : BufTy).Contents (Elt F)),
    StableHlo.unary main_v92 main_v93 (broadcastInDim S4x21x2 ![0, 1, 2] bcast_S1x21x2_S4x21x2_0_1_2 : (⟨S1x21x2, .i32⟩ : BufTy).Contents (Elt F) → (⟨S4x21x2, .i32⟩ : BufTy).Contents (Elt F)),
    StableHlo.unary main_v19 main_v94 (broadcastInDim S4x10x1x32 ![0, 1, 3] bcast_S4x10x32_S4x10x1x32_0_1_3 : (⟨S4x10x32, .f32⟩ : BufTy).Contents (Elt F) → (⟨S4x10x1x32, .f32⟩ : BufTy).Contents (Elt F)),
    StableHlo.unary main_v19 main_v95 (broadcastInDim S4x1x10x32 ![0, 2, 3] bcast_S4x10x32_S4x1x10x32_0_2_3 : (⟨S4x10x32, .f32⟩ : BufTy).Contents (Elt F) → (⟨S4x1x10x32, .f32⟩ : BufTy).Contents (Elt F)),
    StableHlo.unary main_v94 main_v96 (broadcastInDim S4x10x10x32 ![0, 1, 2, 3] bcast_S4x10x1x32_S4x10x10x32_0_1_2_3 : (⟨S4x10x1x32, .f32⟩ : BufTy).Contents (Elt F) → (⟨S4x10x10x32, .f32⟩ : BufTy).Contents (Elt F)),
    StableHlo.unary main_v95 main_v97 (broadcastInDim S4x10x10x32 ![0, 1, 2, 3] bcast_S4x1x10x32_S4x10x10x32_0_1_2_3 : (⟨S4x1x10x32, .f32⟩ : BufTy).Contents (Elt F) → (⟨S4x10x10x32, .f32⟩ : BufTy).Contents (Elt F)),
    StableHlo.binary main_v96 main_v97 main_v98 (subf : (⟨S4x10x10x32, .f32⟩ : BufTy).Contents (Elt F) → (⟨S4x10x10x32, .f32⟩ : BufTy).Contents (Elt F) → (⟨S4x10x10x32, .f32⟩ : BufTy).Contents (Elt F)),
    StableHlo.binary main_v98 main_v98 main_v99 (mulf : (⟨S4x10x10x32, .f32⟩ : BufTy).Contents (Elt F) → (⟨S4x10x10x32, .f32⟩ : BufTy).Contents (Elt F) → (⟨S4x10x10x32, .f32⟩ : BufTy).Contents (Elt F)),
    StableHlo.nullary main_cst_32 (constant S_ .f32 0x00000000#32),
    StableHlo.binary main_v99 main_cst_32 main_v100 ((fun x v => Host.reduceAdd x v reducesTo_S4x10x10x32_S4x10x10_d3 h_S_) : (⟨S4x10x10x32, .f32⟩ : BufTy).Contents (Elt F) → (⟨S_, .f32⟩ : BufTy).Contents (Elt F) → (⟨S4x10x10, .f32⟩ : BufTy).Contents (Elt F)),
    StableHlo.nullary main_cst_33 (constant S_ .f32 0x2B8CBCCC#32),
    StableHlo.unary main_cst_33 main_v101 (broadcastInDim S4x10x10 ![] bcast_S_S4x10x10 : (⟨S_, .f32⟩ : BufTy).Contents (Elt F) → (⟨S4x10x10, .f32⟩ : BufTy).Contents (Elt F)),
    StableHlo.binary main_v100 main_v101 main_v102 (addf : (⟨S4x10x10, .f32⟩ : BufTy).Contents (Elt F) → (⟨S4x10x10, .f32⟩ : BufTy).Contents (Elt F) → (⟨S4x10x10, .f32⟩ : BufTy).Contents (Elt F)),
    StableHlo.unary main_v102 main_v103 (Host.sqrt : (⟨S4x10x10, .f32⟩ : BufTy).Contents (Elt F) → (⟨S4x10x10, .f32⟩ : BufTy).Contents (Elt F)),
    StableHlo.binary main_v103 main_v103 main_v104 (mulf : (⟨S4x10x10, .f32⟩ : BufTy).Contents (Elt F) → (⟨S4x10x10, .f32⟩ : BufTy).Contents (Elt F) → (⟨S4x10x10, .f32⟩ : BufTy).Contents (Elt F)),
    StableHlo.unary main_cst main_v105 (broadcastInDim S1x10x10 ![1, 2] bcast_S10x10_S1x10x10_1_2 : (⟨S10x10, .f32⟩ : BufTy).Contents (Elt F) → (⟨S1x10x10, .f32⟩ : BufTy).Contents (Elt F)),
    StableHlo.unary main_v105 main_v106 (broadcastInDim S4x10x10 ![0, 1, 2] bcast_S1x10x10_S4x10x10_0_1_2 : (⟨S1x10x10, .f32⟩ : BufTy).Contents (Elt F) → (⟨S4x10x10, .f32⟩ : BufTy).Contents (Elt F)),
    StableHlo.binary main_v106 main_v104 main_v107 (mulf : (⟨S4x10x10, .f32⟩ : BufTy).Contents (Elt F) → (⟨S4x10x10, .f32⟩ : BufTy).Contents (Elt F) → (⟨S4x10x10, .f32⟩ : BufTy).Contents (Elt F)),
    StableHlo.nullary main_cst_34 (constant S_ .f32 0x3F800000#32),
    StableHlo.unary main_cst_34 main_v108 (broadcastInDim S10x10 ![] bcast_S_S10x10 : (⟨S_, .f32⟩ : BufTy).Contents (Elt F) → (⟨S10x10, .f32⟩ : BufTy).Contents (Elt F)),
    StableHlo.binary main_v108 main_cst main_v109 (subf : (⟨S10x10, .f32⟩ : BufTy).Contents (Elt F) → (⟨S10x10, .f32⟩ : BufTy).Contents (Elt F) → (⟨S10x10, .f32⟩ : BufTy).Contents (Elt F)),
    StableHlo.nullary main_cst_35 (constant S_ .f32 0x3F800000#32),
    StableHlo.unary main_cst_35 main_v110 (broadcastInDim S4x10x10 ![] bcast_S_S4x10x10 : (⟨S_, .f32⟩ : BufTy).Contents (Elt F) → (⟨S4x10x10, .f32⟩ : BufTy).Contents (Elt F)),
    StableHlo.binary main_v110 main_v103 main_v111 (subf : (⟨S4x10x10, .f32⟩ : BufTy).Contents (Elt F) → (⟨S4x10x10, .f32⟩ : BufTy).Contents (Elt F) → (⟨S4x10x10, .f32⟩ : BufTy).Contents (Elt F)),
    StableHlo.nullary main_cst_36 (constant S_ .f32 0x00000000#32),
    StableHlo.unary main_cst_36 main_v112 (broadcastInDim S4x10x10 ![] bcast_S_S4x10x10 : (⟨S_, .f32⟩ : BufTy).Contents (Elt F) → (⟨S4x10x10, .f32⟩ : BufTy).Contents (Elt F)),
    StableHlo.binary main_v111 main_v112 main_v113 (maximumf : (⟨S4x10x10, .f32⟩ : BufTy).Contents (Elt F) → (⟨S4x10x10, .f32⟩ : BufTy).Contents (Elt F) → (⟨S4x10x10, .f32⟩ : BufTy).Contents (Elt F)),
    StableHlo.binary main_v113 main_v113 main_v114 (mulf : (⟨S4x10x10, .f32⟩ : BufTy).Contents (Elt F) → (⟨S4x10x10, .f32⟩ : BufTy).Contents (Elt F) → (⟨S4x10x10, .f32⟩ : BufTy).Contents (Elt F)),
    StableHlo.unary main_v109 main_v115 (broadcastInDim S1x10x10 ![1, 2] bcast_S10x10_S1x10x10_1_2 : (⟨S10x10, .f32⟩ : BufTy).Contents (Elt F) → (⟨S1x10x10, .f32⟩ : BufTy).Contents (Elt F)),
    StableHlo.unary main_v115 main_v116 (broadcastInDim S4x10x10 ![0, 1, 2] bcast_S1x10x10_S4x10x10_0_1_2 : (⟨S1x10x10, .f32⟩ : BufTy).Contents (Elt F) → (⟨S4x10x10, .f32⟩ : BufTy).Contents (Elt F)),
    StableHlo.binary main_v116 main_v114 main_v117 (mulf : (⟨S4x10x10, .f32⟩ : BufTy).Contents (Elt F) → (⟨S4x10x10, .f32⟩ : BufTy).Contents (Elt F) → (⟨S4x10x10, .f32⟩ : BufTy).Contents (Elt F)),
    StableHlo.binary main_v107 main_v117 main_v118 (addf : (⟨S4x10x10, .f32⟩ : BufTy).Contents (Elt F) → (⟨S4x10x10, .f32⟩ : BufTy).Contents (Elt F) → (⟨S4x10x10, .f32⟩ : BufTy).Contents (Elt F)),
    StableHlo.nullary main_cst_37 (constant S_ .f32 0x00000000#32),
    StableHlo.binary main_v118 main_cst_37 main_v119 ((fun x v => Host.reduceAdd x v reducesTo_S4x10x10_S_d0_1_2 h_S_) : (⟨S4x10x10, .f32⟩ : BufTy).Contents (Elt F) → (⟨S_, .f32⟩ : BufTy).Contents (Elt F) → (⟨S_, .f32⟩ : BufTy).Contents (Elt F)),
    StableHlo.nullary main_cst_38 (constant S_ .f32 0x43C80000#32),
    StableHlo.binary main_v119 main_cst_38 main_v120 (Host.divf : (⟨S_, .f32⟩ : BufTy).Contents (Elt F) → (⟨S_, .f32⟩ : BufTy).Contents (Elt F) → (⟨S_, .f32⟩ : BufTy).Contents (Elt F)),
    StableHlo.nullary main_cst_39 (constant S_ .f32 0x3C23D70A#32),
    StableHlo.binary main_cst_39 main_v91 main_v121 (mulf : (⟨S_, .f32⟩ : BufTy).Contents (Elt F) → (⟨S_, .f32⟩ : BufTy).Contents (Elt F) → (⟨S_, .f32⟩ : BufTy).Contents (Elt F)),
    StableHlo.binary main_v120 main_v121 main_v122 (addf : (⟨S_, .f32⟩ : BufTy).Contents (Elt F) → (⟨S_, .f32⟩ : BufTy).Contents (Elt F) → (⟨S_, .f32⟩ : BufTy).Contents (Elt F)) ]

/-- Every operation after the feature tensor `%19`, in order, through the one writing `%122`. -/
abbrev opsTail : List (HloOp τ sig (Elt F)) := opsT0 ++ (opsT1 ++ opsT2)

/-- @main's operations, in order: the head, then the tail. -/
abbrev ops : List (HloOp τ sig (Elt F)) := opsHead ++ opsTail

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_opsTail (V : Valuation τ sig (Elt F)) : after opsTail V = after opsT2 (after opsT1 (after opsT0 V)) := by
  simp only [opsTail, after_append]

theorem after_ops (V : Valuation τ sig (Elt F)) : after ops V = after opsTail (after opsHead V) := by
  simp only [ops, after_append]

/-! ## `main = seq ops`, window by window -/

set_option maxRecDepth 8192 in
set_option maxHeartbeats 4000000 in
theorem main_part0_eq (c : Dev nD) : main_part0 (F := F) c = seq (opsHead ++ opsT0) := rfl

set_option maxRecDepth 8192 in
set_option maxHeartbeats 4000000 in
theorem main_part1_eq (c : Dev nD) : main_part1 (F := F) c = seq opsT1 := rfl

set_option maxRecDepth 8192 in
set_option maxHeartbeats 4000000 in
theorem main_part2_eq (c : Dev nD) : main_part2 (F := F) c = seq opsT2 := rfl

/-- @main is that straight line: its three windows in order are the concatenation run as one. -/
theorem main_eq (c : Dev nD) : main (F := F) c = seq ops := by
  show (main_part0 (F := F) c >>= fun _ => main_part1 (F := F) c >>= fun _ => main_part2 (F := F) c)
      = seq (opsHead ++ (opsT0 ++ (opsT1 ++ opsT2)))
  rw [main_part0_eq, main_part1_eq, main_part2_eq, ← List.append_assoc opsHead opsT0 (opsT1 ++ opsT2),
    seq_append (opsHead ++ opsT0) (opsT1 ++ opsT2), seq_append opsT1 opsT2]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and none leaves a buffer undetermined -/

set_option maxRecDepth 8192 in
theorem opsHead_sub : (opsHead : List (HloOp τ sig (Elt F))).Forall fun op => op.bufs ⊆ tcRefs τ sig :=
  ⟨nullary_bufs_sub .., nullary_bufs_sub .., reshape_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., reshape_bufs_sub .., unary_bufs_sub .., reshape_bufs_sub .., binary_bufs_sub .., nullary_bufs_sub .., binary_bufs_sub .., nullary_bufs_sub .., unary_bufs_sub .., binary_bufs_sub .., unary_bufs_sub .., nullary_bufs_sub .., unary_bufs_sub .., binary_bufs_sub .., unary_bufs_sub .., binary_bufs_sub ..⟩

set_option maxRecDepth 8192 in
theorem opsT0_sub : (opsT0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., unary_bufs_sub .., binary_bufs_sub .., nullary_bufs_sub .., binary_bufs_sub .., nullary_bufs_sub .., binary_bufs_sub .., nullary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub ..⟩

set_option maxRecDepth 8192 in
theorem opsT1_sub : (opsT1 : List (HloOp τ sig (Elt F))).Forall fun op => op.bufs ⊆ tcRefs τ sig :=
  ⟨unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., unary_bufs_sub .., binary_bufs_sub .., nullary_bufs_sub .., binary_bufs_sub .., nullary_bufs_sub .., binary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., unary_bufs_sub .., binary_bufs_sub .., nullary_bufs_sub .., binary_bufs_sub .., nullary_bufs_sub .., binary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., unary_bufs_sub ..⟩

set_option maxRecDepth 8192 in
theorem opsT2_sub : (opsT2 : List (HloOp τ sig (Elt F))).Forall fun op => op.bufs ⊆ tcRefs τ sig :=
  ⟨binary_bufs_sub .., nullary_bufs_sub .., binary_bufs_sub .., nullary_bufs_sub .., binary_bufs_sub .., binary_bufs_sub .., unary_bufs_sub .., unary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, opsTail, List.mem_append] at h
    rcases h with h | h | h | h
    exacts [List.forall_iff_forall_mem.mp opsHead_sub op h, List.forall_iff_forall_mem.mp opsT0_sub op h,
      List.forall_iff_forall_mem.mp opsT1_sub op h, List.forall_iff_forall_mem.mp opsT2_sub op h]

set_option maxRecDepth 8192 in
theorem opsHead_fresh : ∀ op ∈ (opsHead : List (HloOp τ sig (Elt F))), op.fresh = ∅ := by
  intro _ h; (repeat (cases h with | head => rfl | tail _ h => ?_)); exact nomatch h

set_option maxRecDepth 8192 in
theorem opsT0_fresh : ∀ op ∈ (opsT0 : List (HloOp τ sig (Elt F))), op.fresh = ∅ := by
  intro _ h; (repeat (cases h with | head => rfl | tail _ h => ?_)); exact nomatch h

set_option maxRecDepth 8192 in
theorem opsT1_fresh : ∀ op ∈ (opsT1 : List (HloOp τ sig (Elt F))), op.fresh = ∅ := by
  intro _ h; (repeat (cases h with | head => rfl | tail _ h => ?_)); exact nomatch h

set_option maxRecDepth 8192 in
theorem opsT2_fresh : ∀ op ∈ (opsT2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, opsTail, List.mem_append] at h
  rcases h with h | h | h | h
  exacts [opsHead_fresh op h, opsT0_fresh op h, opsT1_fresh op h, opsT2_fresh op h]

/-! ## The buffers each piece writes -/

/-- The buffers that `opsHead`'s operations write, in order. -/
abbrev opsHead_W : List (Ref sig .tc) := [main_c, main_cst, main_v0, main_cst_0, main_v1, main_cst_1, main_v2, main_v3, main_v4, main_cst_2, main_v5, main_cst_3, main_v6, main_v7, main_v8, main_v9, main_v10, main_v11, main_cst_4, main_v12, main_cst_5, main_v13, main_v14, main_v15, main_cst_6, main_v16, main_v17, main_v18, main_v19]
set_option maxRecDepth 8192 in
theorem opsHead_writes : (opsHead : List (HloOp τ sig (Elt F))).Forall fun op =>
    op.writes ⊆ (opsHead_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The buffers that `opsT0`'s operations write, in order. -/
abbrev opsT0_W : List (Ref sig .tc) := [main_v20, main_c_7, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v21, main_v22, main_cst_8, main_v23, main_v24, main_v25, main_cst_9, main_v26, main_cst_10, main_v27, main_v28, main_v29, main_v30, main_v31, main_v32, main_v33, main_v34, main_cst_11, main_v35, main_cst_12, main_v36, main_cst_13, main_v37, main_v38, main_c_14, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v39, main_v40, main_cst_15, main_v41]
set_option maxRecDepth 8192 in
theorem opsT0_writes : (opsT0 : List (HloOp τ sig (Elt F))).Forall fun op =>
    op.writes ⊆ (opsT0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The buffers that `opsT1`'s operations write, in order. -/
abbrev opsT1_W : List (Ref sig .tc) := [main_v42, main_v43, main_cst_16, main_v44, main_cst_17, main_v45, main_v46, main_v47, main_v48, main_v49, main_v50, main_v51, main_v52, main_cst_18, main_v53, main_cst_19, main_v54, main_v55, main_v56, main_c_20, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v57, main_v58, main_cst_21, main_v59, main_v60, main_v61, main_cst_22, main_v62, main_cst_23, main_v63, main_v64, main_v65, main_v66, main_v67, main_v68, main_v69, main_v70, main_cst_24, main_v71, main_cst_25, main_v72, main_v73, main_v74, main_c_26, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v75, main_v76, main_cst_27, main_v77, main_v78, main_v79, main_cst_28, main_v80, main_cst_29, main_v81, main_v82, main_v83, main_v84, main_v85, main_v86, main_v87]
set_option maxRecDepth 8192 in
theorem opsT1_writes : (opsT1 : List (HloOp τ sig (Elt F))).Forall fun op =>
    op.writes ⊆ (opsT1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The buffers that `opsT2`'s operations write, in order. -/
abbrev opsT2_W : List (Ref sig .tc) := [main_v88, main_cst_30, main_v89, main_cst_31, main_v90, main_v91, main_v92, main_v93, main_v94, main_v95, main_v96, main_v97, main_v98, main_v99, main_cst_32, main_v100, main_cst_33, main_v101, main_v102, main_v103, main_v104, main_v105, main_v106, main_v107, main_cst_34, main_v108, main_v109, main_cst_35, main_v110, main_v111, main_cst_36, main_v112, main_v113, main_v114, main_v115, main_v116, main_v117, main_v118, main_cst_37, main_v119, main_cst_38, main_v120, main_cst_39, main_v121, main_v122]
set_option maxRecDepth 8192 in
theorem opsT2_writes : (opsT2 : List (HloOp τ sig (Elt F))).Forall fun op =>
    op.writes ⊆ (opsT2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- No operation writes the argument: it keeps its contents through the whole line. -/
theorem after_ops_arg0 (V : Valuation τ sig (Elt F)) :
    after ops V (Proc.devRef .tc main_arg0) = V (Proc.devRef .tc main_arg0) := by
  rw [after_ops, after_opsTail, after_of_writes_sub opsT2 _ opsT2_writes (by decide),
    after_of_writes_sub opsT1 _ opsT1_writes (by decide), after_of_writes_sub opsT0 _ opsT0_writes (by decide),
    after_of_writes_sub opsHead _ opsHead_writes (by decide)]

/-! ## The run -/

/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-- The argument is unchanged by the run. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c main_arg0).trans (after_ops_arg0 _)) (run m ρ)

end Cert.ReferenceIdeal.HRun

end
-- ==== Proof.RefHead.lean ====
/- The head of the reference program read at an index, at the ideal values: the feature tensor `%19` at (b, s, c) as
   a closed form in the argument's elements — the mean over a 512 × 50 patch, halved, plus the halved sum of
   squares over the patch of the channel mean. -/
import proofs.«168854_j60833916780679_2_alg».proof.Proof.RefRun
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.HHead

open Cert.ReferenceIdeal Cert.ReferenceIdeal.Gen Cert.ReferenceIdeal.HRun Idealize.ShloMosaic Idealize.ShloMosaic.TcCoe Idealize.SL.Sem Idealize.ShloMosaic.StableHlo Idealize.ShloMosaic.ValueIdx

/-! ## The head's values as vectors of the argument -/

/-- `%3`: the sum over each 512 × 50 patch, divided by the constant `0x46C80000` (25600). -/
def nodes (x : S4x32x512x500.Idx → EReal) : S4x32x10.Idx → EReal :=
  Host.divf (F := Ideal) (φ := .f32)
    (Host.reduceAdd (F := Ideal) (φ := .f32) (shapeCast S4x32x512x10x50 x shapeCasts_S4x32x512x500_S4x32x512x10x50)
      (constant S_ .f32 0x00000000#32) reducesTo_S4x32x512x10x50_S4x32x10_d2_4 h_S_)
    (broadcastInDim S4x32x10 ![] bcast_S_S4x32x10 (constant S_ .f32 0x46C80000#32))

/-- `%7`: the sum over the 32 channels, divided by the constant `0x42000000` (32). -/
def gray (x : S4x32x512x500.Idx → EReal) : S4x512x500.Idx → EReal :=
  Host.divf (F := Ideal) (φ := .f32)
    (Host.reduceAdd (F := Ideal) (φ := .f32) x (constant S_ .f32 0x00000000#32) reducesTo_S4x32x512x500_S4x512x500_d1 h_S_)
    (broadcastInDim S4x512x500 ![] bcast_S_S4x512x500 (constant S_ .f32 0x42000000#32))

/-- `%10`: `%7` cut into ten column bands of 50, each band's 512 × 50 elements in one row. -/
def patches (x : S4x32x512x500.Idx → EReal) : S4x10x25600.Idx → EReal :=
  shapeCast S4x10x25600
    (transpose S4x10x512x50 [0, 2, 1, 3] (shapeCast S4x512x10x50 (gray x) shapeCasts_S4x512x500_S4x512x10x50)
      transposes_S4x512x10x50_S4x10x512x50_0_2_1_3)
    shapeCasts_S4x10x512x50_S4x10x25600

/-- `%12`: the sum of squares of each band. -/
def texture (x : S4x32x512x500.Idx → EReal) : S4x10.Idx → EReal :=
  Host.reduceAdd (F := Ideal) (φ := .f32) (mulf (F := Ideal) (φ := .f32) (patches x) (patches x))
    (constant S_ .f32 0x00000000#32) reducesTo_S4x10x25600_S4x10_d2 h_S_

/-- `%19`: the transposed `%3` times one half plus `%12` times one half, the second broadcast along the channels. -/
def feats (x : S4x32x512x500.Idx → EReal) : S4x10x32.Idx → EReal :=
  addf (F := Ideal) (φ := .f32)
    (mulf (F := Ideal) (φ := .f32) (transpose S4x10x32 [0, 2, 1] (nodes x) transposes_S4x32x10_S4x10x32_0_2_1)
      (broadcastInDim S4x10x32 ![] bcast_S_S4x10x32 (constant S_ .f32 0x3F000000#32)))
    (broadcastInDim S4x10x32 ![0, 1, 2] bcast_S4x10x1_S4x10x32_0_1_2
      (mulf (F := Ideal) (φ := .f32) (broadcastInDim S4x10x1 ![0, 1] bcast_S4x10_S4x10x1_0_1 (texture x))
        (broadcastInDim S4x10x1 ![] bcast_S_S4x10x1 (constant S_ .f32 0x3F000000#32))))

set_option maxRecDepth 8192 in
/-- The fold of the head at `%19`'s buffer is that vector of the argument's contents. -/
theorem head_eq (V : Valuation τ sig (Elt Ideal)) :
    after (opsHead (F := Ideal)) V (Proc.devRef .tc main_v19) = feats (V (Proc.devRef .tc main_arg0)) := by
  after_results
  rfl

/-! ## The head read at an index -/

/-- The channel mean at (b, h, w): the initial value plus the sum over the 32 channels, divided by the constant
    `0x42000000` (32), the constants kept as their words. -/
def grayAt (x : S4x32x512x500.Idx → EReal) (b : Fin 4) (h : Fin 512) (w : Fin 500) : EReal :=
  Ideal.div (Ideal.ofBits .f32 0x00000000#32 + ∑ c : Fin 32, x (ix4 b c h w)) (Ideal.ofBits .f32 0x42000000#32)

theorem red1 : S4x32x512x500.Reduces [1] S4x512x500 := by decide
theorem red2 : S4x10x25600.Reduces [2] S4x10 := by decide

/-- The reduced index (b, h, w) with the channel inserted is (b, c, h, w). -/
theorem lift1 (b : Fin 4) (h : Fin 512) (w : Fin 500) (c : Fin 32) : red1.lift (ix3 b h w) c = ix4 b c h w := by
  funext a
  match a with
  | ⟨0, _⟩ => exact Fin.ext rfl
  | ⟨1, _⟩ => exact Fin.ext rfl
  | ⟨2, _⟩ => exact Fin.ext rfl
  | ⟨3, _⟩ => exact Fin.ext rfl

/-- The reduced index (b, s) with the band position inserted is (b, s, k). -/
theorem lift2 (b : Fin 4) (s : Fin 10) (k : Fin 25600) : red2.lift (ix2 b s) k = ix3 b s k := by
  funext a
  match a with
  | ⟨0, _⟩ => exact Fin.ext rfl
  | ⟨1, _⟩ => exact Fin.ext rfl
  | ⟨2, _⟩ => exact Fin.ext rfl

theorem gray_apply (x : S4x32x512x500.Idx → EReal) (b : Fin 4) (h : Fin 512) (w : Fin 500) :
    gray x (ix3 b h w) = grayAt x b h w := by
  unfold gray grayAt
  rw [hostDivf_apply, hostReduceAdd_apply, broadcastInDim_scalar_apply,
    Ideal.hostReduceAdd_single reducesTo_S4x32x512x500_S4x512x500_d1 red1]
  show Ideal.div (Ideal.ofBits .f32 0x00000000#32 + ∑ c : Fin 32, x (red1.lift (ix3 b h w) c)) (Ideal.ofBits .f32 0x42000000#32) = _
  simp only [lift1]

/-- The source indices that drop to (b, c, s) under the reduction over axes 2 and 4 are the (b, c, h, s, j). -/
theorem patch_sum (f : S4x32x512x10x50.Idx → EReal) (b : Fin 4) (c : Fin 32) (s : Fin 10) :
    ∑ i ∈ Finset.univ.filter (fun i => reducesTo_S4x32x512x10x50_S4x32x10_d2_4.drop i = ix3 b c s), f i
      = ∑ p : Fin 512 × Fin 50, f (ix5 b c p.1 s p.2) := by
  symm
  refine Finset.sum_bij (fun p _ => ix5 b c p.1 s p.2) ?_ ?_ ?_ ?_
  · intro p _
    refine Finset.mem_filter.mpr ⟨Finset.mem_univ _, ?_⟩
    funext a
    match a with
    | ⟨0, _⟩ => exact Fin.ext rfl
    | ⟨1, _⟩ => exact Fin.ext rfl
    | ⟨2, _⟩ => exact Fin.ext rfl
  · intro p _ q _ e
    exact Prod.ext (congrFun e (2 : Fin 5)) (congrFun e (4 : Fin 5))
  · intro i hi
    have hd := (Finset.mem_filter.mp hi).2
    have h0 : (i 0 : Fin 4) = b := Fin.ext (congrArg Fin.val (congrFun hd (0 : Fin 3)))
    have h1 : (i 1 : Fin 32) = c := Fin.ext (congrArg Fin.val (congrFun hd (1 : Fin 3)))
    have h3 : (i 3 : Fin 10) = s := Fin.ext (congrArg Fin.val (congrFun hd (2 : Fin 3)))
    refine ⟨(i 2, i 4), Finset.mem_univ _, ?_⟩
    rw [← h0, ← h1, ← h3]
    exact (eq_ix5 i).symm
  · intro p _
    rfl

theorem nodes_apply (x : S4x32x512x500.Idx → EReal) (b : Fin 4) (c : Fin 32) (s : Fin 10) :
    nodes x (ix3 b c s)
      = Ideal.div (Ideal.ofBits .f32 0x00000000#32
          + ∑ p : Fin 512 × Fin 50, x (ix4 b c p.1 ⟨50 * s.val + p.2.val, by omega⟩)) (Ideal.ofBits .f32 0x46C80000#32) := by
  unfold nodes
  rw [hostDivf_apply, hostReduceAdd_apply, broadcastInDim_scalar_apply]
  unfold Ideal.hostReduceAdd
  rw [patch_sum]
  show Ideal.div (Ideal.ofBits .f32 0x00000000#32 + ∑ p : Fin 512 × Fin 50,
      shapeCast S4x32x512x10x50 x shapeCasts_S4x32x512x500_S4x32x512x10x50 (ix5 b c p.1 s p.2)) (Ideal.ofBits .f32 0x46C80000#32) = _
  congr 2
  refine Finset.sum_congr rfl fun p _ => ?_
  refine shapeCast_apply x shapeCasts_S4x32x512x500_S4x32x512x10x50 (ix5 b c p.1 s p.2)
    (ix4 b c p.1 ⟨50 * s.val + p.2.val, by omega⟩) ?_
  rw [Shape.rowMajor_val_four, Shape.rowMajor_val_five]
  show ((b.val * 32 + c.val) * 512 + p.1.val) * 500 + (50 * s.val + p.2.val)
    = (((b.val * 32 + c.val) * 512 + p.1.val) * 10 + s.val) * 50 + p.2.val
  omega

theorem patches_apply (x : S4x32x512x500.Idx → EReal) (b : Fin 4) (s : Fin 10) (k : Fin 25600) :
    patches x (ix3 b s k) = grayAt x b ⟨k.val / 50, by omega⟩ ⟨50 * s.val + k.val % 50, by omega⟩ := by
  unfold patches
  refine (shapeCast_apply _ shapeCasts_S4x10x512x50_S4x10x25600 (ix3 b s k)
    (ix4 b s (⟨k.val / 50, by omega⟩ : Fin 512) (⟨k.val % 50, by omega⟩ : Fin 50)) ?_).trans ?_
  · rw [Shape.rowMajor_val_four, Shape.rowMajor_val_three]
    show ((b.val * 10 + s.val) * 512 + k.val / 50) * 50 + k.val % 50 = (b.val * 10 + s.val) * 25600 + k.val
    omega
  refine (transpose_apply [0, 2, 1, 3] _ transposes_S4x512x10x50_S4x10x512x50_0_2_1_3
    (ix4 b s (⟨k.val / 50, by omega⟩ : Fin 512) (⟨k.val % 50, by omega⟩ : Fin 50))
    (ix4 b (⟨k.val / 50, by omega⟩ : Fin 512) s (⟨k.val % 50, by omega⟩ : Fin 50))
    (fun a => match a with | ⟨0, _⟩ => rfl | ⟨1, _⟩ => rfl | ⟨2, _⟩ => rfl | ⟨3, _⟩ => rfl)).trans ?_
  refine (shapeCast_apply (gray x) shapeCasts_S4x512x500_S4x512x10x50
    (ix4 b (⟨k.val / 50, by omega⟩ : Fin 512) s (⟨k.val % 50, by omega⟩ : Fin 50))
    (ix3 b (⟨k.val / 50, by omega⟩ : Fin 512) (⟨50 * s.val + k.val % 50, by omega⟩ : Fin 500)) ?_).trans ?_
  · rw [Shape.rowMajor_val_three, Shape.rowMajor_val_four]
    show (b.val * 512 + k.val / 50) * 500 + (50 * s.val + k.val % 50)
      = ((b.val * 512 + k.val / 50) * 10 + s.val) * 50 + k.val % 50
    omega
  exact gray_apply x b _ _

theorem texture_apply (x : S4x32x512x500.Idx → EReal) (b : Fin 4) (s : Fin 10) :
    texture x (ix2 b s)
      = Ideal.ofBits .f32 0x00000000#32
        + ∑ k : Fin 25600, grayAt x b ⟨k.val / 50, by omega⟩ ⟨50 * s.val + k.val % 50, by omega⟩
            * grayAt x b ⟨k.val / 50, by omega⟩ ⟨50 * s.val + k.val % 50, by omega⟩ := by
  unfold texture
  rw [hostReduceAdd_apply, Ideal.hostReduceAdd_single reducesTo_S4x10x25600_S4x10_d2 red2]
  show Ideal.ofBits .f32 0x00000000#32 + ∑ k : Fin 25600, mulf (F := Ideal) (φ := .f32) (patches x) (patches x) (red2.lift (ix2 b s) k) = _
  simp only [lift2, mulf_apply, patches_apply]

theorem feats_vec_apply (x : S4x32x512x500.Idx → EReal) (b : Fin 4) (s : Fin 10) (c : Fin 32) :
    feats x (ix3 b s c)
      = nodes x (ix3 b c s) * Ideal.ofBits .f32 0x3F000000#32 + texture x (ix2 b s) * Ideal.ofBits .f32 0x3F000000#32 := by
  unfold feats
  simp only [addf_apply, mulf_apply]
  rw [broadcastInDim_scalar_apply,
    transpose_apply [0, 2, 1] (nodes x) transposes_S4x32x10_S4x10x32_0_2_1 (ix3 b s c) (ix3 b c s)
      (fun a => match a with | ⟨0, _⟩ => rfl | ⟨1, _⟩ => rfl | ⟨2, _⟩ => rfl),
    broadcastInDim_apply ![0, 1, 2] bcast_S4x10x1_S4x10x32_0_1_2 _ (ix3 b s c) (ix3 b s (0 : Fin 1))
      (fun a => match a with | ⟨0, _⟩ => rfl | ⟨1, _⟩ => rfl | ⟨2, _⟩ => rfl)]
  simp only [mulf_apply]
  rw [broadcastInDim_scalar_apply,
    broadcastInDim_apply ![0, 1] bcast_S4x10_S4x10x1_0_1 (texture x) (ix3 b s (0 : Fin 1)) (ix2 b s)
      (fun a => match a with | ⟨0, _⟩ => rfl | ⟨1, _⟩ => rfl)]
  rfl

/-- The argument's contents read as a function of the index. -/
abbrev argOf (V : Valuation τ sig (Elt Ideal)) : S4x32x512x500.Idx → EReal := V (Proc.devRef .tc main_arg0)

/-- THE HEAD AT AN INDEX: after the head's operations, from any contents `V`, the feature tensor `%19` at (b, s, c)
    is the patch mean of channel `c` times one half plus the band's sum of squared channel means times one half — the
    initial values and the constants kept as the printed words. -/
theorem feats_apply (V : Valuation τ sig (Elt Ideal)) (b : Fin 4) (s : Fin 10) (c : Fin 32) :
    after (opsHead (F := Ideal)) V (Proc.devRef .tc main_v19) (ix3 b s c)
      = Ideal.div (Ideal.ofBits .f32 0x00000000#32
            + ∑ p : Fin 512 × Fin 50,
                argOf V (ix4 b c p.1 ⟨50 * s.val + p.2.val, by omega⟩))
          (Ideal.ofBits .f32 0x46C80000#32) * Ideal.ofBits .f32 0x3F000000#32
        + (Ideal.ofBits .f32 0x00000000#32
            + ∑ k : Fin 25600,
                grayAt (argOf V) b ⟨k.val / 50, by omega⟩ ⟨50 * s.val + k.val % 50, by omega⟩
                  * grayAt (argOf V) b ⟨k.val / 50, by omega⟩ ⟨50 * s.val + k.val % 50, by omega⟩)
          * Ideal.ofBits .f32 0x3F000000#32 := by
  rw [head_eq]
  exact (feats_vec_apply (argOf V) b s c).trans (by rw [nodes_apply, texture_apply])

end Cert.ReferenceIdeal.HHead

end
-- ==== Proof.Tail.lean ====
/-
  The two programs end with the same 200 host operations.

  After the feature tensor feats[b,s,c] both programs run the same straight line: four levels of pairwise merging
  (segment sums over ids = iota / 2 and their counts, a division, the mean of squares added to a regulariser), the
  broadcast of the constant tree table to the first result, the pairwise squared distances of the ten leaf
  features, and the weighted contrastive loss over the constant 10 × 10 weight table, to which one hundredth of the
  regulariser is added: the second result. Read as a function of the buffer contents it starts from, this line
  depends only on the feature tensor and the two constant tables, and operation for operation the two programs'
  lines apply the same functions. So from contents that agree on the features and on the weight table the loss
  results agree, and from contents that agree on the tree table the tree results agree. The line is never opened:
  each side is folded to its composed term in one pass and the two terms are the same term.
-/
import proofs.«168854_j60833916780679_2_alg».proof.Proof.Gen.KernelIdeal.Launch
import proofs.«168854_j60833916780679_2_alg».proof.Proof.RefRun
import Idealize.ShloMosaic.Lib.StableHlo.Run
import Idealize.ShloMosaic.PureOps.Ideal

set_option maxRecDepth 131072

noncomputable section

open Idealize.ShloMosaic Idealize.ShloMosaic.TcCoe Idealize.ShloMosaic.StableHlo

namespace Cert.Tail

/-- The kernel program's operations after the feature tensor: the iota and the constant 2 that close its first
    stretch, then its eight later stretches. -/
abbrev tailK : List (HloOp Cert.KernelIdeal.τ Cert.KernelIdeal.sig (Elt Ideal)) :=
  [ StableHlo.nullary Cert.KernelIdeal.main_v9 (iotaInDim Cert.KernelIdeal.S10 32 0),
    StableHlo.nullary Cert.KernelIdeal.main_c_2 (constantI Cert.KernelIdeal.S_ 32 2#32) ] ++ (Cert.KernelIdeal.Gen.hostOps1_1 ++ (Cert.KernelIdeal.Gen.hostOps1_2 ++ (Cert.KernelIdeal.Gen.hostOps1_3 ++ (Cert.KernelIdeal.Gen.hostOps1_4 ++ (Cert.KernelIdeal.Gen.hostOps1_5 ++ (Cert.KernelIdeal.Gen.hostOps1_6 ++ (Cert.KernelIdeal.Gen.hostOps1_7 ++ Cert.KernelIdeal.Gen.hostOps1_8)))))))

/-- The two programs' constant tables are the same words. -/
theorem tree_table_eq : ∀ i : Fin 42, Cert.KernelIdeal.lit0 i = Cert.ReferenceIdeal.lit0 i := by decide
theorem weight_table_eq : ∀ i : Fin 100, Cert.KernelIdeal.lit1 i = Cert.ReferenceIdeal.lit1 i := by decide

set_option maxHeartbeats 20000000 in
/-- From contents agreeing on the features and the weight table, the loss results agree. -/
theorem loss_eq (Wk : Valuation Cert.KernelIdeal.τ Cert.KernelIdeal.sig (Elt Ideal)) (Wr : Valuation Cert.ReferenceIdeal.τ Cert.ReferenceIdeal.sig (Elt Ideal))
    (hf : Wk (Proc.devRef .tc Cert.KernelIdeal.main_v8) = Wr (Proc.devRef .tc Cert.ReferenceIdeal.main_v19))
    (hw : Wk (Proc.devRef .tc Cert.KernelIdeal.main_cst) = Wr (Proc.devRef .tc Cert.ReferenceIdeal.main_cst)) :
    after tailK Wk (Proc.devRef .tc Cert.KernelIdeal.main_v111) = after Cert.ReferenceIdeal.HRun.opsTail Wr (Proc.devRef .tc Cert.ReferenceIdeal.main_v122) := by
  simp only [tailK, Cert.ReferenceIdeal.HRun.opsTail, Cert.ReferenceIdeal.HRun.opsT0, Cert.ReferenceIdeal.HRun.opsT1, Cert.ReferenceIdeal.HRun.opsT2, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, List.cons_append, List.nil_append]
  after_results_simp
  rw [hf, hw]
  rfl

set_option maxHeartbeats 20000000 in
/-- From contents agreeing on the tree table, the tree results agree. -/
theorem tree_eq (Wk : Valuation Cert.KernelIdeal.τ Cert.KernelIdeal.sig (Elt Ideal)) (Wr : Valuation Cert.ReferenceIdeal.τ Cert.ReferenceIdeal.sig (Elt Ideal))
    (hc : Wk (Proc.devRef .tc Cert.KernelIdeal.main_c) = Wr (Proc.devRef .tc Cert.ReferenceIdeal.main_c)) :
    after tailK Wk (Proc.devRef .tc Cert.KernelIdeal.main_v82) = after Cert.ReferenceIdeal.HRun.opsTail Wr (Proc.devRef .tc Cert.ReferenceIdeal.main_v93) := by
  simp only [tailK, Cert.ReferenceIdeal.HRun.opsTail, Cert.ReferenceIdeal.HRun.opsT0, Cert.ReferenceIdeal.HRun.opsT1, Cert.ReferenceIdeal.HRun.opsT2, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, List.cons_append, List.nil_append]
  after_results_simp
  rw [hc]

end Cert.Tail

end
-- ==== Proof.FeatsEq.lean ====
/-
  The two programs' feature tensors are equal, and so are the constant tables they pass on.

  At (b, s, ch) the kernel program has (node array)·½ + (texture array)·½ of its two region results, the reference
  (patch mean)·½ + (sum of squared channel means)·½ of x. The node array is the patch mean: the same 25600 entries
  summed in the kernel's arrangement (two tiles of 256 rows, then the strip's 50 columns) and multiplied by the named
  1/25600, against their sum divided by 25600. The texture array is the reference's sum of squares: the channel mean
  is the channel sum times 1/32 on one side and divided by 32 on the other, and the squares are summed in the same
  two arrangements. Addition of extended reals is commutative and associative, and dividing by a nonzero real is
  multiplying by its inverse on every extended real, so no finiteness is used.
-/
import proofs.«168854_j60833916780679_2_alg».proof.Proof.KIFeats
import proofs.«168854_j60833916780679_2_alg».proof.Proof.RefHead
import proofs.«168854_j60833916780679_2_alg».proof.Proof.Tail
import Idealize.ShloMosaic.PureOps.IdealRules

set_option maxRecDepth 131072

noncomputable section

namespace Cert.Join

open Idealize.ShloMosaic Idealize.ShloMosaic.TcCoe Idealize.ShloMosaic.StableHlo Idealize.SL.Sem
open Idealize.ShloMosaic.ValueIdx
open Cert.Bridge (col lo hi grayK grayR)

/-- The kernel's named reciprocal denotes the rational 1/25600 at the ideal instance, by the certificate's table. -/
theorem inv_25600 : Named.named (F := Ideal) Cert.KernelIdeal.κ "inv_25600" (φ := .f32) 0x3823D70A#32 = ((1 / 25600 : ℝ) : EReal) :=
  IdealRules.named_const.ideal_named_scalar _ _ _ _ rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The feature tensors agree when the two programs are launched on the same x. -/
theorem feats_eq (c : Dev Cert.KernelIdeal.nD)
    (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    after Cert.KernelIdeal.PayIdeal.headK (Cert.KernelIdeal.Region.exitContents m c) (Proc.devRef .tc Cert.KernelIdeal.main_v8)
      = after (Cert.ReferenceIdeal.HRun.opsHead (F := Ideal)) (launchContents m' c) (Proc.devRef .tc Cert.ReferenceIdeal.main_v19) := by
  funext i
  obtain ⟨b, s, ch, rfl⟩ : ∃ (b : Fin 4) (s : Fin 10) (ch : Fin 32), i = ix3 b s ch := ⟨i 0, i 1, i 2, eq_ix3 i⟩
  refine (Cert.KernelIdeal.PayIdeal.feats_apply_of_eq _ (Cert.KernelIdeal.Region.nodesArr m c) (Cert.KernelIdeal.Region.textureArr m c) (Cert.KernelIdeal.Region.exit_nodes m c) (Cert.KernelIdeal.Region.exit_texture m c) b s ch).trans ?_
  refine Eq.trans ?_ (Cert.ReferenceIdeal.HHead.feats_apply _ b s ch).symm
  rw [Cert.KernelIdeal.Region.nodesArr_apply, Cert.KernelIdeal.Region.textureArr_apply]
  rw [Cert.Bridge.nodes_bridge (fun h j => Cert.KernelIdeal.Region.xOf m c (ix4 b ch h (col s j))) _ inv_25600]
  rw [Cert.Bridge.texture_bridge (fun h w => Cert.KernelIdeal.Region.gOf m c b h w) s]
  have hxa : Cert.ReferenceIdeal.HHead.argOf (launchContents m' c) = Cert.KernelIdeal.Region.xOf m c := hx
  have hg : ∀ (h : Fin 512) (w : Fin 500), Cert.KernelIdeal.Region.gOf m c b h w = Cert.ReferenceIdeal.HHead.grayAt (Cert.KernelIdeal.Region.xOf m c) b h w :=
    fun h w => (Cert.Bridge.gray_eq _ h w).trans rfl
  rw [hxa]
  simp only [hg]

/-- The kernel program's first ten later lines leave the two constant tables alone. -/
theorem headK_weights (W : Valuation Cert.KernelIdeal.τ Cert.KernelIdeal.sig (Elt Ideal)) :
    after Cert.KernelIdeal.PayIdeal.headK W (Proc.devRef .tc Cert.KernelIdeal.main_cst) = W (Proc.devRef .tc Cert.KernelIdeal.main_cst) := by
  simp only [Cert.KernelIdeal.PayIdeal.headK]
  after_results
theorem headK_tree (W : Valuation Cert.KernelIdeal.τ Cert.KernelIdeal.sig (Elt Ideal)) :
    after Cert.KernelIdeal.PayIdeal.headK W (Proc.devRef .tc Cert.KernelIdeal.main_c) = W (Proc.devRef .tc Cert.KernelIdeal.main_c) := by
  simp only [Cert.KernelIdeal.PayIdeal.headK]
  after_results

/-- The reference's head writes the two tables' printed words. -/
theorem refHead_weights (V : Valuation Cert.ReferenceIdeal.τ Cert.ReferenceIdeal.sig (Elt Ideal)) :
    after (Cert.ReferenceIdeal.HRun.opsHead (F := Ideal)) V (Proc.devRef .tc Cert.ReferenceIdeal.main_cst)
      = (fun i => FloatOps.ofBits (F := Ideal) .f32 (Cert.ReferenceIdeal.lit1 (Cert.ReferenceIdeal.S10x10.rowMajor i)) : Cert.ReferenceIdeal.S10x10.Idx → Elt Ideal .f32) := by
  simp only [Cert.ReferenceIdeal.HRun.opsHead]
  after_results
  try rfl
theorem refHead_tree (V : Valuation Cert.ReferenceIdeal.τ Cert.ReferenceIdeal.sig (Elt Ideal)) :
    after (Cert.ReferenceIdeal.HRun.opsHead (F := Ideal)) V (Proc.devRef .tc Cert.ReferenceIdeal.main_c)
      = (fun i => Cert.ReferenceIdeal.lit0 (Cert.ReferenceIdeal.S21x2.rowMajor i) : Cert.ReferenceIdeal.S21x2.Idx → BitVec 32) := by
  simp only [Cert.ReferenceIdeal.HRun.opsHead]
  after_results
  try rfl

/-- So the contents the two tails start from agree on the weight table and on the tree table. -/
theorem weights_eq (c : Dev Cert.KernelIdeal.nD) :
    after Cert.KernelIdeal.PayIdeal.headK (Cert.KernelIdeal.Region.exitContents m c) (Proc.devRef .tc Cert.KernelIdeal.main_cst)
      = after (Cert.ReferenceIdeal.HRun.opsHead (F := Ideal)) (launchContents m' c) (Proc.devRef .tc Cert.ReferenceIdeal.main_cst) := by
  rw [headK_weights, Cert.KernelIdeal.Region.exit_weights, refHead_weights]
  funext i
  exact congrArg (FloatOps.ofBits (F := Ideal) .f32) (Cert.Tail.weight_table_eq _)
theorem tree_eq (c : Dev Cert.KernelIdeal.nD) :
    after Cert.KernelIdeal.PayIdeal.headK (Cert.KernelIdeal.Region.exitContents m c) (Proc.devRef .tc Cert.KernelIdeal.main_c)
      = after (Cert.ReferenceIdeal.HRun.opsHead (F := Ideal)) (launchContents m' c) (Proc.devRef .tc Cert.ReferenceIdeal.main_c) := by
  rw [headK_tree, Cert.KernelIdeal.Region.exit_tree, refHead_tree]
  funext i
  exact Cert.Tail.tree_table_eq _

/-- The kernel program's later lines are its first ten followed by the shared tail. -/
theorem laterLines_flatten : (Cert.KernelIdeal.Region.laterLines).flatten = Cert.KernelIdeal.PayIdeal.headK ++ Cert.Tail.tailK := by
  show (Cert.KernelIdeal.Gen.hostOps1 (F := Ideal)) ++ _ = _
  rw [Cert.KernelIdeal.PayIdeal.hostOps1_split]
  rfl

end Cert.Join

end
-- ==== Proof.lean ====
/-
  The certificate of the tiled reduction kernel against its jnp reference.

  The kernel streams x[4,32,512,500] once through a 4 × 2 grid, keeping per-channel column sums and column sums of
  squared channel means in two scratch buffers across the two tiles of a row, and folds them into a [4,10,32] array
  of strip means and a [4,10,1] array of strip texture energies; 210 host operations then build a merge hierarchy's
  regulariser and a contrastive loss from them. The reference computes the same two arrays by whole-array means and
  sums and runs the same later operations.

  Frames: the two kernel programs run by the library's frame theorem for a region followed by host lines, over a body
  obligation proved per case (first tile / last tile) with the two running sums tracked in the region invariant; the
  reference is a straight line of host operations. The ideal pass named one constant, 1/25600, whose statement is its
  rule's. At the ideal instance both programs' feature tensors are one function of x (regrouped sums; division by
  25600 and by 32 against multiplication by their inverses), the constant tables are the same words, and the 200
  operations after the features are the same functions in the same order: so both results agree.
-/
import proofs.«168854_j60833916780679_2_alg».proof.Defs
import proofs.«168854_j60833916780679_2_alg».proof.Proof.KBFrame
import proofs.«168854_j60833916780679_2_alg».proof.Proof.FeatsEq
import proofs.«168854_j60833916780679_2_alg».proof.Proof.Gen.Pre_finite_inputs
import Idealize.ShloMosaic.Adequacy
import Idealize.ShloMosaic.Init

set_option maxRecDepth 131072

noncomputable section

namespace Cert.Proof

open Idealize.ShloMosaic Idealize.ShloMosaic.TcCoe Idealize.ShloMosaic.StableHlo Idealize.SL.Sem

theorem frame_kernel : Cert.frame_Kernel := fun m ρ _ => Cert.Kernel.Region.frame m ρ
theorem frame_kernelIdeal : Cert.frame_KernelIdeal := fun m ρ _ => Cert.KernelIdeal.Region.frame m ρ
theorem frame_referenceIdeal : Cert.frame_ReferenceIdeal := fun m ρ _ => Cert.ReferenceIdeal.HRun.frame m ρ

/-- The ideal pass's one rewrite: the literal 3.9062499e-05 is named 1/25600, the value the table gives it. -/
theorem preserves : Cert.preserves_Kernel_KernelIdeal :=
  IdealRules.named_const.statement Cert.KernelIdeal.κ "inv_25600" .f32 0x3823D70A#32 ((1 / 25600 : ℝ) : EReal) rfl

/-- Both programs end with the shared tail applied to contents that agree where the tail reads them. -/
theorem algebraic : Cert.algebraic_KernelIdeal_ReferenceIdeal := by
  intro m ρ m' ρ' _ hagree
  refine ⟨fun c => after Cert.Tail.tailK (after Cert.KernelIdeal.PayIdeal.headK (Cert.KernelIdeal.Region.exitContents m c)) (Proc.devRef .tc Cert.KernelIdeal.main_v82),
    fun c => after Cert.Tail.tailK (after Cert.KernelIdeal.PayIdeal.headK (Cert.KernelIdeal.Region.exitContents m c)) (Proc.devRef .tc Cert.KernelIdeal.main_v111), ?_, ?_⟩
  · refine (θ_run Cert.KernelIdeal.defs _ _).mono (fun _ h c => ⟨(h c).1.trans ?_, (h c).2.1.trans ?_, (h c).2.2⟩) (Cert.KernelIdeal.Region.run_results m ρ)
    · rw [Cert.Join.laterLines_flatten, StableHlo.after_append]
    · rw [Cert.Join.laterLines_flatten, StableHlo.after_append]
  · refine (θ_run Cert.ReferenceIdeal.defs _ _).mono (fun _ h c => ⟨(h c Cert.ReferenceIdeal.main_v93).trans ?_, (h c Cert.ReferenceIdeal.main_v122).trans ?_, (h c Cert.ReferenceIdeal.main_arg0).trans ?_⟩)
      (Cert.ReferenceIdeal.HRun.run m' ρ')
    · rw [Cert.ReferenceIdeal.HRun.after_ops]
      exact (Cert.Tail.tree_eq _ _ (Cert.Join.tree_eq m m' c)).symm
    · rw [Cert.ReferenceIdeal.HRun.after_ops]
      exact (Cert.Tail.loss_eq _ _ (Cert.Join.feats_eq m m' c (hagree c)) (Cert.Join.weights_eq m m' c)).symm
    · exact Cert.ReferenceIdeal.HRun.after_ops_arg0 _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
